-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x16 : Shape := ⟨2, ![128, 16]⟩
abbrev S3200000 : Shape := ⟨1, ![3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S100000x128 .f32) (main_arg1 : FVec F S128x16 .f32) (main_arg2 : IVec S3200000 32) (main_arg3 : IVec S3200000 32) (main_arg4 : IVec S3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  main_v8
-- ==== Kernel.lean ====
abbrev S100000x128 : Shape := ⟨2, ![100000, 128]⟩
abbrev S128x16 : Shape := ⟨2, ![128, 16]⟩
abbrev S3200000 : Shape := ⟨1, ![3200000]⟩
abbrev S16x16 : Shape := ⟨2, ![16, 16]⟩
abbrev S_ : Shape := ⟨0, ![]⟩
abbrev S100000x16 : Shape := ⟨2, ![100000, 16]⟩
abbrev S10000x128 : Shape := ⟨2, ![10000, 128]⟩
abbrev S10000x16 : Shape := ⟨2, ![10000, 16]⟩
abbrev S10000 : Shape := ⟨1, ![10000]⟩
abbrev S10000x1 : Shape := ⟨2, ![10000, 1]⟩
abbrev S3200000x16 : Shape := ⟨2, ![3200000, 16]⟩
abbrev S3200000x1 : Shape := ⟨2, ![3200000, 1]⟩
abbrev S8000x16 : Shape := ⟨2, ![8000, 16]⟩
abbrev S8000 : Shape := ⟨1, ![8000]⟩
abbrev S8000x1 : Shape := ⟨2, ![8000, 1]⟩

abbrev nBuf : Space → Nat
  | .hbm => 110
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S128x16, .f32⟩
  | .hbm, ⟨2, _⟩ => ⟨S3200000, .i32⟩
  | .hbm, ⟨3, _⟩ => ⟨S3200000, .i32⟩
  | .hbm, ⟨4, _⟩ => ⟨S3200000, .i32⟩
  | .hbm, ⟨5, _⟩ => ⟨S16x16, .i32⟩
  | .hbm, ⟨6, _⟩ => ⟨S16x16, .i32⟩
  | .hbm, ⟨7, _⟩ => ⟨S_, .i32⟩
  | .hbm, ⟨8, _⟩ => ⟨S16x16, .i32⟩
  | .hbm, ⟨9, _⟩ => ⟨S16x16, .i32⟩
  | .hbm, ⟨10, _⟩ => ⟨S16x16, .i1⟩
  | .hbm, ⟨11, _⟩ => ⟨S16x16, .f32⟩
  | .hbm, ⟨12, _⟩ => ⟨S_, .f32⟩
  | .hbm, ⟨13, _⟩ => ⟨S16x16, .f32⟩
  | .hbm, ⟨14, _⟩ => ⟨S16x16, .f32⟩
  | .hbm, ⟨15, _⟩ => ⟨S16x16, .f32⟩
  | .hbm, ⟨16, _⟩ => ⟨S100000x16, .f32⟩
  | .hbm, ⟨17, _⟩ => ⟨S100000x16, .f32⟩
  | .hbm, ⟨18, _⟩ => ⟨S_, .f32⟩
  | .hbm, ⟨19, _⟩ => ⟨S3200000x16, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x16, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x16, .f32⟩
  | .hbm, ⟨38, _⟩ => ⟨S3200000x16, .f32⟩
  | .hbm, ⟨39, _⟩ => ⟨S3200000x16, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S100000x16, .f32⟩
  | .hbm, ⟨49, _⟩ => ⟨S100000x16, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x16, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x16, .f32⟩
  | .hbm, ⟨68, _⟩ => ⟨S3200000x16, .f32⟩
  | .hbm, ⟨69, _⟩ => ⟨S3200000x16, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S100000x16, .f32⟩
  | .hbm, ⟨79, _⟩ => ⟨S100000x16, .f32⟩
  | .hbm, ⟨80, _⟩ => ⟨S_, .i32⟩
  | .hbm, ⟨81, _⟩ => ⟨S3200000, .i32⟩
  | .hbm, ⟨82, _⟩ => ⟨S3200000, .i1⟩
  | .hbm, ⟨83, _⟩ => ⟨S_, .i32⟩
  | .hbm, ⟨84, _⟩ => ⟨S3200000, .i32⟩
  | .hbm, ⟨85, _⟩ => ⟨S3200000, .i32⟩
  | .hbm, ⟨86, _⟩ => ⟨S3200000, .i32⟩
  | .hbm, ⟨87, _⟩ => ⟨S3200000x1, .i32⟩
  | .hbm, ⟨88, _⟩ => ⟨S3200000x16, .f32⟩
  | .hbm, ⟨89, _⟩ => ⟨S_, .i32⟩
  | .hbm, ⟨90, _⟩ => ⟨S3200000, .i32⟩
  | .hbm, ⟨91, _⟩ => ⟨S3200000, .i1⟩
  | .hbm, ⟨92, _⟩ => ⟨S_, .i32⟩
  | .hbm, ⟨93, _⟩ => ⟨S3200000, .i32⟩
  | .hbm, ⟨94, _⟩ => ⟨S3200000, .i32⟩
  | .hbm, ⟨95, _⟩ => ⟨S3200000, .i32⟩
  | .hbm, ⟨96, _⟩ => ⟨S3200000x1, .i32⟩
  | .hbm, ⟨97, _⟩ => ⟨S3200000x16, .f32⟩
  | .hbm, ⟨98, _⟩ => ⟨S3200000x16, .f32⟩
  | .hbm, ⟨99, _⟩ => ⟨S3200000x16, .f32⟩
  | .hbm, ⟨100, _⟩ => ⟨S_, .i32⟩
  | .hbm, ⟨101, _⟩ => ⟨S3200000, .i32⟩
  | .hbm, ⟨102, _⟩ => ⟨S3200000, .i1⟩
  | .hbm, ⟨103, _⟩ => ⟨S_, .i32⟩
  | .hbm, ⟨104, _⟩ => ⟨S3200000, .i32⟩
  | .hbm, ⟨105, _⟩ => ⟨S3200000, .i32⟩
  | .hbm, ⟨106, _⟩ => ⟨S3200000, .i32⟩
  | .hbm, ⟨107, _⟩ => ⟨S3200000x1, .i32⟩
  | .hbm, ⟨108, _⟩ => ⟨S100000x16, .f32⟩
  | .hbm, ⟨109, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S8000x16, .f32⟩
  | .local _ .vmem, ⟨8, _⟩ => ⟨S8000x16, .f32⟩
  | .local _ .vmem, ⟨9, _⟩ => ⟨S8000x16, .f32⟩
  | .local _ .vmem, ⟨10, _⟩ => ⟨S8000x16, .f32⟩
  | .local _ .vmem, ⟨11, _⟩ => ⟨S16x16, .f32⟩
  | .local _ .vmem, ⟨12, _⟩ => ⟨S8000x16, .f32⟩
  | .local _ .vmem, ⟨13, _⟩ => ⟨S8000x16, .f32⟩
  | .local _ .vmem, ⟨14, _⟩ => ⟨S8000x16, .f32⟩
  | .local _ .vmem, ⟨15, _⟩ => ⟨S8000x16, .f32⟩
  | .local _ .vmem, ⟨16, _⟩ => ⟨S10000x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S8000x16, .f32⟩
  | .local _ .vmem, ⟨21, _⟩ => ⟨S8000x16, .f32⟩
  | .local _ .vmem, ⟨22, _⟩ => ⟨S8000x16, .f32⟩
  | .local _ .vmem, ⟨23, _⟩ => ⟨S8000x16, .f32⟩
  | .local _ .vmem, ⟨24, _⟩ => ⟨S16x16, .f32⟩
  | .local _ .vmem, ⟨25, _⟩ => ⟨S8000x16, .f32⟩
  | .local _ .vmem, ⟨26, _⟩ => ⟨S8000x16, .f32⟩
  | .local _ .vmem, ⟨27, _⟩ => ⟨S8000x16, .f32⟩
  | .local _ .vmem, ⟨28, _⟩ => ⟨S8000x16, .f32⟩
  | .local _ .vmem, ⟨29, _⟩ => ⟨S10000x16, .f32⟩
  | .local _ .vmem, ⟨30, _⟩ => ⟨S10000x16, .f32⟩
  | .local _ .vmem, ⟨31, _⟩ => ⟨S10000x16, .f32⟩
  | .local _ .vmem, ⟨32, _⟩ => ⟨S10000x16, .f32⟩
  | .local _ .vmem, ⟨33, _⟩ => ⟨S8000x16, .f32⟩
  | .local _ .vmem, ⟨34, _⟩ => ⟨S8000x16, .f32⟩
  | .local _ .vmem, ⟨35, _⟩ => ⟨S8000x16, .f32⟩
  | .local _ .vmem, ⟨36, _⟩ => ⟨S8000x16, .f32⟩
  | .local _ .vmem, ⟨37, _⟩ => ⟨S16x16, .f32⟩
  | .local _ .vmem, ⟨38, _⟩ => ⟨S8000x16, .f32⟩
  | .local _ .vmem, ⟨39, _⟩ => ⟨S8000x16, .f32⟩
  | .local _ .vmem, ⟨40, _⟩ => ⟨S8000x16, .f32⟩
  | .local _ .vmem, ⟨41, _⟩ => ⟨S8000x16, .f32⟩
  | .local _ .vmem, ⟨42, _⟩ => ⟨S10000x16, .f32⟩
  | .local _ .vmem, ⟨43, _⟩ => ⟨S10000x16, .f32⟩
  | .local _ .vmem, ⟨44, _⟩ => ⟨S10000x16, .f32⟩
  | .local _ .vmem, ⟨45, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_cst_0 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48_0 : Ref sig .tc := ⟨.hbm, 68, rfl⟩
abbrev main_v48_1 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_15 : Ref sig .tc := ⟨.hbm, 89, rfl⟩
abbrev main_v64 : Ref sig .tc := ⟨.hbm, 90, rfl⟩
abbrev main_v65 : Ref sig .tc := ⟨.hbm, 91, rfl⟩
abbrev main_c_16 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71_0 : Ref sig .tc := ⟨.hbm, 98, rfl⟩
abbrev main_v71_1 : Ref sig .tc := ⟨.hbm, 99, rfl⟩
abbrev main_c_17 : Ref sig .tc := ⟨.hbm, 100, rfl⟩
abbrev main_v72 : Ref sig .tc := ⟨.hbm, 101, rfl⟩
abbrev main_v73 : Ref sig .tc := ⟨.hbm, 102, rfl⟩
abbrev main_c_18 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem1_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![400], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![400], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S16x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S8000x16 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  bcast_S_S16x16 : S_.BroadcastsInDim S16x16 (![] : Fin 0 → Fin S16x16.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  reduces_S10000x16_S10000 : S10000x16.Reduces [1] S10000
  shapeCasts_S10000_S10000x1 : S10000.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  bcast_S_S3200000x16 : S_.BroadcastsInDim S3200000x16 (![] : Fin 0 → Fin S3200000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  reduces_S8000x16_S8000 : S8000x16.Reduces [1] S8000
  shapeCasts_S8000_S8000x1 : S8000.ShapeCasts S8000x1
  broadcasts_S8000x1_S8000x16 : S8000x1.Broadcasts S8000x16
  shapeCasts_S10000x16_S10000x16 : S10000x16.ShapeCasts S10000x16
  dot_S10000x128_S128x16_S10000x16_1_0_0_1_n_n_wf : DotDims.WF S10000x128 S128x16 S10000x16 [1] [0] [0] [1] [] []
  gather_S100000x16_S3200000x1_S3200000x16_1_0_n_n_0_1_116_wf : GatherDims.WF S100000x16 S3200000x1 S3200000x16 [1] [0] [] [0] [] 1 ![1, 16]
  gather_S3200000x16_S3200000x1_S3200000x16_1_0_n_n_0_1_116_wf : GatherDims.WF S3200000x16 S3200000x1 S3200000x16 [1] [0] [] [0] [] 1 ![1, 16]
  dot_S8000x16_S16x16_S8000x16_1_0_0_1_n_n_wf : DotDims.WF S8000x16 S16x16 S8000x16 [1] [0] [0] [1] [] []
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S3200000x16.size a
  hwx1_0 : ∀ i : grid1.Coords, EltTy.bits .f32 = 32 ∨ (Rect.block (s := S3200000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x16.size a ≤ S3200000x16.size a
  hwx1_1 : ∀ i : grid1.Coords, EltTy.bits .f32 = 32 ∨ (Rect.block (s := S3200000x16) S8000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x16.size a ≤ S3200000x16.size a
  hwx1_3 : ∀ i : grid1.Coords, EltTy.bits .f32 = 32 ∨ (Rect.block (s := S3200000x16) S8000x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x16.size a ≤ S3200000x16.size a
  hwx1_4 : ∀ i : grid1.Coords, EltTy.bits .f32 = 32 ∨ (Rect.block (s := S3200000x16) S8000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x16.size a ≤ S3200000x16.size a
  hwx3_0 : ∀ i : grid3.Coords, EltTy.bits .f32 = 32 ∨ (Rect.block (s := S3200000x16) S8000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x16.size a ≤ S3200000x16.size a
  hwx3_1 : ∀ i : grid3.Coords, EltTy.bits .f32 = 32 ∨ (Rect.block (s := S3200000x16) S8000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x16.size a ≤ S3200000x16.size a
  hwx3_3 : ∀ i : grid3.Coords, EltTy.bits .f32 = 32 ∨ (Rect.block (s := S3200000x16) S8000x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x16.size a ≤ S3200000x16.size a
  hwx3_4 : ∀ i : grid3.Coords, EltTy.bits .f32 = 32 ∨ (Rect.block (s := S3200000x16) S8000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x16.size a ≤ S100000x16.size a
  hwx4_1 : ∀ i : grid4.Coords, EltTy.bits .f32 = 32 ∨ (Rect.block (s := S100000x16) S10000x16.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x16.size a ≤ S3200000x16.size a
  hwx5_0 : ∀ i : grid5.Coords, EltTy.bits .f32 = 32 ∨ (Rect.block (s := S3200000x16) S8000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x16.size a ≤ S3200000x16.size a
  hwx5_1 : ∀ i : grid5.Coords, EltTy.bits .f32 = 32 ∨ (Rect.block (s := S3200000x16) S8000x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16x16.size a ≤ S16x16.size a
  hwx5_2 : ∀ i : grid5.Coords, EltTy.bits .f32 = 32 ∨ (Rect.block (s := S16x16) S16x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x16.size a ≤ S3200000x16.size a
  hwx5_3 : ∀ i : grid5.Coords, EltTy.bits .f32 = 32 ∨ (Rect.block (s := S3200000x16) S8000x16.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8000x16.size a ≤ S3200000x16.size a
  hwx5_4 : ∀ i : grid5.Coords, EltTy.bits .f32 = 32 ∨ (Rect.block (s := S3200000x16) S8000x16.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x16.size a ≤ S100000x16.size a
  hwx6_0 : ∀ i : grid6.Coords, EltTy.bits .f32 = 32 ∨ (Rect.block (s := S100000x16) S10000x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x16.size a ≤ S100000x16.size a
  hwx6_1 : ∀ i : grid6.Coords, EltTy.bits .f32 = 32 ∨ (Rect.block (s := S100000x16) S10000x16.size (cc6_transform_1 i) (hinb6_1 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def gather_S3200000x16_S3200000x1_S3200000x16_1_0_n_n_0_1_116 : GatherDims S3200000x16 S3200000x1 S3200000x16 where
  offsetDims := [1]
  collapsedSliceDims := [0]
  operandBatchingDims := []
  startIndicesBatchingDims := []
  startIndexMap := [0]
  indexVectorDim := 1
  sliceSizes := ![1, 16]
  wf := gather_S3200000x16_S3200000x1_S3200000x16_1_0_n_n_0_1_116_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9_0) S10000x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_1) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S8000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25_0) S8000x16.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25_1) S8000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v32) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10000x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v40) S8000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S8000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48_0) S8000x16.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v48_1) S8000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v55) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S10000x16.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v63) S8000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S8000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v8) S16x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71_0) S8000x16.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v71_1) S8000x16.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v78) S10000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S10000x16.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S100000x128 : Shape := ⟨2, ![100000, 128]⟩
abbrev S128x16 : Shape := ⟨2, ![128, 16]⟩
abbrev S3200000 : Shape := ⟨1, ![3200000]⟩
abbrev S16x16 : Shape := ⟨2, ![16, 16]⟩
abbrev S_ : Shape := ⟨0, ![]⟩
abbrev S100000x16 : Shape := ⟨2, ![100000, 16]⟩
abbrev S100000 : Shape := ⟨1, ![100000]⟩
abbrev S100000x1 : Shape := ⟨2, ![100000, 1]⟩
abbrev S3200000x16 : Shape := ⟨2, ![3200000, 16]⟩
abbrev S3200000x1 : Shape := ⟨2, ![3200000, 1]⟩

abbrev nBuf : Space → Nat
  | .hbm => 193
  | .vmem => 0
  | .smem => 0
  | _ => 0

abbrev hbmTy0_0 (i : Nat) : BufTy := match i % 128 with
  | 0 => ⟨S100000x128, .f32⟩
  | 1 => ⟨S128x16, .f32⟩
  | 2 => ⟨S3200000, .i32⟩
  | 3 => ⟨S3200000, .i32⟩
  | 4 => ⟨S3200000, .i32⟩
  | 5 => ⟨S16x16, .i32⟩
  | 6 => ⟨S16x16, .i32⟩
  | 7 => ⟨S_, .i32⟩
  | 8 => ⟨S16x16, .i32⟩
  | 9 => ⟨S16x16, .i32⟩
  | 10 => ⟨S16x16, .i1⟩
  | 11 => ⟨S16x16, .f32⟩
  | 12 => ⟨S_, .f32⟩
  | 13 => ⟨S16x16, .f32⟩
  | 14 => ⟨S16x16, .f32⟩
  | 15 => ⟨S16x16, .f32⟩
  | 16 => ⟨S100000x16, .f32⟩
  | 17 => ⟨S_, .f32⟩
  | 18 => ⟨S100000, .f32⟩
  | 19 => ⟨S_, .f32⟩
  | 20 => ⟨S100000, .f32⟩
  | 21 => ⟨S100000, .f32⟩
  | 22 => ⟨S100000x1, .f32⟩
  | 23 => ⟨S100000x16, .f32⟩
  | 24 => ⟨S100000x16, .f32⟩
  | 25 => ⟨S100000x16, .f32⟩
  | 26 => ⟨S_, .f32⟩
  | 27 => ⟨S100000, .f32⟩
  | 28 => ⟨S100000x1, .f32⟩
  | 29 => ⟨S100000x16, .f32⟩
  | 30 => ⟨S100000x16, .f32⟩
  | 31 => ⟨S_, .f32⟩
  | 32 => ⟨S100000x16, .f32⟩
  | 33 => ⟨S100000x16, .f32⟩
  | 34 => ⟨S100000x16, .f32⟩
  | 35 => ⟨S_, .f32⟩
  | 36 => ⟨S3200000x16, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x16, .f32⟩
  | 46 => ⟨S_, .i32⟩
  | 47 => ⟨S3200000, .i32⟩
  | 48 => ⟨S3200000, .i1⟩
  | 49 => ⟨S_, .i32⟩
  | 50 => ⟨S3200000, .i32⟩
  | 51 => ⟨S3200000, .i32⟩
  | 52 => ⟨S3200000, .i32⟩
  | 53 => ⟨S3200000x1, .i32⟩
  | 54 => ⟨S3200000x16, .f32⟩
  | 55 => ⟨S3200000x16, .f32⟩
  | 56 => ⟨S3200000x16, .f32⟩
  | 57 => ⟨S_, .f32⟩
  | 58 => ⟨S3200000, .f32⟩
  | 59 => ⟨S3200000x1, .f32⟩
  | 60 => ⟨S3200000x16, .f32⟩
  | 61 => ⟨S3200000x16, .f32⟩
  | 62 => ⟨S_, .f32⟩
  | 63 => ⟨S3200000x16, .f32⟩
  | 64 => ⟨S3200000x16, .f32⟩
  | 65 => ⟨S3200000x16, .f32⟩
  | 66 => ⟨S_, .i32⟩
  | 67 => ⟨S3200000, .i32⟩
  | 68 => ⟨S3200000, .i1⟩
  | 69 => ⟨S_, .i32⟩
  | 70 => ⟨S3200000, .i32⟩
  | 71 => ⟨S3200000, .i32⟩
  | 72 => ⟨S3200000, .i32⟩
  | 73 => ⟨S3200000x1, .i32⟩
  | 74 => ⟨S100000x16, .f32⟩
  | 75 => ⟨S_, .f32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x16, .f32⟩
  | 82 => ⟨S100000x16, .f32⟩
  | 83 => ⟨S100000x16, .f32⟩
  | 84 => ⟨S_, .f32⟩
  | 85 => ⟨S100000, .f32⟩
  | 86 => ⟨S100000x1, .f32⟩
  | 87 => ⟨S100000x16, .f32⟩
  | 88 => ⟨S100000x16, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x16, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000x16, .f32⟩
  | 107 => ⟨S3200000x16, .f32⟩
  | 108 => ⟨S3200000x16, .f32⟩
  | 109 => ⟨S_, .f32⟩
  | 110 => ⟨S3200000, .f32⟩
  | 111 => ⟨S3200000x1, .f32⟩
  | 112 => ⟨S3200000x16, .f32⟩
  | 113 => ⟨S3200000x16, .f32⟩
  | 114 => ⟨S_, .f32⟩
  | 115 => ⟨S3200000x16, .f32⟩
  | 116 => ⟨S3200000x16, .f32⟩
  | 117 => ⟨S3200000x16, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S100000x16, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x16, .f32⟩
  | 6 => ⟨S100000x16, .f32⟩
  | 7 => ⟨S100000x16, .f32⟩
  | 8 => ⟨S_, .f32⟩
  | 9 => ⟨S100000, .f32⟩
  | 10 => ⟨S100000x1, .f32⟩
  | 11 => ⟨S100000x16, .f32⟩
  | 12 => ⟨S100000x16, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S3200000x16, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000x16, .f32⟩
  | 31 => ⟨S3200000x16, .f32⟩
  | 32 => ⟨S3200000x16, .f32⟩
  | 33 => ⟨S_, .f32⟩
  | 34 => ⟨S3200000, .f32⟩
  | 35 => ⟨S3200000x1, .f32⟩
  | 36 => ⟨S3200000x16, .f32⟩
  | 37 => ⟨S3200000x16, .f32⟩
  | 38 => ⟨S_, .f32⟩
  | 39 => ⟨S3200000x16, .f32⟩
  | 40 => ⟨S3200000x16, .f32⟩
  | 41 => ⟨S3200000x16, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S100000x16, .f32⟩
  | 51 => ⟨S_, .f32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x16, .f32⟩
  | 58 => ⟨S100000x16, .f32⟩
  | 59 => ⟨S100000x16, .f32⟩
  | 60 => ⟨S_, .f32⟩
  | 61 => ⟨S100000, .f32⟩
  | 62 => ⟨S100000x1, .f32⟩
  | 63 => ⟨S100000x16, .f32⟩
  | 64 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_c_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_16 : Ref sig .tc := ⟨.hbm, 89, rfl⟩
abbrev main_v66 : Ref sig .tc := ⟨.hbm, 90, rfl⟩
abbrev main_v67 : Ref sig .tc := ⟨.hbm, 91, rfl⟩
abbrev main_c_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_18 : Ref sig .tc := ⟨.hbm, 98, rfl⟩
abbrev main_v73 : Ref sig .tc := ⟨.hbm, 99, rfl⟩
abbrev main_v74 : Ref sig .tc := ⟨.hbm, 100, rfl⟩
abbrev main_c_19 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_20 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_21 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_22 : Ref sig .tc := ⟨.hbm, 118, rfl⟩
abbrev main_v89 : Ref sig .tc := ⟨.hbm, 119, rfl⟩
abbrev main_v90 : Ref sig .tc := ⟨.hbm, 120, rfl⟩
abbrev main_c_23 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_24 : Ref sig .tc := ⟨.hbm, 127, rfl⟩
abbrev main_v96 : Ref sig .tc := ⟨.hbm, 128, rfl⟩
abbrev main_cst_25 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_26 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_c_27 : Ref sig .tc := ⟨.hbm, 141, rfl⟩
abbrev main_v107 : Ref sig .tc := ⟨.hbm, 142, rfl⟩
abbrev main_v108 : Ref sig .tc := ⟨.hbm, 143, rfl⟩
abbrev main_c_28 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_c_29 : Ref sig .tc := ⟨.hbm, 150, rfl⟩
abbrev main_v114 : Ref sig .tc := ⟨.hbm, 151, rfl⟩
abbrev main_v115 : Ref sig .tc := ⟨.hbm, 152, rfl⟩
abbrev main_c_30 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_31 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_32 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_33 : Ref sig .tc := ⟨.hbm, 170, rfl⟩
abbrev main_v130 : Ref sig .tc := ⟨.hbm, 171, rfl⟩
abbrev main_v131 : Ref sig .tc := ⟨.hbm, 172, rfl⟩
abbrev main_c_34 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_35 : Ref sig .tc := ⟨.hbm, 179, rfl⟩
abbrev main_v137 : Ref sig .tc := ⟨.hbm, 180, rfl⟩
abbrev main_cst_36 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_37 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩

abbrev nD : Nat := 1
abbrev τ : Topo := Topo.v7x

variable {F : FTy → Type} [FloatOps F]

class Facts₀ : Prop where
  bcast_S_S16x16 : S_.BroadcastsInDim S16x16 (![] : Fin 0 → Fin S16x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  bcast_S_S3200000x16 : S_.BroadcastsInDim S3200000x16 (![] : Fin 0 → Fin S3200000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x16_S3200000_d1 : S3200000x16.ReducesTo [1] S3200000
  bcast_S3200000x1_S3200000x16_0_1 : S3200000x1.BroadcastsInDim S3200000x16 (![0, 1] : Fin 2 → Fin S3200000x16.rank)
  dot_S100000x128_S128x16_S100000x16_1_0_0_1_n_n_wf : DotDims.WF S100000x128 S128x16 S100000x16 [1] [0] [0] [1] [] []
  gather_S100000x16_S3200000x1_S3200000x16_1_0_n_n_0_1_116_wf : GatherDims.WF S100000x16 S3200000x1 S3200000x16 [1] [0] [] [0] [] 1 ![1, 16]
  gather_S3200000x16_S3200000x1_S3200000x16_1_0_n_n_0_1_116_wf : GatherDims.WF S3200000x16 S3200000x1 S3200000x16 [1] [0] [] [0] [] 1 ![1, 16]
  dot_S3200000x16_S16x16_S3200000x16_1_0_0_1_n_n_wf : DotDims.WF S3200000x16 S16x16 S3200000x16 [1] [0] [0] [1] [] []
  scatter_S100000x16_S3200000x1_S3200000x16_1_0_0_1_wf : ScatterDims.WF S100000x16 S3200000x1 S3200000x16 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def gather_S3200000x16_S3200000x1_S3200000x16_1_0_n_n_0_1_116 : GatherDims S3200000x16 S3200000x1 S3200000x16 where
  offsetDims := [1]
  collapsedSliceDims := [0]
  operandBatchingDims := []
  startIndicesBatchingDims := []
  startIndexMap := [0]
  indexVectorDim := 1
  sliceSizes := ![1, 16]
  wf := gather_S3200000x16_S3200000x1_S3200000x16_1_0_n_n_0_1_116_wf
def dot_S3200000x16_S16x16_S3200000x16_1_0_0_1_n_n : DotDims S3200000x16 S16x16 S3200000x16 where
  lhsContracting := [1]
  rhsContracting := [0]
  lhsNonContracting := [0]
  rhsNonContracting := [1]
  lhsBatch := []
  rhsBatch := []
  wf := dot_S3200000x16_S16x16_S3200000x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.KRun.lean ====
/-
  The kernel's run keeping its two results: from any memory with zero counters every weakly fair execution of the
  kernel's program terminates with the two result buffers at the contents the last segment boundary names for them, and
  the five arguments as launched.
-/
import proofs.«147059_j74191265071404_2_alg».proof.Proof.Gen.KernelIdeal.Frame
import Idealize.ShloMosaic.PureOps.Ideal

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency.types false in
/-- The launch over the segments, the last thread state read against the final state: every unscoped buffer ends at the
    last boundary's contents; kept here are the two results at those contents and the five arguments, which walk back to
    the launch memory. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9_0) = W14 (F := Ideal) m ρ c (Proc.devRef .tc main_v9_0)
      ∧ r.2.mem ((c.tc : Thread nD τ).loc main_v79) = W14 (F := Ideal) m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v9_0 (by decide)),
       h c _ (mem_uc main_v79 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c)⟩)

end Cert.KernelIdeal.KRun

end
-- ==== Proof.Chain.lean ====
/-
  The reference's dense stages and its irregular glue, each as one whole-array function, and the belief-propagation
  network they compose: priors = softmax(x·W); three rounds of message = diffuse(beliefs[src], messages[rev], potential),
  beliefs = softmax(log_priors.at[dst].add(log message)). The gathers, the scatter-add and the index wrap stay opaque
  whole-array functions: both programs apply the same ones to equal arrays.
-/
import proofs.«147059_j74191265071404_2_alg».proof.ReferenceIdeal
import proofs.«147059_j74191265071404_2_alg».proof.Proof.Gen.ReferenceIdeal
import Idealize.ShloMosaic.PureOps.Ideal

noncomputable section

namespace Cert.Chain

open Cert.ReferenceIdeal Cert.ReferenceIdeal.Gen Idealize.ShloMosaic

/-- Node arrays [100000,16], edge arrays [3200000,16], index vectors and columns, the potential, the two inputs. -/
abbrev TN := FVec Ideal S100000x16 .f32
abbrev TE := FVec Ideal S3200000x16 .f32
abbrev TI := IVec S3200000 32
abbrev TJ := IVec S3200000x1 32
abbrev TP := FVec Ideal S16x16 .f32
abbrev TX := FVec Ideal S100000x128 .f32
abbrev TW := FVec Ideal S128x16 .f32

/-- exp of the identity matrix times one. -/
def pot : TP :=
  Host.exp (mulf (uitofp .f32 (cmpi .eq (addi (iotaInDim S16x16 32 0) (broadcastInDim S16x16 ![] bcast_S_S16x16 (constantI S_ 32 0#32))) (iotaInDim S16x16 32 1))) (broadcastInDim S16x16 ![] bcast_S_S16x16 (constant S_ .f32 0x3F800000#32)))

/-- x · W. -/
def dot (x : TX) (w : TW) : TN := Host.dotGeneral dot_S100000x128_S128x16_S100000x16_1_0_0_1_n_n none x w

/-- exp(x − rowmax x), the row maximum taken from −∞ and once more against −∞. -/
def expShift (x : TN) : TN :=
  Host.exp (subf x (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf x (constant S_ .f32 0xFF800000#32) reducesTo_S100000x16_S100000_d1 h_S_)))))

/-- Each row divided by its sum (node arrays). -/
def normN (e : TN) : TN :=
  Host.divf e (broadcastInDim S100000x16 ![0, 1] bcast_S100000x1_S100000x16_0_1 (broadcastInDim S100000x1 ![0] bcast_S100000_S100000x1_0 (Host.reduceAdd e (constant S_ .f32 0x00000000#32) reducesTo_S100000x16_S100000_d1 h_S_)))

/-- Row softmax of a node array. -/
def softmax (x : TN) : TN := normN (expShift x)

/-- log(max(·, 1e-10)) on node and on edge arrays. -/
def logClampN (x : TN) : TN := Host.log (maximumf x (broadcastInDim S100000x16 ![] bcast_S_S100000x16 (constant S_ .f32 0x2EDBE6FF#32)))
def logClampE (x : TE) : TE := Host.log (maximumf x (broadcastInDim S3200000x16 ![] bcast_S_S3200000x16 (constant S_ .f32 0x2EDBE6FF#32)))

/-- Array indexing's wrap of negative indices by the extent n, as a column of start indices. -/
def wrap (n : BitVec 32) (a : TI) : TJ :=
  broadcastInDim S3200000x1 ![0] bcast_S3200000_S3200000x1_0 (select (cmpi .slt a (broadcastInDim S3200000 ![] bcast_S_S3200000 (constantI S_ 32 0#32))) (addi a (broadcastInDim S3200000 ![] bcast_S_S3200000 (constantI S_ 32 n))) a)

/-- Rows of a node array, and of an edge array, picked by a column of indices. -/
def gatherN (t : TN) (i : TJ) : TE := Host.gather gather_S100000x16_S3200000x1_S3200000x16_1_0_n_n_0_1_116 t i
def gatherE (t : TE) (i : TJ) : TE := Host.gather gather_S3200000x16_S3200000x1_S3200000x16_1_0_n_n_0_1_116 t i

/-- Edge rows added into the node rows their indices name. -/
def scat (o : TN) (i : TJ) (u : TE) : TN := Host.scatterAdd scatter_S100000x16_S3200000x1_S3200000x16_1_0_0_1 o i u

/-- The uniform first messages, 1/16 everywhere. -/
def msg0 : TE := broadcastInDim S3200000x16 ![] bcast_S_S3200000x16 (constant S_ .f32 0x3D800000#32)

/-- (nb / rm) · potential. -/
def mix (nb rm : TE) (p : TP) : TE := Host.dotGeneral dot_S3200000x16_S16x16_S3200000x16_1_0_0_1_n_n none (Host.divf nb rm) p

/-- Each row divided by its sum (edge arrays). -/
def normE (d : TE) : TE :=
  Host.divf d (broadcastInDim S3200000x16 ![0, 1] bcast_S3200000x1_S3200000x16_0_1 (broadcastInDim S3200000x1 ![0] bcast_S3200000_S3200000x1_0 (Host.reduceAdd d (constant S_ .f32 0x00000000#32) reducesTo_S3200000x16_S3200000_d1 h_S_)))

/-- One diffusion step on gathered rows. -/
def diffuse (nb rm : TE) (p : TP) : TE := normE (mix nb rm p)

/-- The priors. -/
def priors (a0 : TX) (a1 : TW) : TN := softmax (dot a0 a1)

/-- New messages from the current beliefs and messages. -/
def step (a2 a4 : TI) (b : TN) (m : TE) : TE :=
  diffuse (gatherN b (wrap 100000#32 a2)) (gatherE m (wrap 3200000#32 a4)) pot

/-- New beliefs from the log priors and the new messages. -/
def belief (lp : TN) (a3 : TI) (m : TE) : TN := softmax (scat lp (wrap 100000#32 a3) (logClampE m))

/-- The beliefs after three rounds. -/
def beliefs (a0 : TX) (a1 : TW) (a2 a3 a4 : TI) : TN :=
  belief (logClampN (priors a0 a1)) a3
    (step a2 a4 (belief (logClampN (priors a0 a1)) a3 (step a2 a4 (belief (logClampN (priors a0 a1)) a3 (step a2 a4 (priors a0 a1) msg0)) (step a2 a4 (priors a0 a1) msg0)))
      (step a2 a4 (belief (logClampN (priors a0 a1)) a3 (step a2 a4 (priors a0 a1) msg0)) (step a2 a4 (priors a0 a1) msg0)))

end Cert.Chain

end
-- ==== Proof.Rows.lean ====
/-
  One row of the three dense stages, on the extended reals.

  A softmax row: with M the maximum of the row (the fold of max from −∞), entry k is exp(l k − M) / Σ_k' exp(l k' − M).
  A clamped logarithm: log(max(x, ε)), ε the f32 word of 1e-10 read as it stands.
  A diffusion row: with ratio j = nb j / rm j and mixed k = Σ_j ratio j · pot j k, entry k is mixed k / Σ_k' mixed k'.
-/
import Idealize.ShloMosaic.PureOps.Ideal

noncomputable section

namespace Cert.Rows

open Idealize.ShloMosaic

/-- −∞, as the f32 word both programs write for it. -/
def negInf : EReal := Ideal.ofBits .f32 0xFF800000#32

/-- The clamp of the logarithms: the f32 word of 1e-10. -/
def eps : EReal := Ideal.ofBits .f32 0x2EDBE6FF#32

/-- A row's maximum: the fold of max over the row from −∞. -/
def rowMax {n : ℕ} (l : Fin n → EReal) : EReal := (Finset.univ : Finset (Fin n)).fold max negInf l

/-- Softmax of a row at entry k. -/
def sm {n : ℕ} (l : Fin n → EReal) (k : Fin n) : EReal :=
  Ideal.div (Ideal.exp (l k - rowMax l)) (∑ k' : Fin n, Ideal.exp (l k' - rowMax l))

/-- log(max(x, ε)). -/
def clampLog (x : EReal) : EReal := Ideal.log (max x eps)

/-- The ratio row against column k of the potential. -/
def mixRow {n : ℕ} (nb rm : Fin n → EReal) (pot : Fin n → Fin n → EReal) (k : Fin n) : EReal :=
  ∑ j : Fin n, Ideal.div (nb j) (rm j) * pot j k

/-- One diffusion row at entry k: the mixed row renormalised by its sum. -/
def diff {n : ℕ} (nb rm : Fin n → EReal) (pot : Fin n → Fin n → EReal) (k : Fin n) : EReal :=
  Ideal.div (mixRow nb rm pot k) (∑ k' : Fin n, mixRow nb rm pot k')

/-- Taking the maximum with −∞ again changes nothing: the fold starts there. -/
theorem max_rowMax {n : ℕ} (l : Fin n → EReal) : max negInf (rowMax l) = rowMax l :=
  max_eq_right ((Finset.le_fold_max negInf).mpr (Or.inl le_rfl))

end Cert.Rows

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.PayAt.lean ====
/- The kernels' stored values read at one entry of a block: each is its row's function of the block rows. -/
import proofs.«147059_j74191265071404_2_alg».proof.Proof.Gen.KernelIdeal.Skeleton
import proofs.«147059_j74191265071404_2_alg».proof.Proof.Rows
import proofs.«147059_j74191265071404_2_alg».proof.Proof.LibMatmulAt
import proofs.«147059_j74191265071404_2_alg».proof.Proof.LibKeepdims
import Idealize.ShloMosaic.Lib.ValueIdx
import Idealize.ShloMosaic.Lib.Pipeline.Value

noncomputable section

namespace Cert.PayAt

open Cert.KernelIdeal Cert.KernelIdeal.Gen Idealize.ShloMosaic Idealize.ShloMosaic.ValueIdx

/-- A row reduction kept as a column and broadcast back reads, at (p, q), the reduced vector at p. -/
theorem keep_apply {a b : ℕ} (r : FVec Ideal ⟨1, ![a]⟩ .f32)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ r hc) hb (ix2 p q) = r (ix1 p) :=
  (Cert.Lib.Keepdims.broadcastTo_a1_ab_apply _ hb p q).trans (Cert.Lib.Keepdims.shapeCast_a_a1_apply r hc p 0)

/-- The softmax of a block, as the kernels compute it (row maximum from −∞ kept as a column, shifted exponentials, row
    sum kept as a column, quotient), read at (p, q): the softmax of row p at entry q. -/
theorem softmax_block_apply {a b : ℕ} (z : FVec Ideal ⟨2, ![a, b]⟩ .f32)
    (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec (FTy.bits .f32)) = FKind.maximumf.neutral .f32 hφ)
    (hadd : (0x00000000#32 : BitVec (FTy.bits .f32)) = FKind.add.neutral .f32 hφ) (p : Fin a) (q : Fin b) :
    divf
      (exp (subf z (broadcastTo ⟨2, ![a, b]⟩ (shapeCast ⟨2, ![a, 1]⟩
        (multiReduction (F := Ideal) .maximumf [1] ⟨1, ![a]⟩ z 0xFF800000#32 hr hφ hmax) hc) hb)))
      (broadcastTo ⟨2, ![a, b]⟩ (shapeCast ⟨2, ![a, 1]⟩
        (multiReduction (F := Ideal) .add [1] ⟨1, ![a]⟩
          (exp (subf z (broadcastTo ⟨2, ![a, b]⟩ (shapeCast ⟨2, ![a, 1]⟩
            (multiReduction (F := Ideal) .maximumf [1] ⟨1, ![a]⟩ z 0xFF800000#32 hr hφ hmax) hc) hb)))
          0x00000000#32 hr hφ hadd) hc) hb)
      (ix2 p q)
      = Cert.Rows.sm (fun k : Fin b => z (ix2 p k)) q := by
  have hsub : ∀ k : Fin b, exp (subf z (broadcastTo ⟨2, ![a, b]⟩ (shapeCast ⟨2, ![a, 1]⟩
        (multiReduction (F := Ideal) .maximumf [1] ⟨1, ![a]⟩ z 0xFF800000#32 hr hφ hmax) hc) hb)) (ix2 p k)
      = Ideal.exp (z (ix2 p k) - Cert.Rows.rowMax (fun k : Fin b => z (ix2 p k))) := by
    intro k
    show Ideal.exp (z (ix2 p k) - broadcastTo ⟨2, ![a, b]⟩ (shapeCast ⟨2, ![a, 1]⟩
        (multiReduction (F := Ideal) .maximumf [1] ⟨1, ![a]⟩ z 0xFF800000#32 hr hφ hmax) hc) hb (ix2 p k)) = _
    rw [keep_apply, Cert.Lib.Keepdims.rowMaximum_apply]
    rfl
  show Ideal.div (exp (subf z _) (ix2 p q)) (broadcastTo ⟨2, ![a, b]⟩ (shapeCast ⟨2, ![a, 1]⟩ _ hc) hb (ix2 p q)) = _
  rw [keep_apply, Cert.Lib.Keepdims.rowSum_apply, hsub q]
  unfold Cert.Rows.sm
  exact congrArg _ (Finset.sum_congr rfl fun k _ => hsub k)

/-- A block renormalised by its row sums (row sum kept as a column, quotient), read at (p, q). -/
theorem rownorm_block_apply {a b : ℕ} (z : FVec Ideal ⟨2, ![a, b]⟩ .f32)
    (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hadd : (0x00000000#32 : BitVec (FTy.bits .f32)) = FKind.add.neutral .f32 hφ)
    (p : Fin a) (q : Fin b) :
    divf z (broadcastTo ⟨2, ![a, b]⟩ (shapeCast ⟨2, ![a, 1]⟩
        (multiReduction (F := Ideal) .add [1] ⟨1, ![a]⟩ z 0x00000000#32 hr hφ hadd) hc) hb) (ix2 p q)
      = Ideal.div (z (ix2 p q)) (∑ k : Fin b, z (ix2 p k)) := by
  show Ideal.div (z (ix2 p q)) (broadcastTo ⟨2, ![a, b]⟩ (shapeCast ⟨2, ![a, 1]⟩ _ hc) hb (ix2 p q)) = _
  rw [keep_apply, Cert.Lib.Keepdims.rowSum_apply]

theorem k0_pay1_apply (x : FVec Ideal S10000x128 .f32) (w : FVec Ideal S128x16 .f32) (p : Fin 10000) (q : Fin 16) :
    k0_pay1 (F := Ideal) x w (ix2 p q) = Cert.Rows.sm (fun k : Fin 16 => ∑ j : Fin 128, x (ix2 p j) * w (ix2 j k)) q := by
  unfold k0_pay1
  refine (softmax_block_apply _ _ _ _ _ _ _ p q).trans ?_
  refine congrArg (fun l : Fin 16 → EReal => Cert.Rows.sm l q) (funext fun k => ?_)
  exact Cert.KernelIdeal.Hand.matmul_zero_plain_apply _ rfl none _ _ (ix2 p k)

theorem k0_pay2_apply (x : FVec Ideal S10000x128 .f32) (w : FVec Ideal S128x16 .f32) (p : Fin 10000) (q : Fin 16) :
    k0_pay2 (F := Ideal) x w (ix2 p q)
      = Cert.Rows.clampLog (Cert.Rows.sm (fun k : Fin 16 => ∑ j : Fin 128, x (ix2 p j) * w (ix2 j k)) q) := by
  unfold k0_pay2
  show Ideal.log (max (k0_pay1 (F := Ideal) x w (ix2 p q)) (Ideal.ofBits .f32 0x2EDBE6FF#32)) = _
  rw [k0_pay1_apply]
  rfl

theorem k1_pay1_apply (nb rm : FVec Ideal S8000x16 .f32) (pt : FVec Ideal S16x16 .f32) (p : Fin 8000) (q : Fin 16) :
    k1_pay1 (F := Ideal) nb rm pt (ix2 p q)
      = Cert.Rows.diff (fun j : Fin 16 => nb (ix2 p j)) (fun j : Fin 16 => rm (ix2 p j)) (fun (j k : Fin 16) => pt (ix2 j k)) q := by
  unfold k1_pay1
  rw [shapeCast_self, shapeCast_self, shapeCast_self]
  refine (rownorm_block_apply _ _ _ _ _ _ p q).trans ?_
  unfold Cert.Rows.diff
  refine congrArg₂ Ideal.div ?_ (Finset.sum_congr rfl fun k _ => ?_)
  · exact Cert.KernelIdeal.Hand.matmul_zero_plain_apply _ rfl none _ _ (ix2 p q)
  · exact Cert.KernelIdeal.Hand.matmul_zero_plain_apply _ rfl none _ _ (ix2 p k)

theorem k1_pay2_apply (nb rm : FVec Ideal S8000x16 .f32) (pt : FVec Ideal S16x16 .f32) (p : Fin 8000) (q : Fin 16) :
    k1_pay2 (F := Ideal) nb rm pt (ix2 p q)
      = Cert.Rows.clampLog (Cert.Rows.diff (fun j : Fin 16 => nb (ix2 p j)) (fun j : Fin 16 => rm (ix2 p j)) (fun (j k : Fin 16) => pt (ix2 j k)) q) := by
  unfold k1_pay2
  show Ideal.log (max (k1_pay1 (F := Ideal) nb rm pt (ix2 p q)) (Ideal.ofBits .f32 0x2EDBE6FF#32)) = _
  rw [k1_pay1_apply]
  rfl

theorem k2_pay1_apply (x : FVec Ideal S10000x16 .f32) (p : Fin 10000) (q : Fin 16) :
    k2_pay1 (F := Ideal) x (ix2 p q) = Cert.Rows.sm (fun j : Fin 16 => x (ix2 p j)) q := by
  unfold k2_pay1
  rw [shapeCast_self]
  exact softmax_block_apply x _ _ _ _ _ _ p q

theorem k3_pay1_eq : @k3_pay1 Ideal _ = @k1_pay1 Ideal _ := rfl
theorem k3_pay2_eq : @k3_pay2 Ideal _ = @k1_pay2 Ideal _ := rfl
theorem k5_pay1_eq : @k5_pay1 Ideal _ = @k1_pay1 Ideal _ := rfl
theorem k5_pay2_eq : @k5_pay2 Ideal _ = @k1_pay2 Ideal _ := rfl
theorem k4_pay1_eq : @k4_pay1 Ideal _ = @k2_pay1 Ideal _ := rfl
theorem k6_pay1_eq : @k6_pay1 Ideal _ = @k2_pay1 Ideal _ := rfl

end Cert.PayAt

end
-- ==== Proof.LibHostRows.lean ====
/-
  The host's reductions along the rows of a matrix, read at an index; nothing here depends on a program.

  A matrix [a, b] reduced over its second axis gives a vector [a]. With a maximum body, entry i of the result is the
  fold of max over the entries of row i, started from the initial value; with a sum body it is the initial value plus
  the sum of the entries of row i. Stated for any extents a and b, at the ideal values.
-/
import Idealize.ShloMosaic.Lib.Pipeline.Value
import Idealize.ShloMosaic.Lib.ValueIdx
import Idealize.ShloMosaic.PureOps.Ideal.Laws

noncomputable section

open scoped BigOperators

namespace Cert.LibHostRows

open Idealize.ShloMosaic Idealize.ShloMosaic.ValueIdx

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- The maximum along each row of a matrix, folded from an initial value: entry i is the fold of max over row i. -/
theorem hostRowsMax_apply {a b : ℕ} (x : (⟨2, ![a, b]⟩ : Shape).Idx → EReal) (init : (⟨0, ![]⟩ : Shape).Idx → EReal)
    (h' : (⟨2, ![a, b]⟩ : Shape).ReducesTo [1] ⟨1, ![a]⟩) (hu : 0 < (⟨0, ![]⟩ : Shape).numel) (i : Fin a) :
    Host.reduce (FloatOps.maximumf (F := Ideal) (φ := .f32)) x init h' hu (ix1 i)
      = (Finset.univ : Finset (Fin b)).fold max (init (Shape.Idx.first hu)) (fun k => x (ix2 i k)) := by
  have h : (⟨2, ![a, b]⟩ : Shape).Reduces [1] ⟨1, ![a]⟩ := ⟨h'.1, Nat.one_pos, h'.2⟩
  rw [Host.reduce_eq_fold_single (FloatOps.maximumf (F := Ideal) (φ := .f32)) x init h' h hu]
  show (Finset.univ : Finset (Fin b)).fold max (init (Shape.Idx.first hu)) (fun k => x (h.lift (ix1 i) k)) = _
  exact Finset.fold_congr fun (k : Fin b) _ => congrArg x (lift_row h i k)

/-- The sum along each row of a matrix, from an initial value: entry i is that value plus the sum of row i. -/
theorem hostRowsSum_apply {a b : ℕ} (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (i : Fin a) :
    Host.reduceAdd (F := Ideal) (φ := .f32) x init h' hu (ix1 i) = init (Shape.Idx.first hu) + ∑ k : Fin b, x (ix2 i k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  show init (Shape.Idx.first hu) + ∑ k : Fin b, x (h.lift (ix1 i) k) = _
  exact congrArg (_ + ·) (Finset.sum_congr rfl fun (k : Fin b) _ => congrArg x (lift_row h i k))

end Cert.LibHostRows

end
-- ==== Proof.LibColumn.lean ====
/-
  A vector laid out as a column, read at an entry. A host program turns a vector of a entries into an a × 1 matrix by a
  broadcast that sends the vector's axis to the matrix's first axis; the entry at (p, u) is the vector's entry p.
  Stated for any extent and any element type; nothing here depends on a program.
-/
import Idealize.ShloMosaic.Lib.Pipeline.Value
import Idealize.ShloMosaic.Lib.ValueIdx

namespace Cert.LibColumn

open Idealize.ShloMosaic Idealize.ShloMosaic.ValueIdx

variable {α : Type}

/-- A vector [a] broadcast along axis 0 into a column [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) ?_
  intro ax
  match ax with
  | ⟨0, _⟩ =>
    show p.val = if a = 1 then 0 else p.val
    split
    · have := p.isLt; omega
    · rfl

end Cert.LibColumn
-- ==== Proof.LibHostColumn.lean ====
/-
  A column laid across the columns of a matrix, read at an entry. A host program turns an a × 1 matrix into an a × b
  one by a broadcast that keeps both axes; the entry at (p, q) is the column's entry of row p. Stated for any extents and
  any element type; nothing here depends on a program.
-/
import Idealize.ShloMosaic.Lib.Pipeline.Value
import Idealize.ShloMosaic.Lib.ValueIdx

namespace Cert.LibHostColumn

open Idealize.ShloMosaic Idealize.ShloMosaic.ValueIdx

variable {α : Type}

/-- A column [a, 1] broadcast along both axes into [a, b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) ?_
  intro ax
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.LibHostColumn
-- ==== Proof.LibHostSpread.lean ====
/-
  Arrays laid along new axes and spread along unit axes by an axis map, read at an index given by its coordinates;
  nothing here depends on a program. The result's entry is the operand's entry at the coordinates the map names, with 0
  on the operand's axes of extent 1: a scalar spread to any shape reads the scalar; a one-entry vector recast to a
  scalar reads its entry; a row [1, c] laid as [1, 1, c], a matrix [b, c] laid as [1, b, c] and a matrix [a, c] laid as
  [a, 1, c] keep their entries; an array [1, 1, c] spread to [1, b, c], an array [1, b, c] spread to [a, b, c] and an
  array [a, 1, c] spread to [a, b, c] repeat the operand along the unit axes. Stated for any extents and any element
  type over the literal-rank index constructors ix0, ix1, ix2, ix3.
-/
import Idealize.ShloMosaic.Lib.Pipeline.Value
import Idealize.ShloMosaic.Lib.ValueIdx

noncomputable section

namespace Cert.LibHostSpread

open Idealize.ShloMosaic Idealize.ShloMosaic.ValueIdx

variable {α : Type}

/-- A scalar spread to any shape reads the scalar. -/
theorem spread_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A one-entry vector recast to a scalar reads its entry. -/
theorem scalar_of_one_apply (x : (⟨1, ![1]⟩ : Shape).Idx → α) (h : (⟨1, ![1]⟩ : Shape).ShapeCasts ⟨0, ![]⟩)
    (j : (⟨0, ![]⟩ : Shape).Idx) : shapeCast ⟨0, ![]⟩ x h j = x (ix1 (0 : Fin 1)) :=
  shapeCast_apply x h j (ix1 (0 : Fin 1)) (by
    have h1 := ((⟨1, ![1]⟩ : Shape).rowMajor (ix1 (0 : Fin 1))).isLt
    have h0 := ((⟨0, ![]⟩ : Shape).rowMajor j).isLt
    have n1 : (⟨1, ![1]⟩ : Shape).numel = 1 := by decide
    have n0 : (⟨0, ![]⟩ : Shape).numel = 1 := by decide
    omega)

/-- A row [1, c] laid as [1, 1, c] reads, at (u, v, r), the row at (0, r). -/
theorem spread_1c_11c_apply {c : ℕ} (h : (⟨2, ![1, c]⟩ : Shape).BroadcastsInDim ⟨3, ![1, 1, c]⟩ (![1, 2] : Fin 2 → Fin 3))
    (x : (⟨2, ![1, c]⟩ : Shape).Idx → α) (u v : Fin 1) (r : Fin c) :
    broadcastInDim ⟨3, ![1, 1, c]⟩ ![1, 2] h x (ix3 u v r) = x (ix2 (0 : Fin 1) r) :=
  broadcastInDim_apply _ h x (ix3 u v r) (ix2 (0 : Fin 1) r) (fun a => match a with
    | ⟨0, _⟩ => by show 0 = if (1 : ℕ) = 1 then 0 else v.val; rw [if_pos rfl]
    | ⟨1, _⟩ => by
      show r.val = if c = 1 then 0 else r.val
      split
      · have := r.isLt; omega
      · rfl)

/-- A matrix [b, c] laid as [1, b, c] reads, at (u, q, r), the matrix at (q, r). -/
theorem spread_bc_1bc_apply {b c : ℕ} (h : (⟨2, ![b, c]⟩ : Shape).BroadcastsInDim ⟨3, ![1, b, c]⟩ (![1, 2] : Fin 2 → Fin 3))
    (x : (⟨2, ![b, c]⟩ : Shape).Idx → α) (u : Fin 1) (q : Fin b) (r : Fin c) :
    broadcastInDim ⟨3, ![1, b, c]⟩ ![1, 2] h x (ix3 u q r) = x (ix2 q r) :=
  broadcastInDim_apply _ h x (ix3 u q r) (ix2 q r) (fun a => match a with
    | ⟨0, _⟩ => by
      show q.val = if b = 1 then 0 else q.val
      split
      · have := q.isLt; omega
      · rfl
    | ⟨1, _⟩ => by
      show r.val = if c = 1 then 0 else r.val
      split
      · have := r.isLt; omega
      · rfl)

/-- A matrix [a, c] laid as [a, 1, c] reads, at (p, u, r), the matrix at (p, r). -/
theorem spread_ac_a1c_apply {a c : ℕ} (h : (⟨2, ![a, c]⟩ : Shape).BroadcastsInDim ⟨3, ![a, 1, c]⟩ (![0, 2] : Fin 2 → Fin 3))
    (x : (⟨2, ![a, c]⟩ : Shape).Idx → α) (p : Fin a) (u : Fin 1) (r : Fin c) :
    broadcastInDim ⟨3, ![a, 1, c]⟩ ![0, 2] h x (ix3 p u r) = x (ix2 p r) :=
  broadcastInDim_apply _ h x (ix3 p u r) (ix2 p r) (fun a' => match a' with
    | ⟨0, _⟩ => by
      show p.val = if a = 1 then 0 else p.val
      split
      · have := p.isLt; omega
      · rfl
    | ⟨1, _⟩ => by
      show r.val = if c = 1 then 0 else r.val
      split
      · have := r.isLt; omega
      · rfl)

/-- An array [1, 1, c] spread to [1, b, c] reads, at (u, q, r), the operand at (0, 0, r). -/
theorem spread_11c_1bc_apply {b c : ℕ}
    (h : (⟨3, ![1, 1, c]⟩ : Shape).BroadcastsInDim ⟨3, ![1, b, c]⟩ (![0, 1, 2] : Fin 3 → Fin 3))
    (x : (⟨3, ![1, 1, c]⟩ : Shape).Idx → α) (u : Fin 1) (q : Fin b) (r : Fin c) :
    broadcastInDim ⟨3, ![1, b, c]⟩ ![0, 1, 2] h x (ix3 u q r) = x (ix3 (0 : Fin 1) (0 : Fin 1) r) :=
  broadcastInDim_apply _ h x (ix3 u q r) (ix3 (0 : Fin 1) (0 : Fin 1) r) (fun a => match a with
    | ⟨0, _⟩ => by show 0 = if (1 : ℕ) = 1 then 0 else u.val; rw [if_pos rfl]
    | ⟨1, _⟩ => by show 0 = if (1 : ℕ) = 1 then 0 else q.val; rw [if_pos rfl]
    | ⟨2, _⟩ => by
      show r.val = if c = 1 then 0 else r.val
      split
      · have := r.isLt; omega
      · rfl)

/-- An array [1, b, c] spread to [a, b, c] reads, at (p, q, r), the operand at (0, q, r). -/
theorem spread_1bc_abc_apply {a b c : ℕ}
    (h : (⟨3, ![1, b, c]⟩ : Shape).BroadcastsInDim ⟨3, ![a, b, c]⟩ (![0, 1, 2] : Fin 3 → Fin 3))
    (x : (⟨3, ![1, b, c]⟩ : Shape).Idx → α) (p : Fin a) (q : Fin b) (r : Fin c) :
    broadcastInDim ⟨3, ![a, b, c]⟩ ![0, 1, 2] h x (ix3 p q r) = x (ix3 (0 : Fin 1) q r) :=
  broadcastInDim_apply _ h x (ix3 p q r) (ix3 (0 : Fin 1) q r) (fun a' => match a' with
    | ⟨0, _⟩ => by show 0 = if (1 : ℕ) = 1 then 0 else p.val; rw [if_pos rfl]
    | ⟨1, _⟩ => by
      show q.val = if b = 1 then 0 else q.val
      split
      · have := q.isLt; omega
      · rfl
    | ⟨2, _⟩ => by
      show r.val = if c = 1 then 0 else r.val
      split
      · have := r.isLt; omega
      · rfl)

/-- An array [a, 1, c] spread to [a, b, c] reads, at (p, q, r), the operand at (p, 0, r). -/
theorem spread_a1c_abc_apply {a b c : ℕ}
    (h : (⟨3, ![a, 1, c]⟩ : Shape).BroadcastsInDim ⟨3, ![a, b, c]⟩ (![0, 1, 2] : Fin 3 → Fin 3))
    (x : (⟨3, ![a, 1, c]⟩ : Shape).Idx → α) (p : Fin a) (q : Fin b) (r : Fin c) :
    broadcastInDim ⟨3, ![a, b, c]⟩ ![0, 1, 2] h x (ix3 p q r) = x (ix3 p (0 : Fin 1) r) :=
  broadcastInDim_apply _ h x (ix3 p q r) (ix3 p (0 : Fin 1) r) (fun a' => match a' with
    | ⟨0, _⟩ => by
      show p.val = if a = 1 then 0 else p.val
      split
      · have := p.isLt; omega
      · rfl
    | ⟨1, _⟩ => by show 0 = if (1 : ℕ) = 1 then 0 else q.val; rw [if_pos rfl]
    | ⟨2, _⟩ => by
      show r.val = if c = 1 then 0 else r.val
      split
      · have := r.isLt; omega
      · rfl)

end Cert.LibHostSpread

end
-- ==== Proof.ChainAt.lean ====
/- The reference's dense stages read at one entry: each is its row's function of the operand rows. -/
import proofs.«147059_j74191265071404_2_alg».proof.Proof.Chain
import proofs.«147059_j74191265071404_2_alg».proof.Proof.Rows
import proofs.«147059_j74191265071404_2_alg».proof.Proof.LibHostRows
import proofs.«147059_j74191265071404_2_alg».proof.Proof.LibColumn
import proofs.«147059_j74191265071404_2_alg».proof.Proof.LibHostColumn
import proofs.«147059_j74191265071404_2_alg».proof.Proof.LibHostSpread
import proofs.«147059_j74191265071404_2_alg».proof.Proof.LibMatmulAt
import Idealize.ShloMosaic.Lib.ValueIdx

noncomputable section

namespace Cert.ChainAt

open Cert.Chain Idealize.ShloMosaic Idealize.ShloMosaic.ValueIdx

/-! ## The stages over any extents -/

section General
variable {a b : ℕ}

/-- A vector laid as a column and spread across the columns of a matrix: entry (p, q) reads the vector's entry p. -/
theorem keep_apply {α : Type} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (Cert.LibHostColumn.broadcastInDim_a1_ab_apply _ h2 p q).trans (Cert.LibColumn.broadcastInDim_a_a1_apply v h1 p 0)

/-- The row maximum as the reference takes it — folded from −∞, then once more against the −∞ splat — is the row's
    maximum. -/
theorem rowMaxAgain_apply (x : FVec Ideal ⟨2, ![a, b]⟩ .f32)
    (h0 : (⟨0, ![]⟩ : Shape).BroadcastsInDim ⟨1, ![a]⟩ ![])
    (h' : (⟨2, ![a, b]⟩ : Shape).ReducesTo [1] ⟨1, ![a]⟩) (hu : 0 < (⟨0, ![]⟩ : Shape).numel) (p : Fin a) :
    maximumf (broadcastInDim ⟨1, ![a]⟩ ![] h0 (constant (F := Ideal) ⟨0, ![]⟩ .f32 0xFF800000#32))
        (Host.reduce FloatOps.maximumf x (constant (F := Ideal) ⟨0, ![]⟩ .f32 0xFF800000#32) h' hu) (ix1 p)
      = Cert.Rows.rowMax (fun k : Fin b => x (ix2 p k)) := by
  show max (broadcastInDim ⟨1, ![a]⟩ ![] h0 (constant (F := Ideal) ⟨0, ![]⟩ .f32 0xFF800000#32) (ix1 p))
      (Host.reduce (FloatOps.maximumf (F := Ideal) (φ := .f32)) x (constant (F := Ideal) ⟨0, ![]⟩ .f32 0xFF800000#32) h' hu (ix1 p)) = _
  rw [Cert.LibHostSpread.spread_scalar_apply, Cert.LibHostRows.hostRowsMax_apply]
  exact Cert.Rows.max_rowMax _

/-- exp(x − rowmax x) at (p, q). -/
theorem expShiftRows_apply (x : FVec Ideal ⟨2, ![a, b]⟩ .f32)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (h' : (⟨2, ![a, b]⟩ : Shape).ReducesTo [1] ⟨1, ![a]⟩) (hu : 0 < (⟨0, ![]⟩ : Shape).numel) (p : Fin a) (q : Fin b) :
    Host.exp (subf x (broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf x (constant (F := Ideal) ⟨0, ![]⟩ .f32 0xFF800000#32) h' hu))))) (ix2 p q)
      = Ideal.exp (x (ix2 p q) - Cert.Rows.rowMax (fun k : Fin b => x (ix2 p k))) := by
  show Ideal.exp (x (ix2 p q) - broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf x (constant (F := Ideal) ⟨0, ![]⟩ .f32 0xFF800000#32) h' hu))) (ix2 p q)) = _
  rw [keep_apply, rowMaxAgain_apply]

/-- Each row divided by its sum, the sum taken from the zero word, at (p, q). -/
theorem normRows_apply (e : FVec Ideal ⟨2, ![a, b]⟩ .f32)
    (h1 : (⟨1, ![a]⟩ : Shape).BroadcastsInDim ⟨2, ![a, 1]⟩ ![0])
    (h2 : (⟨2, ![a, 1]⟩ : Shape).BroadcastsInDim ⟨2, ![a, b]⟩ ![0, 1])
    (h' : (⟨2, ![a, b]⟩ : Shape).ReducesTo [1] ⟨1, ![a]⟩) (hu : 0 < (⟨0, ![]⟩ : Shape).numel) (p : Fin a) (q : Fin b) :
    Host.divf e (broadcastInDim ⟨2, ![a, b]⟩ ![0, 1] h2 (broadcastInDim ⟨2, ![a, 1]⟩ ![0] h1
        (Host.reduceAdd e (constant (F := Ideal) ⟨0, ![]⟩ .f32 0x00000000#32) h' hu))) (ix2 p q)
      = Ideal.div (e (ix2 p q)) (∑ k : Fin b, e (ix2 p k)) := by
  show Ideal.div (e (ix2 p q)) (broadcastInDim ⟨2, ![a, b]⟩ ![0, 1] h2 (broadcastInDim ⟨2, ![a, 1]⟩ ![0] h1
        (Host.reduceAdd e (constant (F := Ideal) ⟨0, ![]⟩ .f32 0x00000000#32) h' hu)) (ix2 p q)) = _
  rw [keep_apply, Cert.LibHostRows.hostRowsSum_apply]
  show Ideal.div (e (ix2 p q)) (Ideal.ofBits .f32 0x00000000#32 + ∑ k : Fin b, e (ix2 p k)) = _
  rw [Ideal.ofBits_zero_f32, zero_add]

/-- log(max(x, ε)) at any index of any shape. -/
theorem logClamp_apply {s : Shape} (x : FVec Ideal s .f32) (h : (⟨0, ![]⟩ : Shape).BroadcastsInDim s ![]) (i : s.Idx) :
    Host.log (maximumf x (broadcastInDim s ![] h (constant (F := Ideal) ⟨0, ![]⟩ .f32 0x2EDBE6FF#32))) i
      = Cert.Rows.clampLog (x i) := by
  show Ideal.log (max (x i) (broadcastInDim s ![] h (constant (F := Ideal) ⟨0, ![]⟩ .f32 0x2EDBE6FF#32) i)) = _
  rw [Cert.LibHostSpread.spread_scalar_apply]
  rfl

end General

/-! ## The reference's stages -/

theorem dot_apply (x : TX) (w : TW) (r : Fin 100000) (k : Fin 16) :
    dot x w (ix2 r k) = ∑ j : Fin 128, x (ix2 r j) * w (ix2 j k) :=
  Cert.KernelIdeal.Hand.dotGeneral_plain_apply' _ rfl none x w (ix2 r k)

theorem softmax_apply (x : TN) (r : Fin 100000) (k : Fin 16) :
    softmax x (ix2 r k) = Cert.Rows.sm (fun j : Fin 16 => x (ix2 r j)) k := by
  refine (normRows_apply (expShift x) _ _ _ _ r k).trans ?_
  unfold Cert.Rows.sm
  rw [show expShift x (ix2 r k) = _ from expShiftRows_apply x _ _ _ _ _ r k]
  refine congrArg _ (Finset.sum_congr rfl fun k' _ => ?_)
  exact expShiftRows_apply x _ _ _ _ _ r k'

theorem logClampN_apply (x : TN) (i : Cert.ReferenceIdeal.S100000x16.Idx) : logClampN x i = Cert.Rows.clampLog (x i) :=
  logClamp_apply x _ i

theorem logClampE_apply (x : TE) (i : Cert.ReferenceIdeal.S3200000x16.Idx) : logClampE x i = Cert.Rows.clampLog (x i) :=
  logClamp_apply x _ i

theorem mix_apply (nb rm : TE) (p : TP) (e : Fin 3200000) (k : Fin 16) :
    mix nb rm p (ix2 e k)
      = Cert.Rows.mixRow (fun j : Fin 16 => nb (ix2 e j)) (fun j : Fin 16 => rm (ix2 e j)) (fun (j k : Fin 16) => p (ix2 j k)) k :=
  Cert.KernelIdeal.Hand.dotGeneral_plain_apply' _ rfl none (Host.divf nb rm) p (ix2 e k)

theorem diffuse_apply (nb rm : TE) (p : TP) (e : Fin 3200000) (k : Fin 16) :
    diffuse nb rm p (ix2 e k)
      = Cert.Rows.diff (fun j : Fin 16 => nb (ix2 e j)) (fun j : Fin 16 => rm (ix2 e j)) (fun (j k : Fin 16) => p (ix2 j k)) k := by
  refine (normRows_apply (mix nb rm p) _ _ _ _ e k).trans ?_
  unfold Cert.Rows.diff
  rw [mix_apply]
  exact congrArg _ (Finset.sum_congr rfl fun k' _ => mix_apply nb rm p e k')

end Cert.ChainAt

end
-- ==== Proof.Blocks0.lean ====
/-
  The classifier region, from blocks to arrays. Point t of its grid of 10 reads rows 10000·t … 10000·t+9999 of the
  features and the whole weight matrix and writes the same rows of the priors and of their clamped logarithms; every
  entry is a function of its own row alone, so the ten blocks are the restrictions of softmax(x·W) and of
  log(max(softmax(x·W), ε)) to their rows, and they tile the arrays.
-/
import proofs.«147059_j74191265071404_2_alg».proof.Proof.Gen.KernelIdeal.Frame
import proofs.«147059_j74191265071404_2_alg».proof.Proof.PayAt
import proofs.«147059_j74191265071404_2_alg».proof.Proof.ChainAt
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block t, the weight window at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block is row 10000·t + p of the array. -/
def row0 (t : Fin cfg0.N) (p : Fin 10000) : Fin 100000 := ⟨t.val * 10000 + p.val, by
  have := t.isLt; have hN : cfg0.N = 10 := N_0; have := p.isLt; omega⟩

theorem emb0_0 (t : Fin cfg0.N) (p : Fin 10000) (j : Fin 128) :
    ((cfg0.win 0).blk t).view.emb (ix2 p j) = ix2 (row0 t p) j := by
  obtain ⟨e0, e1, -⟩ := idx_facts0 t
  funext a; apply Fin.ext
  match a with
  | ⟨0, _⟩ => show win0_0.index t (0 : Fin 2) * 10000 + 1 * p.val = t.val * 10000 + p.val; omega
  | ⟨1, _⟩ => show win0_0.index t (1 : Fin 2) * 128 + 1 * j.val = j.val; omega

theorem emb0_1 (t : Fin cfg0.N) (j : Fin 128) (k : Fin 16) :
    ((cfg0.win 1).blk t).view.emb (ix2 j k) = ix2 j k := by
  obtain ⟨-, -, e2, e3, -⟩ := idx_facts0 t
  funext a; apply Fin.ext
  match a with
  | ⟨0, _⟩ => show win0_1.index t (0 : Fin 2) * 128 + 1 * j.val = j.val; omega
  | ⟨1, _⟩ => show win0_1.index t (1 : Fin 2) * 16 + 1 * k.val = k.val; omega

theorem emb0_2 (t : Fin cfg0.N) (p : Fin 10000) (q : Fin 16) :
    ((cfg0.win 2).blk t).view.emb (ix2 p q) = ix2 (row0 t p) q := by
  obtain ⟨-, -, -, -, e4, e5, -⟩ := idx_facts0 t
  funext a; apply Fin.ext
  match a with
  | ⟨0, _⟩ => show win0_2.index t (0 : Fin 2) * 10000 + 1 * p.val = t.val * 10000 + p.val; omega
  | ⟨1, _⟩ => show win0_2.index t (1 : Fin 2) * 16 + 1 * q.val = q.val; omega

theorem emb0_3 (t : Fin cfg0.N) (p : Fin 10000) (q : Fin 16) :
    ((cfg0.win 3).blk t).view.emb (ix2 p q) = ix2 (row0 t p) q := by
  obtain ⟨-, -, -, -, -, -, e6, e7⟩ := idx_facts0 t
  funext a; apply Fin.ext
  match a with
  | ⟨0, _⟩ => show win0_3.index t (0 : Fin 2) * 10000 + 1 * p.val = t.val * 10000 + p.val; omega
  | ⟨1, _⟩ => show win0_3.index t (1 : Fin 2) * 16 + 1 * q.val = q.val; omega

/-- The features' block at point t, entry (p, j), is the array's entry (10000·t + p, j). -/
theorem iblk0_0_apply (c : Dev nD) (t : Fin cfg0.N) (p : Fin 10000) (j : Fin 128) :
    iblk0 V c 0 t (ix2 p j) = V c main_arg0 (ix2 (row0 t p) j) := by
  show V c main_arg0 (((cfg0.win 0).blk t).view.emb (ix2 p j)) = _
  rw [emb0_0]

/-- The weights' block at any point is the whole matrix. -/
theorem iblk0_1_apply (c : Dev nD) (t : Fin cfg0.N) (j : Fin 128) (k : Fin 16) :
    iblk0 V c 1 t (ix2 j k) = V c main_arg1 (ix2 j k) := by
  show V c main_arg1 (((cfg0.win 1).blk t).view.emb (ix2 j k)) = _
  rw [emb0_1]

/-- A block row of logits whose operands are rows of the arrays is that row of x·W. -/
theorem logits_row (xb : FVec Ideal S10000x128 .f32) (wb : FVec Ideal S128x16 .f32) (X : Cert.Chain.TX) (W : Cert.Chain.TW)
    (r : Fin 100000) (p : Fin 10000) (hx : ∀ j : Fin 128, xb (ix2 p j) = X (ix2 r j))
    (hw : ∀ (j : Fin 128) (k : Fin 16), wb (ix2 j k) = W (ix2 j k)) :
    (fun k : Fin 16 => ∑ j : Fin 128, xb (ix2 p j) * wb (ix2 j k)) = fun k : Fin 16 => Cert.Chain.dot X W (ix2 r k) := by
  funext k
  rw [Cert.ChainAt.dot_apply]
  exact Finset.sum_congr rfl fun j _ => by rw [hx, hw]

/-- What point t writes back into the priors is block t of softmax(x·W). -/
theorem flushed0_2_eq (c : Dev nD) (t : Fin cfg0.N) :
    (dat0 V c).flushed 2 t
      = ((cfg0.win 2).blk t).view.read (Elt Ideal) (Cert.Chain.softmax (Cert.Chain.dot (V c main_arg0) (V c main_arg1))) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  funext y
  obtain ⟨p, q, rfl⟩ : ∃ (p : Fin 10000) (q : Fin 16), y = ix2 p q := ⟨y 0, y 1, eq_ix2 y⟩
  refine (Cert.PayAt.k0_pay1_apply (iblk0 V c 0 t) (iblk0 V c 1 t) p q).trans ?_
  show _ = Cert.Chain.softmax (Cert.Chain.dot (V c main_arg0) (V c main_arg1)) (((cfg0.win 2).blk t).view.emb (ix2 p q))
  rw [emb0_2, Cert.ChainAt.softmax_apply]
  exact congrArg (fun l => Cert.Rows.sm l q)
    (logits_row (iblk0 V c 0 t) (iblk0 V c 1 t) (V c main_arg0) (V c main_arg1) (row0 t p) p (iblk0_0_apply V c t p) (iblk0_1_apply V c t))

/-- What point t writes back into the log priors is block t of log(max(softmax(x·W), ε)). -/
theorem flushed0_3_eq (c : Dev nD) (t : Fin cfg0.N) :
    (dat0 V c).flushed 3 t
      = ((cfg0.win 3).blk t).view.read (Elt Ideal)
          (Cert.Chain.logClampN (Cert.Chain.softmax (Cert.Chain.dot (V c main_arg0) (V c main_arg1)))) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x16) hz]
  funext y
  obtain ⟨p, q, rfl⟩ : ∃ (p : Fin 10000) (q : Fin 16), y = ix2 p q := ⟨y 0, y 1, eq_ix2 y⟩
  refine (Cert.PayAt.k0_pay2_apply (iblk0 V c 0 t) (iblk0 V c 1 t) p q).trans ?_
  show _ = Cert.Chain.logClampN (Cert.Chain.softmax (Cert.Chain.dot (V c main_arg0) (V c main_arg1))) (((cfg0.win 3).blk t).view.emb (ix2 p q))
  rw [emb0_3, Cert.ChainAt.logClampN_apply, Cert.ChainAt.softmax_apply]
  exact congrArg (fun l => Cert.Rows.clampLog (Cert.Rows.sm l q))
    (logits_row (iblk0 V c 0 t) (iblk0 V c 1 t) (V c main_arg0) (V c main_arg1) (row0 t p) p (iblk0_0_apply V c t p) (iblk0_1_apply V c t))

/-- An index of the priors is in point t's block iff each coordinate is in the block's range on its axis. -/
theorem mem_blk0_2 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v9_0).slice (win0_2.rect t)).set ↔ _
  rw [View.set_slice_whole, Rect.mem_set_unit]
  exact Iff.rfl

theorem mem_blk0_3 (t : Fin cfg0.N) (i : S100000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v9_1).slice (win0_3.rect t)).set ↔ _
  rw [View.set_slice_whole, Rect.mem_set_unit]
  exact Iff.rfl

/-- The point whose block holds row r is r / 10000. -/
def pointOf0 (i : S100000x16.Idx) : Fin cfg0.N := ⟨(i 0).val / 10000, by
  have hi0 : (i 0).val < 100000 := (i 0).isLt; have hN : cfg0.N = 10 := N_0; omega⟩

/-- The ten row blocks tile the priors. -/
theorem tiles0_2 (i : S100000x16.Idx) : ∃ t : Fin cfg0.N, (cfg0.win 2).flush t = true ∧ i ∈ ((cfg0.win 2).blk t).view.set := by
  have hi1 : (i 1).val < 16 := (i 1).isLt
  obtain ⟨-, -, -, -, e4, e5, -⟩ := idx_facts0 (pointOf0 i)
  refine ⟨pointOf0 i, flush0_2 _, ?_⟩
  rw [mem_blk0_2]
  intro a
  match a with
  | ⟨0, _⟩ =>
    show win0_2.index (pointOf0 i) (0 : Fin 2) * 10000 ≤ (i 0).val ∧ (i 0).val < win0_2.index (pointOf0 i) (0 : Fin 2) * 10000 + 10000
    rw [e4]; show (i 0).val / 10000 * 10000 ≤ (i 0).val ∧ (i 0).val < (i 0).val / 10000 * 10000 + 10000; omega
  | ⟨1, _⟩ =>
    show win0_2.index (pointOf0 i) (1 : Fin 2) * 16 ≤ (i 1).val ∧ (i 1).val < win0_2.index (pointOf0 i) (1 : Fin 2) * 16 + 16
    omega

/-- The ten row blocks tile the log priors. -/
theorem tiles0_3 (i : S100000x16.Idx) : ∃ t : Fin cfg0.N, (cfg0.win 3).flush t = true ∧ i ∈ ((cfg0.win 3).blk t).view.set := by
  have hi1 : (i 1).val < 16 := (i 1).isLt
  obtain ⟨-, -, -, -, -, -, e6, e7⟩ := idx_facts0 (pointOf0 i)
  refine ⟨pointOf0 i, flush0_3 _, ?_⟩
  rw [mem_blk0_3]
  intro a
  match a with
  | ⟨0, _⟩ =>
    show win0_3.index (pointOf0 i) (0 : Fin 2) * 10000 ≤ (i 0).val ∧ (i 0).val < win0_3.index (pointOf0 i) (0 : Fin 2) * 10000 + 10000
    rw [e6]; show (i 0).val / 10000 * 10000 ≤ (i 0).val ∧ (i 0).val < (i 0).val / 10000 * 10000 + 10000; omega
  | ⟨1, _⟩ =>
    show win0_3.index (pointOf0 i) (1 : Fin 2) * 16 ≤ (i 1).val ∧ (i 1).val < win0_3.index (pointOf0 i) (1 : Fin 2) * 16 + 16
    omega

/-- After the region the priors hold softmax(x·W) of the arrays the region found. -/
theorem final0_2 (c : Dev nD) :
    (dat0 V c).arrAt 2 cfg0.N = Cert.Chain.softmax (Cert.Chain.dot (V c main_arg0) (V c main_arg1)) :=
  (dat0 V c).arrAt_eq_of_cover 2 _ (fun t _ => flushed0_2_eq V c t) tiles0_2

/-- After the region the log priors hold log(max(softmax(x·W), ε)). -/
theorem final0_3 (c : Dev nD) :
    (dat0 V c).arrAt 3 cfg0.N = Cert.Chain.logClampN (Cert.Chain.softmax (Cert.Chain.dot (V c main_arg0) (V c main_arg1))) :=
  (dat0 V c).arrAt_eq_of_cover 3 _ (fun t _ => flushed0_3_eq V c t) tiles0_3

end Cert.KernelIdeal.Blocks

end
-- ==== Proof.Blocks1.lean ====
/-
  Diffusion region 1, from blocks to arrays. Point t of its grid of 400 reads rows 8000·t … 8000·t+7999 of the gathered
  beliefs and of the gathered reverse messages and the whole potential, and writes the same rows of the new messages
  and of their clamped logarithms; every entry is a function of its own row alone, so the 400 blocks are the
  restrictions of the whole-array diffusion step to their rows, and they tile the arrays.
-/
import proofs.«147059_j74191265071404_2_alg».proof.Proof.Gen.KernelIdeal.Frame
import proofs.«147059_j74191265071404_2_alg».proof.Proof.PayAt
import proofs.«147059_j74191265071404_2_alg».proof.Proof.ChainAt
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the four row windows sit at row block t, the potential at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of point t's block is row 8000·t + p of the array. -/
def row1 (t : Fin cfg1.N) (p : Fin 8000) : Fin 3200000 := ⟨t.val * 8000 + p.val, by
  have := t.isLt; have hN : cfg1.N = 400 := N_1; have := p.isLt; omega⟩

theorem emb1_0 (t : Fin cfg1.N) (p : Fin 8000) (j : Fin 16) :
    ((cfg1.win 0).blk t).view.emb (ix2 p j) = ix2 (row1 t p) j := by
  obtain ⟨e0, e1, -⟩ := idx_facts1 t
  funext a; apply Fin.ext
  match a with
  | ⟨0, _⟩ => show win1_0.index t (0 : Fin 2) * 8000 + 1 * p.val = t.val * 8000 + p.val; omega
  | ⟨1, _⟩ => show win1_0.index t (1 : Fin 2) * 16 + 1 * j.val = j.val; omega

theorem emb1_1 (t : Fin cfg1.N) (p : Fin 8000) (j : Fin 16) :
    ((cfg1.win 1).blk t).view.emb (ix2 p j) = ix2 (row1 t p) j := by
  obtain ⟨-, -, e2, e3, -⟩ := idx_facts1 t
  funext a; apply Fin.ext
  match a with
  | ⟨0, _⟩ => show win1_1.index t (0 : Fin 2) * 8000 + 1 * p.val = t.val * 8000 + p.val; omega
  | ⟨1, _⟩ => show win1_1.index t (1 : Fin 2) * 16 + 1 * j.val = j.val; omega

theorem emb1_2 (t : Fin cfg1.N) (j : Fin 16) (k : Fin 16) :
    ((cfg1.win 2).blk t).view.emb (ix2 j k) = ix2 j k := by
  obtain ⟨-, -, -, -, e4, e5, -⟩ := idx_facts1 t
  funext a; apply Fin.ext
  match a with
  | ⟨0, _⟩ => show win1_2.index t (0 : Fin 2) * 16 + 1 * j.val = j.val; omega
  | ⟨1, _⟩ => show win1_2.index t (1 : Fin 2) * 16 + 1 * k.val = k.val; omega

theorem emb1_3 (t : Fin cfg1.N) (p : Fin 8000) (q : Fin 16) :
    ((cfg1.win 3).blk t).view.emb (ix2 p q) = ix2 (row1 t p) q := by
  obtain ⟨-, -, -, -, -, -, e6, e7, -⟩ := idx_facts1 t
  funext a; apply Fin.ext
  match a with
  | ⟨0, _⟩ => show win1_3.index t (0 : Fin 2) * 8000 + 1 * p.val = t.val * 8000 + p.val; omega
  | ⟨1, _⟩ => show win1_3.index t (1 : Fin 2) * 16 + 1 * q.val = q.val; omega

theorem emb1_4 (t : Fin cfg1.N) (p : Fin 8000) (q : Fin 16) :
    ((cfg1.win 4).blk t).view.emb (ix2 p q) = ix2 (row1 t p) q := by
  obtain ⟨-, -, -, -, -, -, -, -, e8, e9⟩ := idx_facts1 t
  funext a; apply Fin.ext
  match a with
  | ⟨0, _⟩ => show win1_4.index t (0 : Fin 2) * 8000 + 1 * p.val = t.val * 8000 + p.val; omega
  | ⟨1, _⟩ => show win1_4.index t (1 : Fin 2) * 16 + 1 * q.val = q.val; omega

/-- The gathered beliefs' block at point t, entry (p, j), is the array's entry (8000·t + p, j). -/
theorem iblk1_0_apply (c : Dev nD) (t : Fin cfg1.N) (p : Fin 8000) (j : Fin 16) :
    iblk1 V c 0 t (ix2 p j) = V c main_v17 (ix2 (row1 t p) j) := by
  show V c main_v17 (((cfg1.win 0).blk t).view.emb (ix2 p j)) = _
  rw [emb1_0]

/-- The gathered reverse messages' block at point t, entry (p, j), is the array's entry (8000·t + p, j). -/
theorem iblk1_1_apply (c : Dev nD) (t : Fin cfg1.N) (p : Fin 8000) (j : Fin 16) :
    iblk1 V c 1 t (ix2 p j) = V c main_v24 (ix2 (row1 t p) j) := by
  show V c main_v24 (((cfg1.win 1).blk t).view.emb (ix2 p j)) = _
  rw [emb1_1]

/-- The potential's block at any point is the whole matrix. -/
theorem iblk1_2_apply (c : Dev nD) (t : Fin cfg1.N) (j : Fin 16) (k : Fin 16) :
    iblk1 V c 2 t (ix2 j k) = V c main_v8 (ix2 j k) := by
  show V c main_v8 (((cfg1.win 2).blk t).view.emb (ix2 j k)) = _
  rw [emb1_2]

/-- A block row whose operands are rows of the arrays has that row's diffusion step. -/
theorem diff_row1 (nbb rmb : FVec Ideal S8000x16 .f32) (ptb : FVec Ideal S16x16 .f32) (NB RM : Cert.Chain.TE) (PT : Cert.Chain.TP)
    (r : Fin 3200000) (p : Fin 8000) (q : Fin 16) (hn : ∀ j : Fin 16, nbb (ix2 p j) = NB (ix2 r j))
    (hr : ∀ j : Fin 16, rmb (ix2 p j) = RM (ix2 r j)) (hp : ∀ j k : Fin 16, ptb (ix2 j k) = PT (ix2 j k)) :
    Cert.Rows.diff (fun j : Fin 16 => nbb (ix2 p j)) (fun j : Fin 16 => rmb (ix2 p j)) (fun (j k : Fin 16) => ptb (ix2 j k)) q
      = Cert.Rows.diff (fun j : Fin 16 => NB (ix2 r j)) (fun j : Fin 16 => RM (ix2 r j)) (fun (j k : Fin 16) => PT (ix2 j k)) q := by
  have e1 : (fun j : Fin 16 => nbb (ix2 p j)) = fun j : Fin 16 => NB (ix2 r j) := funext hn
  have e2 : (fun j : Fin 16 => rmb (ix2 p j)) = fun j : Fin 16 => RM (ix2 r j) := funext hr
  have e3 : (fun (j k : Fin 16) => ptb (ix2 j k)) = fun (j k : Fin 16) => PT (ix2 j k) := funext fun j => funext (hp j)
  rw [e1, e2, e3]

/-- Reading any array through output block t at (p, q) reads the array at (8000·t + p, q). -/
theorem read1_3_apply (G : S3200000x16.Idx → Elt Ideal .f32) (t : Fin cfg1.N) (p : Fin 8000) (q : Fin 16) :
    ((cfg1.win 3).blk t).view.read (Elt Ideal) G (ix2 p q) = G (ix2 (row1 t p) q) := by
  show G (((cfg1.win 3).blk t).view.emb (ix2 p q)) = _
  rw [emb1_3]

theorem read1_4_apply (G : S3200000x16.Idx → Elt Ideal .f32) (t : Fin cfg1.N) (p : Fin 8000) (q : Fin 16) :
    ((cfg1.win 4).blk t).view.read (Elt Ideal) G (ix2 p q) = G (ix2 (row1 t p) q) := by
  show G (((cfg1.win 4).blk t).view.emb (ix2 p q)) = _
  rw [emb1_4]

/-- What point t writes back into the messages is block t of the diffusion step of the arrays the region found. -/
theorem flushed1_3_eq (c : Dev nD) (t : Fin cfg1.N) :
    (dat1 V c).flushed 3 t
      = ((cfg1.win 3).blk t).view.read (Elt Ideal) (Cert.Chain.diffuse (V c main_v17) (V c main_v24) (V c main_v8)) := by
  show (cfg1.win 3).cut (grid1.coords t) ((dat1 V c).after 3 t) = _
  rw [after1_3]
  unfold out1_3
  rw [View.canon_unit_zero hz1]
  simp only [View.ld_unit_zero (S := S8000x16) hz1, View.ld_unit_zero (S := S16x16) hz1]
  funext y
  obtain ⟨p, q, rfl⟩ : ∃ (p : Fin 8000) (q : Fin 16), y = ix2 p q := ⟨y 0, y 1, eq_ix2 y⟩
  exact (((Cert.PayAt.k1_pay1_apply (iblk1 V c 0 t) (iblk1 V c 1 t) (iblk1 V c 2 t) p q)).trans
    (diff_row1 (iblk1 V c 0 t) (iblk1 V c 1 t) (iblk1 V c 2 t) (V c main_v17) (V c main_v24) (V c main_v8) (row1 t p) p q
      (iblk1_0_apply V c t p) (iblk1_1_apply V c t p) (iblk1_2_apply V c t))).trans
    ((Cert.ChainAt.diffuse_apply (V c main_v17) (V c main_v24) (V c main_v8) (row1 t p) q).symm.trans
      (read1_3_apply (Cert.Chain.diffuse (V c main_v17) (V c main_v24) (V c main_v8)) t p q).symm)

/-- What point t writes back into the log messages is block t of log(max(diffusion step, ε)). -/
theorem flushed1_4_eq (c : Dev nD) (t : Fin cfg1.N) :
    (dat1 V c).flushed 4 t
      = ((cfg1.win 4).blk t).view.read (Elt Ideal)
          (Cert.Chain.logClampE (Cert.Chain.diffuse (V c main_v17) (V c main_v24) (V c main_v8))) := by
  show (cfg1.win 4).cut (grid1.coords t) ((dat1 V c).after 4 t) = _
  rw [after1_4]
  unfold out1_4
  rw [View.canon_unit_zero hz1]
  simp only [View.ld_unit_zero (S := S8000x16) hz1, View.ld_unit_zero (S := S16x16) hz1]
  funext y
  obtain ⟨p, q, rfl⟩ : ∃ (p : Fin 8000) (q : Fin 16), y = ix2 p q := ⟨y 0, y 1, eq_ix2 y⟩
  exact (((Cert.PayAt.k1_pay2_apply (iblk1 V c 0 t) (iblk1 V c 1 t) (iblk1 V c 2 t) p q)).trans
    (congrArg Cert.Rows.clampLog
      (diff_row1 (iblk1 V c 0 t) (iblk1 V c 1 t) (iblk1 V c 2 t) (V c main_v17) (V c main_v24) (V c main_v8) (row1 t p) p q
        (iblk1_0_apply V c t p) (iblk1_1_apply V c t p) (iblk1_2_apply V c t)))).trans
    (((Cert.ChainAt.logClampE_apply (Cert.Chain.diffuse (V c main_v17) (V c main_v24) (V c main_v8)) (ix2 (row1 t p) q)).trans
        (congrArg Cert.Rows.clampLog (Cert.ChainAt.diffuse_apply (V c main_v17) (V c main_v24) (V c main_v8) (row1 t p) q))).symm.trans
      (read1_4_apply (Cert.Chain.logClampE (Cert.Chain.diffuse (V c main_v17) (V c main_v24) (V c main_v8))) t p q).symm)

/-- An index of an output array is in point t's block iff each coordinate is in the block's range on its axis. -/
theorem mem_blk1_3 (t : Fin cfg1.N) (i : S3200000x16.Idx) :
    i ∈ ((cfg1.win 3).blk t).view.set ↔ ∀ a : Fin 2, win1_3.index t a * S8000x16.size a ≤ (i a).val ∧ (i a).val < win1_3.index t a * S8000x16.size a + S8000x16.size a := by
  show i ∈ ((View.whole main_v25_0).slice (win1_3.rect t)).set ↔ _
  rw [View.set_slice_whole, Rect.mem_set_unit]
  exact Iff.rfl

theorem mem_blk1_4 (t : Fin cfg1.N) (i : S3200000x16.Idx) :
    i ∈ ((cfg1.win 4).blk t).view.set ↔ ∀ a : Fin 2, win1_4.index t a * S8000x16.size a ≤ (i a).val ∧ (i a).val < win1_4.index t a * S8000x16.size a + S8000x16.size a := by
  show i ∈ ((View.whole main_v25_1).slice (win1_4.rect t)).set ↔ _
  rw [View.set_slice_whole, Rect.mem_set_unit]
  exact Iff.rfl

/-- The point whose block holds row r is r / 8000. -/
def pointOf1 (i : S3200000x16.Idx) : Fin cfg1.N := ⟨(i 0).val / 8000, by
  have hi0 : (i 0).val < 3200000 := (i 0).isLt; have hN : cfg1.N = 400 := N_1; omega⟩

/-- The 400 row blocks tile the messages. -/
theorem tiles1_3 (i : S3200000x16.Idx) : ∃ t : Fin cfg1.N, (cfg1.win 3).flush t = true ∧ i ∈ ((cfg1.win 3).blk t).view.set := by
  have hi1 : (i 1).val < 16 := (i 1).isLt
  obtain ⟨-, -, -, -, -, -, e6, e7, -⟩ := idx_facts1 (pointOf1 i)
  refine ⟨pointOf1 i, flush1_3 _, ?_⟩
  rw [mem_blk1_3]
  intro a
  match a with
  | ⟨0, _⟩ =>
    show win1_3.index (pointOf1 i) (0 : Fin 2) * 8000 ≤ (i 0).val ∧ (i 0).val < win1_3.index (pointOf1 i) (0 : Fin 2) * 8000 + 8000
    rw [e6]; show (i 0).val / 8000 * 8000 ≤ (i 0).val ∧ (i 0).val < (i 0).val / 8000 * 8000 + 8000; omega
  | ⟨1, _⟩ =>
    show win1_3.index (pointOf1 i) (1 : Fin 2) * 16 ≤ (i 1).val ∧ (i 1).val < win1_3.index (pointOf1 i) (1 : Fin 2) * 16 + 16
    omega

/-- The 400 row blocks tile the log messages. -/
theorem tiles1_4 (i : S3200000x16.Idx) : ∃ t : Fin cfg1.N, (cfg1.win 4).flush t = true ∧ i ∈ ((cfg1.win 4).blk t).view.set := by
  have hi1 : (i 1).val < 16 := (i 1).isLt
  obtain ⟨-, -, -, -, -, -, -, -, e8, e9⟩ := idx_facts1 (pointOf1 i)
  refine ⟨pointOf1 i, flush1_4 _, ?_⟩
  rw [mem_blk1_4]
  intro a
  match a with
  | ⟨0, _⟩ =>
    show win1_4.index (pointOf1 i) (0 : Fin 2) * 8000 ≤ (i 0).val ∧ (i 0).val < win1_4.index (pointOf1 i) (0 : Fin 2) * 8000 + 8000
    rw [e8]; show (i 0).val / 8000 * 8000 ≤ (i 0).val ∧ (i 0).val < (i 0).val / 8000 * 8000 + 8000; omega
  | ⟨1, _⟩ =>
    show win1_4.index (pointOf1 i) (1 : Fin 2) * 16 ≤ (i 1).val ∧ (i 1).val < win1_4.index (pointOf1 i) (1 : Fin 2) * 16 + 16
    omega

/-- After the region the messages hold the diffusion step of the arrays the region found. -/
theorem final1_3 (c : Dev nD) :
    (dat1 V c).arrAt 3 cfg1.N = Cert.Chain.diffuse (V c main_v17) (V c main_v24) (V c main_v8) :=
  (dat1 V c).arrAt_eq_of_cover 3 _ (fun t _ => flushed1_3_eq V c t) tiles1_3

/-- After the region the log messages hold log(max(diffusion step, ε)). -/
theorem final1_4 (c : Dev nD) :
    (dat1 V c).arrAt 4 cfg1.N = Cert.Chain.logClampE (Cert.Chain.diffuse (V c main_v17) (V c main_v24) (V c main_v8)) :=
  (dat1 V c).arrAt_eq_of_cover 4 _ (fun t _ => flushed1_4_eq V c t) tiles1_4

end Cert.KernelIdeal.Blocks

end
-- ==== Proof.Blocks2.lean ====
/-
  Node-softmax region 2, from blocks to the array. Point t of its grid of 10 reads rows 10000·t … 10000·t+9999 of the
  summed log beliefs and writes the same rows of the beliefs; every entry is a function of its own row alone, so the
  ten blocks are the restrictions of the row softmax of the whole array to their rows, and they tile the array.
-/
import proofs.«147059_j74191265071404_2_alg».proof.Proof.Gen.KernelIdeal.Frame
import proofs.«147059_j74191265071404_2_alg».proof.Proof.PayAt
import proofs.«147059_j74191265071404_2_alg».proof.Proof.ChainAt
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: both windows sit at row block t. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row p of point t's block is row 10000·t + p of the array. -/
def row2 (t : Fin cfg2.N) (p : Fin 10000) : Fin 100000 := ⟨t.val * 10000 + p.val, by
  have := t.isLt; have hN : cfg2.N = 10 := N_2; have := p.isLt; omega⟩

theorem emb2_0 (t : Fin cfg2.N) (p : Fin 10000) (j : Fin 16) :
    ((cfg2.win 0).blk t).view.emb (ix2 p j) = ix2 (row2 t p) j := by
  obtain ⟨e0, e1, -⟩ := idx_facts2 t
  funext a; apply Fin.ext
  match a with
  | ⟨0, _⟩ => show win2_0.index t (0 : Fin 2) * 10000 + 1 * p.val = t.val * 10000 + p.val; omega
  | ⟨1, _⟩ => show win2_0.index t (1 : Fin 2) * 16 + 1 * j.val = j.val; omega

theorem emb2_1 (t : Fin cfg2.N) (p : Fin 10000) (q : Fin 16) :
    ((cfg2.win 1).blk t).view.emb (ix2 p q) = ix2 (row2 t p) q := by
  obtain ⟨-, -, e2, e3⟩ := idx_facts2 t
  funext a; apply Fin.ext
  match a with
  | ⟨0, _⟩ => show win2_1.index t (0 : Fin 2) * 10000 + 1 * p.val = t.val * 10000 + p.val; omega
  | ⟨1, _⟩ => show win2_1.index t (1 : Fin 2) * 16 + 1 * q.val = q.val; omega

/-- The input block at point t, entry (p, j), is the array's entry (10000·t + p, j). -/
theorem iblk2_0_apply (c : Dev nD) (t : Fin cfg2.N) (p : Fin 10000) (j : Fin 16) :
    iblk2 V c 0 t (ix2 p j) = V c main_v32 (ix2 (row2 t p) j) := by
  show V c main_v32 (((cfg2.win 0).blk t).view.emb (ix2 p j)) = _
  rw [emb2_0]

/-- A block row that is a row of the array has that row's softmax. -/
theorem sm_row2 (xb : FVec Ideal S10000x16 .f32) (X : Cert.Chain.TN) (r : Fin 100000) (p : Fin 10000) (q : Fin 16)
    (hx : ∀ j : Fin 16, xb (ix2 p j) = X (ix2 r j)) :
    Cert.Rows.sm (fun j : Fin 16 => xb (ix2 p j)) q = Cert.Rows.sm (fun j : Fin 16 => X (ix2 r j)) q :=
  congrArg (fun l => Cert.Rows.sm l q) (funext hx)

/-- What point t writes back is block t of the row softmax of the array the region found. -/
theorem flushed2_1_eq (c : Dev nD) (t : Fin cfg2.N) :
    (dat2 V c).flushed 1 t = ((cfg2.win 1).blk t).view.read (Elt Ideal) (Cert.Chain.softmax (V c main_v32)) := by
  show (cfg2.win 1).cut (grid2.coords t) ((dat2 V c).after 1 t) = _
  rw [after2_1]
  unfold out2_1
  rw [View.canon_unit_zero hz2]
  simp only [View.ld_unit_zero (S := S10000x16) hz2]
  funext y
  obtain ⟨p, q, rfl⟩ : ∃ (p : Fin 10000) (q : Fin 16), y = ix2 p q := ⟨y 0, y 1, eq_ix2 y⟩
  refine ((Cert.PayAt.k2_pay1_apply (iblk2 V c 0 t) p q)).trans ?_
  show _ = Cert.Chain.softmax (V c main_v32) (((cfg2.win 1).blk t).view.emb (ix2 p q))
  rw [emb2_1, Cert.ChainAt.softmax_apply]
  exact sm_row2 (iblk2 V c 0 t) (V c main_v32) (row2 t p) p q (iblk2_0_apply V c t p)

/-- An index of the beliefs is in point t's block iff each coordinate is in the block's range on its axis. -/
theorem mem_blk2_1 (t : Fin cfg2.N) (i : S100000x16.Idx) :
    i ∈ ((cfg2.win 1).blk t).view.set ↔ ∀ a : Fin 2, win2_1.index t a * S10000x16.size a ≤ (i a).val ∧ (i a).val < win2_1.index t a * S10000x16.size a + S10000x16.size a := by
  show i ∈ ((View.whole main_v33).slice (win2_1.rect t)).set ↔ _
  rw [View.set_slice_whole, Rect.mem_set_unit]
  exact Iff.rfl

/-- The point whose block holds row r is r / 10000. -/
def pointOf2 (i : S100000x16.Idx) : Fin cfg2.N := ⟨(i 0).val / 10000, by
  have hi0 : (i 0).val < 100000 := (i 0).isLt; have hN : cfg2.N = 10 := N_2; omega⟩

/-- The ten row blocks tile the beliefs. -/
theorem tiles2_1 (i : S100000x16.Idx) : ∃ t : Fin cfg2.N, (cfg2.win 1).flush t = true ∧ i ∈ ((cfg2.win 1).blk t).view.set := by
  have hi1 : (i 1).val < 16 := (i 1).isLt
  obtain ⟨-, -, e2, e3⟩ := idx_facts2 (pointOf2 i)
  refine ⟨pointOf2 i, flush2_1 _, ?_⟩
  rw [mem_blk2_1]
  intro a
  match a with
  | ⟨0, _⟩ =>
    show win2_1.index (pointOf2 i) (0 : Fin 2) * 10000 ≤ (i 0).val ∧ (i 0).val < win2_1.index (pointOf2 i) (0 : Fin 2) * 10000 + 10000
    rw [e2]; show (i 0).val / 10000 * 10000 ≤ (i 0).val ∧ (i 0).val < (i 0).val / 10000 * 10000 + 10000; omega
  | ⟨1, _⟩ =>
    show win2_1.index (pointOf2 i) (1 : Fin 2) * 16 ≤ (i 1).val ∧ (i 1).val < win2_1.index (pointOf2 i) (1 : Fin 2) * 16 + 16
    omega

/-- After the region the beliefs hold the row softmax of the array the region found. -/
theorem final2_1 (c : Dev nD) : (dat2 V c).arrAt 1 cfg2.N = Cert.Chain.softmax (V c main_v32) :=
  (dat2 V c).arrAt_eq_of_cover 1 _ (fun t _ => flushed2_1_eq V c t) tiles2_1

end Cert.KernelIdeal.Blocks

end
-- ==== Proof.KChain1.lean ====
/-
  The first round on the kernel side, from the launch to the exit of the third region. The host computes the potential;
  the first region leaves the priors softmax(x·W) and their clamped logarithms; the host gathers the priors by source
  and the uniform messages by reverse edge; the second region leaves the first messages (the diffusion step of the
  gathered rows) and their clamped logarithms; the host adds those into the log priors at their destinations; the third
  region leaves the softmax of that sum, the first beliefs. Each boundary's lemma says what the buffers the later
  rounds read hold there: a buffer that a host stretch does not write, or that is not one of a region's arrays, keeps
  its contents, and an input array of a region is left as the region found it.
-/
import proofs.«147059_j74191265071404_2_alg».proof.Proof.Gen.KernelIdeal.Frame
import proofs.«147059_j74191265071404_2_alg».proof.Proof.Chain
import proofs.«147059_j74191265071404_2_alg».proof.Proof.Blocks0
import proofs.«147059_j74191265071404_2_alg».proof.Proof.Blocks1
import proofs.«147059_j74191265071404_2_alg».proof.Proof.Blocks2

set_option maxRecDepth 16384

noncomputable section

namespace Cert.KernelIdeal.KChain

open Cert.KernelIdeal Cert.KernelIdeal.Gen Idealize.ShloMosaic Idealize.ShloMosaic.TcCoe Idealize.ShloMosaic.Tactic
open Idealize.SL.Sem Idealize.ShloMosaic.StableHlo

variable (m : (ℓ : Loc nD τ sig) → Buf (Elt Ideal) ℓ) (ρ : Dev nD → PrngReg) (c : Dev nD)

/-- A buffer that no operation of a host stretch writes holds afterwards what it held before. -/
local macro "host_keeps" ops:ident : tactic =>
  `(tactic| (refine StableHlo.after_of_forall_not_mem _ _ (List.forall_iff_forall_mem.mp ?_) <;>
      simp only [$ops:ident, List.Forall, StableHlo.nullary_writes, StableHlo.unary_writes, StableHlo.binary_writes,
        StableHlo.ternary_writes, Finset.mem_singleton] <;>
      (repeat' apply And.intro) <;>
      exact StableHlo.devRef_ne_of_ne (by decide)))

/-! ## The network's values on the launch memory -/

/-- The five arguments as the launch memory holds them on core `c`. -/
abbrev a0 : Cert.Chain.TX := m ((c : Thread nD τ).loc main_arg0)
abbrev a1 : Cert.Chain.TW := m ((c : Thread nD τ).loc main_arg1)
abbrev a2 : Cert.Chain.TI := m ((c : Thread nD τ).loc main_arg2)
abbrev a3 : Cert.Chain.TI := m ((c : Thread nD τ).loc main_arg3)
abbrev a4 : Cert.Chain.TI := m ((c : Thread nD τ).loc main_arg4)

/-- The priors, their clamped logarithms, the first messages and the first beliefs. -/
abbrev P : Cert.Chain.TN := Cert.Chain.priors (a0 m c) (a1 m c)
abbrev LP : Cert.Chain.TN := Cert.Chain.logClampN (P m c)
abbrev M1 : Cert.Chain.TE := Cert.Chain.step (a2 m c) (a4 m c) (P m c) Cert.Chain.msg0
abbrev B1 : Cert.Chain.TN := Cert.Chain.belief (LP m c) (a3 m c) (M1 m c)

/-! ## Region 0's entry: the potential is computed, the arguments are as launched -/

theorem W1_v8 : W1 (F := Ideal) m ρ c (Proc.devRef .tc main_v8) = Cert.Chain.pot := by
  show StableHlo.after hostOps0 (W0 m ρ c) (Proc.devRef .tc main_v8) = _
  simp only [hostOps0]
  after_results
  rfl

theorem W1_arg0 : W1 (F := Ideal) m ρ c (Proc.devRef .tc main_arg0) = a0 m c := by
  show StableHlo.after hostOps0 (W0 m ρ c) (Proc.devRef .tc main_arg0) = W0 m ρ c (Proc.devRef .tc main_arg0)
  host_keeps hostOps0
theorem W1_arg1 : W1 (F := Ideal) m ρ c (Proc.devRef .tc main_arg1) = a1 m c := by
  show StableHlo.after hostOps0 (W0 m ρ c) (Proc.devRef .tc main_arg1) = W0 m ρ c (Proc.devRef .tc main_arg1)
  host_keeps hostOps0
theorem W1_arg2 : W1 (F := Ideal) m ρ c (Proc.devRef .tc main_arg2) = a2 m c := by
  show StableHlo.after hostOps0 (W0 m ρ c) (Proc.devRef .tc main_arg2) = W0 m ρ c (Proc.devRef .tc main_arg2)
  host_keeps hostOps0
theorem W1_arg3 : W1 (F := Ideal) m ρ c (Proc.devRef .tc main_arg3) = a3 m c := by
  show StableHlo.after hostOps0 (W0 m ρ c) (Proc.devRef .tc main_arg3) = W0 m ρ c (Proc.devRef .tc main_arg3)
  host_keeps hostOps0
theorem W1_arg4 : W1 (F := Ideal) m ρ c (Proc.devRef .tc main_arg4) = a4 m c := by
  show StableHlo.after hostOps0 (W0 m ρ c) (Proc.devRef .tc main_arg4) = W0 m ρ c (Proc.devRef .tc main_arg4)
  host_keeps hostOps0

/-! ## Region 0's exit: the priors and their clamped logarithms -/

theorem W2_v9_0 : W2 (F := Ideal) m ρ c (Proc.devRef .tc main_v9_0) = P m c := by
  refine (W2_arr m ρ c 2).trans ((Cert.KernelIdeal.Blocks.final0_2 (V1 m ρ) c).trans ?_)
  show Cert.Chain.softmax (Cert.Chain.dot (W1 m ρ c (Proc.devRef .tc main_arg0)) (W1 m ρ c (Proc.devRef .tc main_arg1))) = _
  rw [W1_arg0, W1_arg1]; rfl
theorem W2_v9_1 : W2 (F := Ideal) m ρ c (Proc.devRef .tc main_v9_1) = LP m c := by
  refine (W2_arr m ρ c 3).trans ((Cert.KernelIdeal.Blocks.final0_3 (V1 m ρ) c).trans ?_)
  show Cert.Chain.logClampN (Cert.Chain.softmax (Cert.Chain.dot (W1 m ρ c (Proc.devRef .tc main_arg0)) (W1 m ρ c (Proc.devRef .tc main_arg1)))) = _
  rw [W1_arg0, W1_arg1]; rfl
theorem W2_v8 : W2 (F := Ideal) m ρ c (Proc.devRef .tc main_v8) = Cert.Chain.pot :=
  (W2_of_ne m ρ c main_v8 (by decide)).trans (W1_v8 m ρ c)
theorem W2_arg2 : W2 (F := Ideal) m ρ c (Proc.devRef .tc main_arg2) = a2 m c :=
  (W2_of_ne m ρ c main_arg2 (by decide)).trans (W1_arg2 m ρ c)
theorem W2_arg3 : W2 (F := Ideal) m ρ c (Proc.devRef .tc main_arg3) = a3 m c :=
  (W2_of_ne m ρ c main_arg3 (by decide)).trans (W1_arg3 m ρ c)
theorem W2_arg4 : W2 (F := Ideal) m ρ c (Proc.devRef .tc main_arg4) = a4 m c :=
  (W2_of_ne m ρ c main_arg4 (by decide)).trans (W1_arg4 m ρ c)

/-! ## Region 1's entry: the gathered priors and the gathered uniform messages -/

theorem W3_v17 : W3 (F := Ideal) m ρ c (Proc.devRef .tc main_v17)
    = Cert.Chain.gatherN (P m c) (Cert.Chain.wrap 100000#32 (a2 m c)) := by
  show StableHlo.after hostOps1 (W2 m ρ c) (Proc.devRef .tc main_v17) = _
  simp only [hostOps1]
  after_results
  rw [W2_v9_0, W2_arg2]
  rfl
theorem W3_v24 : W3 (F := Ideal) m ρ c (Proc.devRef .tc main_v24)
    = Cert.Chain.gatherE Cert.Chain.msg0 (Cert.Chain.wrap 3200000#32 (a4 m c)) := by
  show StableHlo.after hostOps1 (W2 m ρ c) (Proc.devRef .tc main_v24) = _
  simp only [hostOps1]
  after_results_simp
  rw [W2_arg4]
  rfl
theorem W3_keeps (b : Ref sig .tc) (hb : b = main_v8 ∨ b = main_v9_0 ∨ b = main_v9_1 ∨ b = main_arg2 ∨ b = main_arg3 ∨ b = main_arg4) :
    W3 (F := Ideal) m ρ c (Proc.devRef .tc b) = W2 m ρ c (Proc.devRef .tc b) := by
  show StableHlo.after hostOps1 (W2 m ρ c) (Proc.devRef .tc b) = W2 m ρ c (Proc.devRef .tc b)
  rcases hb with rfl | rfl | rfl | rfl | rfl | rfl <;> host_keeps hostOps1

theorem W3_v8 : W3 (F := Ideal) m ρ c (Proc.devRef .tc main_v8) = Cert.Chain.pot :=
  (W3_keeps m ρ c main_v8 (Or.inl rfl)).trans (W2_v8 m ρ c)
theorem W3_v9_0 : W3 (F := Ideal) m ρ c (Proc.devRef .tc main_v9_0) = P m c :=
  (W3_keeps m ρ c main_v9_0 (Or.inr (Or.inl rfl))).trans (W2_v9_0 m ρ c)
theorem W3_v9_1 : W3 (F := Ideal) m ρ c (Proc.devRef .tc main_v9_1) = LP m c :=
  (W3_keeps m ρ c main_v9_1 (Or.inr (Or.inr (Or.inl rfl)))).trans (W2_v9_1 m ρ c)
theorem W3_arg2 : W3 (F := Ideal) m ρ c (Proc.devRef .tc main_arg2) = a2 m c :=
  (W3_keeps m ρ c main_arg2 (Or.inr (Or.inr (Or.inr (Or.inl rfl))))).trans (W2_arg2 m ρ c)
theorem W3_arg3 : W3 (F := Ideal) m ρ c (Proc.devRef .tc main_arg3) = a3 m c :=
  (W3_keeps m ρ c main_arg3 (Or.inr (Or.inr (Or.inr (Or.inr (Or.inl rfl)))))).trans (W2_arg3 m ρ c)
theorem W3_arg4 : W3 (F := Ideal) m ρ c (Proc.devRef .tc main_arg4) = a4 m c :=
  (W3_keeps m ρ c main_arg4 (Or.inr (Or.inr (Or.inr (Or.inr (Or.inr rfl)))))).trans (W2_arg4 m ρ c)

/-! ## Region 1's exit: the first messages and their clamped logarithms -/

theorem W4_v25_0 : W4 (F := Ideal) m ρ c (Proc.devRef .tc main_v25_0) = M1 m c := by
  refine (W4_arr m ρ c 3).trans ((Cert.KernelIdeal.Blocks.final1_3 (V3 m ρ) c).trans ?_)
  show Cert.Chain.diffuse (W3 m ρ c (Proc.devRef .tc main_v17)) (W3 m ρ c (Proc.devRef .tc main_v24)) (W3 m ρ c (Proc.devRef .tc main_v8)) = _
  rw [W3_v17, W3_v24, W3_v8]; rfl
theorem W4_v25_1 : W4 (F := Ideal) m ρ c (Proc.devRef .tc main_v25_1) = Cert.Chain.logClampE (M1 m c) := by
  refine (W4_arr m ρ c 4).trans ((Cert.KernelIdeal.Blocks.final1_4 (V3 m ρ) c).trans ?_)
  show Cert.Chain.logClampE (Cert.Chain.diffuse (W3 m ρ c (Proc.devRef .tc main_v17)) (W3 m ρ c (Proc.devRef .tc main_v24)) (W3 m ρ c (Proc.devRef .tc main_v8))) = _
  rw [W3_v17, W3_v24, W3_v8]; rfl
/-- The potential is one of region 1's inputs: the region leaves it as it found it. -/
theorem W4_v8 : W4 (F := Ideal) m ρ c (Proc.devRef .tc main_v8) = Cert.Chain.pot :=
  ((W4_arr m ρ c 2).trans (((dat1 (V3 m ρ) c).arrAt_in 2 rfl _).trans (A_eq1 (V3 m ρ) c 2))).trans (W3_v8 m ρ c)
theorem W4_v9_0 : W4 (F := Ideal) m ρ c (Proc.devRef .tc main_v9_0) = P m c :=
  (W4_of_ne m ρ c main_v9_0 (by decide)).trans (W3_v9_0 m ρ c)
theorem W4_v9_1 : W4 (F := Ideal) m ρ c (Proc.devRef .tc main_v9_1) = LP m c :=
  (W4_of_ne m ρ c main_v9_1 (by decide)).trans (W3_v9_1 m ρ c)
theorem W4_arg2 : W4 (F := Ideal) m ρ c (Proc.devRef .tc main_arg2) = a2 m c :=
  (W4_of_ne m ρ c main_arg2 (by decide)).trans (W3_arg2 m ρ c)
theorem W4_arg3 : W4 (F := Ideal) m ρ c (Proc.devRef .tc main_arg3) = a3 m c :=
  (W4_of_ne m ρ c main_arg3 (by decide)).trans (W3_arg3 m ρ c)
theorem W4_arg4 : W4 (F := Ideal) m ρ c (Proc.devRef .tc main_arg4) = a4 m c :=
  (W4_of_ne m ρ c main_arg4 (by decide)).trans (W3_arg4 m ρ c)

/-! ## Region 2's entry: the log priors with the clamped log messages added in at their destinations -/

theorem W5_v32 : W5 (F := Ideal) m ρ c (Proc.devRef .tc main_v32)
    = Cert.Chain.scat (LP m c) (Cert.Chain.wrap 100000#32 (a3 m c)) (Cert.Chain.logClampE (M1 m c)) := by
  show StableHlo.after hostOps2 (W4 m ρ c) (Proc.devRef .tc main_v32) = _
  simp only [hostOps2]
  after_results
  rw [W4_v9_1, W4_arg3, W4_v25_1]
  rfl
theorem W5_keeps (b : Ref sig .tc) (hb : b = main_v8 ∨ b = main_v9_0 ∨ b = main_v9_1 ∨ b = main_v25_0 ∨ b = main_arg2 ∨ b = main_arg3 ∨ b = main_arg4) :
    W5 (F := Ideal) m ρ c (Proc.devRef .tc b) = W4 m ρ c (Proc.devRef .tc b) := by
  show StableHlo.after hostOps2 (W4 m ρ c) (Proc.devRef .tc b) = W4 m ρ c (Proc.devRef .tc b)
  rcases hb with rfl | rfl | rfl | rfl | rfl | rfl | rfl <;> host_keeps hostOps2

/-! ## Region 2's exit: the first beliefs -/

theorem W6_v33 : W6 (F := Ideal) m ρ c (Proc.devRef .tc main_v33) = B1 m c := by
  refine (W6_arr m ρ c 1).trans ((Cert.KernelIdeal.Blocks.final2_1 (V5 m ρ) c).trans ?_)
  show Cert.Chain.softmax (W5 m ρ c (Proc.devRef .tc main_v32)) = _
  rw [W5_v32]; rfl
theorem W6_keeps (b : Ref sig .tc) (hb : b = main_v8 ∨ b = main_v9_0 ∨ b = main_v9_1 ∨ b = main_v25_0 ∨ b = main_arg2 ∨ b = main_arg3 ∨ b = main_arg4) :
    W6 (F := Ideal) m ρ c (Proc.devRef .tc b) = W4 m ρ c (Proc.devRef .tc b) := by
  refine (W6_of_ne m ρ c b ?_).trans (W5_keeps m ρ c b hb)
  rcases hb with rfl | rfl | rfl | rfl | rfl | rfl | rfl <;> decide

/-- From the launch to region 2's exit: the first beliefs and messages, the log priors, the potential, the priors and
    the three index arguments, each in the buffer the next round reads it from. -/
theorem round1 :
    W6 (F := Ideal) m ρ c (Proc.devRef .tc main_v33) = B1 m c
    ∧ W6 m ρ c (Proc.devRef .tc main_v25_0) = M1 m c
    ∧ W6 m ρ c (Proc.devRef .tc main_v9_1) = LP m c
    ∧ W6 m ρ c (Proc.devRef .tc main_v8) = Cert.Chain.pot
    ∧ W6 m ρ c (Proc.devRef .tc main_v9_0) = P m c
    ∧ W6 m ρ c (Proc.devRef .tc main_arg2) = a2 m c
    ∧ W6 m ρ c (Proc.devRef .tc main_arg3) = a3 m c
    ∧ W6 m ρ c (Proc.devRef .tc main_arg4) = a4 m c :=
  ⟨W6_v33 m ρ c,
   (W6_keeps m ρ c main_v25_0 (Or.inr (Or.inr (Or.inr (Or.inl rfl))))).trans (W4_v25_0 m ρ c),
   (W6_keeps m ρ c main_v9_1 (Or.inr (Or.inr (Or.inl rfl)))).trans (W4_v9_1 m ρ c),
   (W6_keeps m ρ c main_v8 (Or.inl rfl)).trans (W4_v8 m ρ c),
   (W6_keeps m ρ c main_v9_0 (Or.inr (Or.inl rfl))).trans (W4_v9_0 m ρ c),
   (W6_keeps m ρ c main_arg2 (Or.inr (Or.inr (Or.inr (Or.inr (Or.inl rfl)))))).trans (W4_arg2 m ρ c),
   (W6_keeps m ρ c main_arg3 (Or.inr (Or.inr (Or.inr (Or.inr (Or.inr (Or.inl rfl))))))).trans (W4_arg3 m ρ c),
   (W6_keeps m ρ c main_arg4 (Or.inr (Or.inr (Or.inr (Or.inr (Or.inr (Or.inr rfl))))))).trans (W4_arg4 m ρ c)⟩

end Cert.KernelIdeal.KChain

end
-- ==== Proof.Blocks3.lean ====
/-
  Diffusion region 3, from blocks to arrays. Point t of its grid of 400 reads rows 8000·t … 8000·t+7999 of the gathered
  beliefs and of the gathered reverse messages and the whole potential, and writes the same rows of the new messages
  and of their clamped logarithms; every entry is a function of its own row alone, so the 400 blocks are the
  restrictions of the whole-array diffusion step to their rows, and they tile the arrays.
-/
import proofs.«147059_j74191265071404_2_alg».proof.Proof.Gen.KernelIdeal.Frame
import proofs.«147059_j74191265071404_2_alg».proof.Proof.PayAt
import proofs.«147059_j74191265071404_2_alg».proof.Proof.ChainAt
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the four row windows sit at row block t, the potential at block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Row p of point t's block is row 8000·t + p of the array. -/
def row3 (t : Fin cfg3.N) (p : Fin 8000) : Fin 3200000 := ⟨t.val * 8000 + p.val, by
  have := t.isLt; have hN : cfg3.N = 400 := N_3; have := p.isLt; omega⟩

theorem emb3_0 (t : Fin cfg3.N) (p : Fin 8000) (j : Fin 16) :
    ((cfg3.win 0).blk t).view.emb (ix2 p j) = ix2 (row3 t p) j := by
  obtain ⟨e0, e1, -⟩ := idx_facts3 t
  funext a; apply Fin.ext
  match a with
  | ⟨0, _⟩ => show win3_0.index t (0 : Fin 2) * 8000 + 1 * p.val = t.val * 8000 + p.val; omega
  | ⟨1, _⟩ => show win3_0.index t (1 : Fin 2) * 16 + 1 * j.val = j.val; omega

theorem emb3_1 (t : Fin cfg3.N) (p : Fin 8000) (j : Fin 16) :
    ((cfg3.win 1).blk t).view.emb (ix2 p j) = ix2 (row3 t p) j := by
  obtain ⟨-, -, e2, e3, -⟩ := idx_facts3 t
  funext a; apply Fin.ext
  match a with
  | ⟨0, _⟩ => show win3_1.index t (0 : Fin 2) * 8000 + 1 * p.val = t.val * 8000 + p.val; omega
  | ⟨1, _⟩ => show win3_1.index t (1 : Fin 2) * 16 + 1 * j.val = j.val; omega

theorem emb3_2 (t : Fin cfg3.N) (j : Fin 16) (k : Fin 16) :
    ((cfg3.win 2).blk t).view.emb (ix2 j k) = ix2 j k := by
  obtain ⟨-, -, -, -, e4, e5, -⟩ := idx_facts3 t
  funext a; apply Fin.ext
  match a with
  | ⟨0, _⟩ => show win3_2.index t (0 : Fin 2) * 16 + 1 * j.val = j.val; omega
  | ⟨1, _⟩ => show win3_2.index t (1 : Fin 2) * 16 + 1 * k.val = k.val; omega

theorem emb3_3 (t : Fin cfg3.N) (p : Fin 8000) (q : Fin 16) :
    ((cfg3.win 3).blk t).view.emb (ix2 p q) = ix2 (row3 t p) q := by
  obtain ⟨-, -, -, -, -, -, e6, e7, -⟩ := idx_facts3 t
  funext a; apply Fin.ext
  match a with
  | ⟨0, _⟩ => show win3_3.index t (0 : Fin 2) * 8000 + 1 * p.val = t.val * 8000 + p.val; omega
  | ⟨1, _⟩ => show win3_3.index t (1 : Fin 2) * 16 + 1 * q.val = q.val; omega

theorem emb3_4 (t : Fin cfg3.N) (p : Fin 8000) (q : Fin 16) :
    ((cfg3.win 4).blk t).view.emb (ix2 p q) = ix2 (row3 t p) q := by
  obtain ⟨-, -, -, -, -, -, -, -, e8, e9⟩ := idx_facts3 t
  funext a; apply Fin.ext
  match a with
  | ⟨0, _⟩ => show win3_4.index t (0 : Fin 2) * 8000 + 1 * p.val = t.val * 8000 + p.val; omega
  | ⟨1, _⟩ => show win3_4.index t (1 : Fin 2) * 16 + 1 * q.val = q.val; omega

/-- The gathered beliefs' block at point t, entry (p, j), is the array's entry (8000·t + p, j). -/
theorem iblk3_0_apply (c : Dev nD) (t : Fin cfg3.N) (p : Fin 8000) (j : Fin 16) :
    iblk3 V c 0 t (ix2 p j) = V c main_v40 (ix2 (row3 t p) j) := by
  show V c main_v40 (((cfg3.win 0).blk t).view.emb (ix2 p j)) = _
  rw [emb3_0]

/-- The gathered reverse messages' block at point t, entry (p, j), is the array's entry (8000·t + p, j). -/
theorem iblk3_1_apply (c : Dev nD) (t : Fin cfg3.N) (p : Fin 8000) (j : Fin 16) :
    iblk3 V c 1 t (ix2 p j) = V c main_v47 (ix2 (row3 t p) j) := by
  show V c main_v47 (((cfg3.win 1).blk t).view.emb (ix2 p j)) = _
  rw [emb3_1]

/-- The potential's block at any point is the whole matrix. -/
theorem iblk3_2_apply (c : Dev nD) (t : Fin cfg3.N) (j : Fin 16) (k : Fin 16) :
    iblk3 V c 2 t (ix2 j k) = V c main_v8 (ix2 j k) := by
  show V c main_v8 (((cfg3.win 2).blk t).view.emb (ix2 j k)) = _
  rw [emb3_2]

/-- A block row whose operands are rows of the arrays has that row's diffusion step. -/
theorem diff_row3 (nbb rmb : FVec Ideal S8000x16 .f32) (ptb : FVec Ideal S16x16 .f32) (NB RM : Cert.Chain.TE) (PT : Cert.Chain.TP)
    (r : Fin 3200000) (p : Fin 8000) (q : Fin 16) (hn : ∀ j : Fin 16, nbb (ix2 p j) = NB (ix2 r j))
    (hr : ∀ j : Fin 16, rmb (ix2 p j) = RM (ix2 r j)) (hp : ∀ j k : Fin 16, ptb (ix2 j k) = PT (ix2 j k)) :
    Cert.Rows.diff (fun j : Fin 16 => nbb (ix2 p j)) (fun j : Fin 16 => rmb (ix2 p j)) (fun (j k : Fin 16) => ptb (ix2 j k)) q
      = Cert.Rows.diff (fun j : Fin 16 => NB (ix2 r j)) (fun j : Fin 16 => RM (ix2 r j)) (fun (j k : Fin 16) => PT (ix2 j k)) q := by
  have e1 : (fun j : Fin 16 => nbb (ix2 p j)) = fun j : Fin 16 => NB (ix2 r j) := funext hn
  have e2 : (fun j : Fin 16 => rmb (ix2 p j)) = fun j : Fin 16 => RM (ix2 r j) := funext hr
  have e3 : (fun (j k : Fin 16) => ptb (ix2 j k)) = fun (j k : Fin 16) => PT (ix2 j k) := funext fun j => funext (hp j)
  rw [e1, e2, e3]

/-- Reading any array through output block t at (p, q) reads the array at (8000·t + p, q). -/
theorem read3_3_apply (G : S3200000x16.Idx → Elt Ideal .f32) (t : Fin cfg3.N) (p : Fin 8000) (q : Fin 16) :
    ((cfg3.win 3).blk t).view.read (Elt Ideal) G (ix2 p q) = G (ix2 (row3 t p) q) := by
  show G (((cfg3.win 3).blk t).view.emb (ix2 p q)) = _
  rw [emb3_3]

theorem read3_4_apply (G : S3200000x16.Idx → Elt Ideal .f32) (t : Fin cfg3.N) (p : Fin 8000) (q : Fin 16) :
    ((cfg3.win 4).blk t).view.read (Elt Ideal) G (ix2 p q) = G (ix2 (row3 t p) q) := by
  show G (((cfg3.win 4).blk t).view.emb (ix2 p q)) = _
  rw [emb3_4]

/-- What point t writes back into the messages is block t of the diffusion step of the arrays the region found. -/
theorem flushed3_3_eq (c : Dev nD) (t : Fin cfg3.N) :
    (dat3 V c).flushed 3 t
      = ((cfg3.win 3).blk t).view.read (Elt Ideal) (Cert.Chain.diffuse (V c main_v40) (V c main_v47) (V c main_v8)) := by
  show (cfg3.win 3).cut (grid3.coords t) ((dat3 V c).after 3 t) = _
  rw [after3_3]
  unfold out3_3
  rw [View.canon_unit_zero hz3]
  simp only [View.ld_unit_zero (S := S8000x16) hz3, View.ld_unit_zero (S := S16x16) hz3]
  funext y
  obtain ⟨p, q, rfl⟩ : ∃ (p : Fin 8000) (q : Fin 16), y = ix2 p q := ⟨y 0, y 1, eq_ix2 y⟩
  exact (((congrFun (congrFun (congrFun (congrFun Cert.PayAt.k3_pay1_eq (iblk3 V c 0 t)) (iblk3 V c 1 t)) (iblk3 V c 2 t)) (ix2 p q)).trans (Cert.PayAt.k1_pay1_apply (iblk3 V c 0 t) (iblk3 V c 1 t) (iblk3 V c 2 t) p q)).trans
    (diff_row3 (iblk3 V c 0 t) (iblk3 V c 1 t) (iblk3 V c 2 t) (V c main_v40) (V c main_v47) (V c main_v8) (row3 t p) p q
      (iblk3_0_apply V c t p) (iblk3_1_apply V c t p) (iblk3_2_apply V c t))).trans
    ((Cert.ChainAt.diffuse_apply (V c main_v40) (V c main_v47) (V c main_v8) (row3 t p) q).symm.trans
      (read3_3_apply (Cert.Chain.diffuse (V c main_v40) (V c main_v47) (V c main_v8)) t p q).symm)

/-- What point t writes back into the log messages is block t of log(max(diffusion step, ε)). -/
theorem flushed3_4_eq (c : Dev nD) (t : Fin cfg3.N) :
    (dat3 V c).flushed 4 t
      = ((cfg3.win 4).blk t).view.read (Elt Ideal)
          (Cert.Chain.logClampE (Cert.Chain.diffuse (V c main_v40) (V c main_v47) (V c main_v8))) := by
  show (cfg3.win 4).cut (grid3.coords t) ((dat3 V c).after 4 t) = _
  rw [after3_4]
  unfold out3_4
  rw [View.canon_unit_zero hz3]
  simp only [View.ld_unit_zero (S := S8000x16) hz3, View.ld_unit_zero (S := S16x16) hz3]
  funext y
  obtain ⟨p, q, rfl⟩ : ∃ (p : Fin 8000) (q : Fin 16), y = ix2 p q := ⟨y 0, y 1, eq_ix2 y⟩
  exact (((congrFun (congrFun (congrFun (congrFun Cert.PayAt.k3_pay2_eq (iblk3 V c 0 t)) (iblk3 V c 1 t)) (iblk3 V c 2 t)) (ix2 p q)).trans (Cert.PayAt.k1_pay2_apply (iblk3 V c 0 t) (iblk3 V c 1 t) (iblk3 V c 2 t) p q)).trans
    (congrArg Cert.Rows.clampLog
      (diff_row3 (iblk3 V c 0 t) (iblk3 V c 1 t) (iblk3 V c 2 t) (V c main_v40) (V c main_v47) (V c main_v8) (row3 t p) p q
        (iblk3_0_apply V c t p) (iblk3_1_apply V c t p) (iblk3_2_apply V c t)))).trans
    (((Cert.ChainAt.logClampE_apply (Cert.Chain.diffuse (V c main_v40) (V c main_v47) (V c main_v8)) (ix2 (row3 t p) q)).trans
        (congrArg Cert.Rows.clampLog (Cert.ChainAt.diffuse_apply (V c main_v40) (V c main_v47) (V c main_v8) (row3 t p) q))).symm.trans
      (read3_4_apply (Cert.Chain.logClampE (Cert.Chain.diffuse (V c main_v40) (V c main_v47) (V c main_v8))) t p q).symm)

/-- An index of an output array is in point t's block iff each coordinate is in the block's range on its axis. -/
theorem mem_blk3_3 (t : Fin cfg3.N) (i : S3200000x16.Idx) :
    i ∈ ((cfg3.win 3).blk t).view.set ↔ ∀ a : Fin 2, win3_3.index t a * S8000x16.size a ≤ (i a).val ∧ (i a).val < win3_3.index t a * S8000x16.size a + S8000x16.size a := by
  show i ∈ ((View.whole main_v48_0).slice (win3_3.rect t)).set ↔ _
  rw [View.set_slice_whole, Rect.mem_set_unit]
  exact Iff.rfl

theorem mem_blk3_4 (t : Fin cfg3.N) (i : S3200000x16.Idx) :
    i ∈ ((cfg3.win 4).blk t).view.set ↔ ∀ a : Fin 2, win3_4.index t a * S8000x16.size a ≤ (i a).val ∧ (i a).val < win3_4.index t a * S8000x16.size a + S8000x16.size a := by
  show i ∈ ((View.whole main_v48_1).slice (win3_4.rect t)).set ↔ _
  rw [View.set_slice_whole, Rect.mem_set_unit]
  exact Iff.rfl

/-- The point whose block holds row r is r / 8000. -/
def pointOf3 (i : S3200000x16.Idx) : Fin cfg3.N := ⟨(i 0).val / 8000, by
  have hi0 : (i 0).val < 3200000 := (i 0).isLt; have hN : cfg3.N = 400 := N_3; omega⟩

/-- The 400 row blocks tile the messages. -/
theorem tiles3_3 (i : S3200000x16.Idx) : ∃ t : Fin cfg3.N, (cfg3.win 3).flush t = true ∧ i ∈ ((cfg3.win 3).blk t).view.set := by
  have hi1 : (i 1).val < 16 := (i 1).isLt
  obtain ⟨-, -, -, -, -, -, e6, e7, -⟩ := idx_facts3 (pointOf3 i)
  refine ⟨pointOf3 i, flush3_3 _, ?_⟩
  rw [mem_blk3_3]
  intro a
  match a with
  | ⟨0, _⟩ =>
    show win3_3.index (pointOf3 i) (0 : Fin 2) * 8000 ≤ (i 0).val ∧ (i 0).val < win3_3.index (pointOf3 i) (0 : Fin 2) * 8000 + 8000
    rw [e6]; show (i 0).val / 8000 * 8000 ≤ (i 0).val ∧ (i 0).val < (i 0).val / 8000 * 8000 + 8000; omega
  | ⟨1, _⟩ =>
    show win3_3.index (pointOf3 i) (1 : Fin 2) * 16 ≤ (i 1).val ∧ (i 1).val < win3_3.index (pointOf3 i) (1 : Fin 2) * 16 + 16
    omega

/-- The 400 row blocks tile the log messages. -/
theorem tiles3_4 (i : S3200000x16.Idx) : ∃ t : Fin cfg3.N, (cfg3.win 4).flush t = true ∧ i ∈ ((cfg3.win 4).blk t).view.set := by
  have hi1 : (i 1).val < 16 := (i 1).isLt
  obtain ⟨-, -, -, -, -, -, -, -, e8, e9⟩ := idx_facts3 (pointOf3 i)
  refine ⟨pointOf3 i, flush3_4 _, ?_⟩
  rw [mem_blk3_4]
  intro a
  match a with
  | ⟨0, _⟩ =>
    show win3_4.index (pointOf3 i) (0 : Fin 2) * 8000 ≤ (i 0).val ∧ (i 0).val < win3_4.index (pointOf3 i) (0 : Fin 2) * 8000 + 8000
    rw [e8]; show (i 0).val / 8000 * 8000 ≤ (i 0).val ∧ (i 0).val < (i 0).val / 8000 * 8000 + 8000; omega
  | ⟨1, _⟩ =>
    show win3_4.index (pointOf3 i) (1 : Fin 2) * 16 ≤ (i 1).val ∧ (i 1).val < win3_4.index (pointOf3 i) (1 : Fin 2) * 16 + 16
    omega

/-- After the region the messages hold the diffusion step of the arrays the region found. -/
theorem final3_3 (c : Dev nD) :
    (dat3 V c).arrAt 3 cfg3.N = Cert.Chain.diffuse (V c main_v40) (V c main_v47) (V c main_v8) :=
  (dat3 V c).arrAt_eq_of_cover 3 _ (fun t _ => flushed3_3_eq V c t) tiles3_3

/-- After the region the log messages hold log(max(diffusion step, ε)). -/
theorem final3_4 (c : Dev nD) :
    (dat3 V c).arrAt 4 cfg3.N = Cert.Chain.logClampE (Cert.Chain.diffuse (V c main_v40) (V c main_v47) (V c main_v8)) :=
  (dat3 V c).arrAt_eq_of_cover 4 _ (fun t _ => flushed3_4_eq V c t) tiles3_4

end Cert.KernelIdeal.Blocks

end
-- ==== Proof.Blocks4.lean ====
/-
  Node-softmax region 4, from blocks to the array. Point t of its grid of 10 reads rows 10000·t … 10000·t+9999 of the
  summed log beliefs and writes the same rows of the beliefs; every entry is a function of its own row alone, so the
  ten blocks are the restrictions of the row softmax of the whole array to their rows, and they tile the array.
-/
import proofs.«147059_j74191265071404_2_alg».proof.Proof.Gen.KernelIdeal.Frame
import proofs.«147059_j74191265071404_2_alg».proof.Proof.PayAt
import proofs.«147059_j74191265071404_2_alg».proof.Proof.ChainAt
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: both windows sit at row block t. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Row p of point t's block is row 10000·t + p of the array. -/
def row4 (t : Fin cfg4.N) (p : Fin 10000) : Fin 100000 := ⟨t.val * 10000 + p.val, by
  have := t.isLt; have hN : cfg4.N = 10 := N_4; have := p.isLt; omega⟩

theorem emb4_0 (t : Fin cfg4.N) (p : Fin 10000) (j : Fin 16) :
    ((cfg4.win 0).blk t).view.emb (ix2 p j) = ix2 (row4 t p) j := by
  obtain ⟨e0, e1, -⟩ := idx_facts4 t
  funext a; apply Fin.ext
  match a with
  | ⟨0, _⟩ => show win4_0.index t (0 : Fin 2) * 10000 + 1 * p.val = t.val * 10000 + p.val; omega
  | ⟨1, _⟩ => show win4_0.index t (1 : Fin 2) * 16 + 1 * j.val = j.val; omega

theorem emb4_1 (t : Fin cfg4.N) (p : Fin 10000) (q : Fin 16) :
    ((cfg4.win 1).blk t).view.emb (ix2 p q) = ix2 (row4 t p) q := by
  obtain ⟨-, -, e2, e3⟩ := idx_facts4 t
  funext a; apply Fin.ext
  match a with
  | ⟨0, _⟩ => show win4_1.index t (0 : Fin 2) * 10000 + 1 * p.val = t.val * 10000 + p.val; omega
  | ⟨1, _⟩ => show win4_1.index t (1 : Fin 2) * 16 + 1 * q.val = q.val; omega

/-- The input block at point t, entry (p, j), is the array's entry (10000·t + p, j). -/
theorem iblk4_0_apply (c : Dev nD) (t : Fin cfg4.N) (p : Fin 10000) (j : Fin 16) :
    iblk4 V c 0 t (ix2 p j) = V c main_v55 (ix2 (row4 t p) j) := by
  show V c main_v55 (((cfg4.win 0).blk t).view.emb (ix2 p j)) = _
  rw [emb4_0]

/-- A block row that is a row of the array has that row's softmax. -/
theorem sm_row4 (xb : FVec Ideal S10000x16 .f32) (X : Cert.Chain.TN) (r : Fin 100000) (p : Fin 10000) (q : Fin 16)
    (hx : ∀ j : Fin 16, xb (ix2 p j) = X (ix2 r j)) :
    Cert.Rows.sm (fun j : Fin 16 => xb (ix2 p j)) q = Cert.Rows.sm (fun j : Fin 16 => X (ix2 r j)) q :=
  congrArg (fun l => Cert.Rows.sm l q) (funext hx)

/-- What point t writes back is block t of the row softmax of the array the region found. -/
theorem flushed4_1_eq (c : Dev nD) (t : Fin cfg4.N) :
    (dat4 V c).flushed 1 t = ((cfg4.win 1).blk t).view.read (Elt Ideal) (Cert.Chain.softmax (V c main_v55)) := by
  show (cfg4.win 1).cut (grid4.coords t) ((dat4 V c).after 1 t) = _
  rw [after4_1]
  unfold out4_1
  rw [View.canon_unit_zero hz4]
  simp only [View.ld_unit_zero (S := S10000x16) hz4]
  funext y
  obtain ⟨p, q, rfl⟩ : ∃ (p : Fin 10000) (q : Fin 16), y = ix2 p q := ⟨y 0, y 1, eq_ix2 y⟩
  refine ((congrFun (congrFun Cert.PayAt.k4_pay1_eq (iblk4 V c 0 t)) (ix2 p q)).trans (Cert.PayAt.k2_pay1_apply (iblk4 V c 0 t) p q)).trans ?_
  show _ = Cert.Chain.softmax (V c main_v55) (((cfg4.win 1).blk t).view.emb (ix2 p q))
  rw [emb4_1, Cert.ChainAt.softmax_apply]
  exact sm_row4 (iblk4 V c 0 t) (V c main_v55) (row4 t p) p q (iblk4_0_apply V c t p)

/-- An index of the beliefs is in point t's block iff each coordinate is in the block's range on its axis. -/
theorem mem_blk4_1 (t : Fin cfg4.N) (i : S100000x16.Idx) :
    i ∈ ((cfg4.win 1).blk t).view.set ↔ ∀ a : Fin 2, win4_1.index t a * S10000x16.size a ≤ (i a).val ∧ (i a).val < win4_1.index t a * S10000x16.size a + S10000x16.size a := by
  show i ∈ ((View.whole main_v56).slice (win4_1.rect t)).set ↔ _
  rw [View.set_slice_whole, Rect.mem_set_unit]
  exact Iff.rfl

/-- The point whose block holds row r is r / 10000. -/
def pointOf4 (i : S100000x16.Idx) : Fin cfg4.N := ⟨(i 0).val / 10000, by
  have hi0 : (i 0).val < 100000 := (i 0).isLt; have hN : cfg4.N = 10 := N_4; omega⟩

/-- The ten row blocks tile the beliefs. -/
theorem tiles4_1 (i : S100000x16.Idx) : ∃ t : Fin cfg4.N, (cfg4.win 1).flush t = true ∧ i ∈ ((cfg4.win 1).blk t).view.set := by
  have hi1 : (i 1).val < 16 := (i 1).isLt
  obtain ⟨-, -, e2, e3⟩ := idx_facts4 (pointOf4 i)
  refine ⟨pointOf4 i, flush4_1 _, ?_⟩
  rw [mem_blk4_1]
  intro a
  match a with
  | ⟨0, _⟩ =>
    show win4_1.index (pointOf4 i) (0 : Fin 2) * 10000 ≤ (i 0).val ∧ (i 0).val < win4_1.index (pointOf4 i) (0 : Fin 2) * 10000 + 10000
    rw [e2]; show (i 0).val / 10000 * 10000 ≤ (i 0).val ∧ (i 0).val < (i 0).val / 10000 * 10000 + 10000; omega
  | ⟨1, _⟩ =>
    show win4_1.index (pointOf4 i) (1 : Fin 2) * 16 ≤ (i 1).val ∧ (i 1).val < win4_1.index (pointOf4 i) (1 : Fin 2) * 16 + 16
    omega

/-- After the region the beliefs hold the row softmax of the array the region found. -/
theorem final4_1 (c : Dev nD) : (dat4 V c).arrAt 1 cfg4.N = Cert.Chain.softmax (V c main_v55) :=
  (dat4 V c).arrAt_eq_of_cover 1 _ (fun t _ => flushed4_1_eq V c t) tiles4_1

end Cert.KernelIdeal.Blocks

end
-- ==== Proof.KChain2.lean ====
/-
  The second round of message passing on the kernel's side, from the contents before its first host stretch to the
  contents after its belief region: the stretch gathers the current beliefs' and messages' rows at the wrapped indices,
  the message region leaves the diffusion step of the gathered rows (and its clamped logarithm), the next stretch adds
  those logarithms into the log priors' rows, and the belief region leaves the row softmax of the sum — the new messages
  step(beliefs, messages) and the new beliefs belief(log priors, new messages). Every other buffer the next round reads is
  untouched. Stated over hypotheses on the contents before the round, so that it composes with any first round.
-/
import proofs.«147059_j74191265071404_2_alg».proof.Proof.Gen.KernelIdeal.Frame
import proofs.«147059_j74191265071404_2_alg».proof.Proof.Chain
import proofs.«147059_j74191265071404_2_alg».proof.Proof.Blocks3
import proofs.«147059_j74191265071404_2_alg».proof.Proof.Blocks4

set_option maxRecDepth 16384

noncomputable section

namespace Cert.KernelIdeal.KChain

open Cert.KernelIdeal Cert.KernelIdeal.Gen Idealize.ShloMosaic Idealize.ShloMosaic.TcCoe Idealize.SL.Sem

/-! ## The two host stretches of a round, over any contents -/

section Host
variable (W : Valuation τ sig (Elt Ideal))

/-- The stretch before the message region gathers the beliefs' rows at the wrapped source indices … -/
theorem host3_v40 : StableHlo.after (hostOps3 (F := Ideal)) W (Proc.devRef .tc main_v40)
    = Cert.Chain.gatherN (W (Proc.devRef .tc main_v33)) (Cert.Chain.wrap 100000#32 (W (Proc.devRef .tc main_arg2))) := by
  simp only [hostOps3]
  after_results
  rfl

/-- … and the messages' rows at the wrapped reverse-edge indices. -/
theorem host3_v47 : StableHlo.after (hostOps3 (F := Ideal)) W (Proc.devRef .tc main_v47)
    = Cert.Chain.gatherE (W (Proc.devRef .tc main_v25_0)) (Cert.Chain.wrap 3200000#32 (W (Proc.devRef .tc main_arg4))) := by
  simp only [hostOps3]
  after_results_simp
  rfl

/-- The buffers that stretch writes. -/
abbrev host3_W : List (Ref sig .tc) := [main_c_7, main_v34, main_v35, main_c_8, main_v36, main_v37, main_v38, main_v39, main_v40,
  main_c_9, main_v41, main_v42, main_c_10, main_v43, main_v44, main_v45, main_v46, main_v47]

theorem host3_writes : (hostOps3 (F := Ideal)).Forall fun op => op.writes ⊆ (host3_W.map (Proc.devRef (τ := τ) .tc)).toFinset := by
  simp only [hostOps3, List.Forall, StableHlo.nullary_writes, StableHlo.unary_writes, StableHlo.binary_writes, StableHlo.ternary_writes,
    Finset.singleton_subset_iff, List.mem_toFinset]
  repeat' apply And.intro
  all_goals exact List.mem_map_of_mem (by decide)

/-- A buffer that stretch does not write keeps its contents. -/
theorem host3_keep (b : Ref sig .tc) (hb : b ∉ host3_W) :
    StableHlo.after (hostOps3 (F := Ideal)) W (Proc.devRef .tc b) = W (Proc.devRef .tc b) :=
  StableHlo.after_of_writes_sub hostOps3 W host3_writes hb

/-- The stretch before the belief region adds the new messages' clamped logarithms into the log priors' rows at the wrapped
    destination indices. -/
theorem host4_v55 : StableHlo.after (hostOps4 (F := Ideal)) W (Proc.devRef .tc main_v55)
    = Cert.Chain.scat (W (Proc.devRef .tc main_v9_1)) (Cert.Chain.wrap 100000#32 (W (Proc.devRef .tc main_arg3))) (W (Proc.devRef .tc main_v48_1)) := by
  simp only [hostOps4]
  after_results
  rfl

/-- The buffers that stretch writes. -/
abbrev host4_W : List (Ref sig .tc) := [main_c_11, main_v49, main_v50, main_c_12, main_v51, main_v52, main_v53, main_v54, main_v55]

theorem host4_writes : (hostOps4 (F := Ideal)).Forall fun op => op.writes ⊆ (host4_W.map (Proc.devRef (τ := τ) .tc)).toFinset := by
  simp only [hostOps4, List.Forall, StableHlo.nullary_writes, StableHlo.unary_writes, StableHlo.binary_writes, StableHlo.ternary_writes,
    Finset.singleton_subset_iff, List.mem_toFinset]
  repeat' apply And.intro
  all_goals exact List.mem_map_of_mem (by decide)

/-- A buffer that stretch does not write keeps its contents. -/
theorem host4_keep (b : Ref sig .tc) (hb : b ∉ host4_W) :
    StableHlo.after (hostOps4 (F := Ideal)) W (Proc.devRef .tc b) = W (Proc.devRef .tc b) :=
  StableHlo.after_of_writes_sub hostOps4 W host4_writes hb

end Host

/-! ## The second round -/

section Round
variable (m : (ℓ : Loc nD τ sig) → Buf (Elt Ideal) ℓ) (ρ : Dev nD → PrngReg) (c : Dev nD)

/-- A buffer that neither the stretch before the message region nor that region writes holds after the region what it
    held before the stretch. -/
theorem W8_keep (b : Ref sig .tc) (hb : b ∉ host3_W) (hw : ∀ w, Pipeline.arrRef spec3 w ≠ b) :
    W8 (F := Ideal) m ρ c (Proc.devRef .tc b) = W6 (F := Ideal) m ρ c (Proc.devRef .tc b) :=
  (W8_of_ne m ρ c b hw).trans (host3_keep (W6 m ρ c) b hb)

/-- The same through the stretch before the belief region and that region. -/
theorem W10_keep (b : Ref sig .tc) (hb : b ∉ host4_W) (hw : ∀ w, Pipeline.arrRef spec4 w ≠ b) :
    W10 (F := Ideal) m ρ c (Proc.devRef .tc b) = W8 (F := Ideal) m ρ c (Proc.devRef .tc b) :=
  (W10_of_ne m ρ c b hw).trans (host4_keep (W8 m ρ c) b hb)

/-- The potential is an input of the message region: it leaves the region as it entered. -/
theorem W8_v8 : W8 (F := Ideal) m ρ c (Proc.devRef .tc main_v8) = W6 (F := Ideal) m ρ c (Proc.devRef .tc main_v8) :=
  ((W8_arr m ρ c 2).trans (((dat3 (V7 m ρ) c).arrAt_in 2 rfl _).trans (A_eq3 (V7 m ρ) c 2))).trans
    (host3_keep (W6 m ρ c) main_v8 (by decide))

theorem round2 (B LP : Cert.Chain.TN) (M : Cert.Chain.TE) (a2 a3 a4 : Cert.Chain.TI)
    (hB : W6 (F := Ideal) m ρ c (Proc.devRef .tc main_v33) = B) (hM : W6 (F := Ideal) m ρ c (Proc.devRef .tc main_v25_0) = M)
    (hLP : W6 (F := Ideal) m ρ c (Proc.devRef .tc main_v9_1) = LP) (hpot : W6 (F := Ideal) m ρ c (Proc.devRef .tc main_v8) = Cert.Chain.pot)
    (h2 : W6 (F := Ideal) m ρ c (Proc.devRef .tc main_arg2) = a2) (h3 : W6 (F := Ideal) m ρ c (Proc.devRef .tc main_arg3) = a3) (h4 : W6 (F := Ideal) m ρ c (Proc.devRef .tc main_arg4) = a4) :
    W10 (F := Ideal) m ρ c (Proc.devRef .tc main_v56) = Cert.Chain.belief LP a3 (Cert.Chain.step a2 a4 B M)
    ∧ W10 (F := Ideal) m ρ c (Proc.devRef .tc main_v48_0) = Cert.Chain.step a2 a4 B M
    ∧ W10 (F := Ideal) m ρ c (Proc.devRef .tc main_v9_1) = LP ∧ W10 (F := Ideal) m ρ c (Proc.devRef .tc main_v8) = Cert.Chain.pot
    ∧ W10 (F := Ideal) m ρ c (Proc.devRef .tc main_v9_0) = W6 (F := Ideal) m ρ c (Proc.devRef .tc main_v9_0)
    ∧ W10 (F := Ideal) m ρ c (Proc.devRef .tc main_arg2) = a2 ∧ W10 (F := Ideal) m ρ c (Proc.devRef .tc main_arg3) = a3 ∧ W10 (F := Ideal) m ρ c (Proc.devRef .tc main_arg4) = a4 := by
  -- the gathered rows and the potential at the message region's entry
  have e40 : W7 (F := Ideal) m ρ c (Proc.devRef .tc main_v40) = Cert.Chain.gatherN B (Cert.Chain.wrap 100000#32 a2) :=
    (host3_v40 (W6 m ρ c)).trans (by rw [hB, h2])
  have e47 : W7 (F := Ideal) m ρ c (Proc.devRef .tc main_v47) = Cert.Chain.gatherE M (Cert.Chain.wrap 3200000#32 a4) :=
    (host3_v47 (W6 m ρ c)).trans (by rw [hM, h4])
  have e8 : W7 (F := Ideal) m ρ c (Proc.devRef .tc main_v8) = Cert.Chain.pot :=
    (host3_keep (W6 m ρ c) main_v8 (by decide)).trans hpot
  -- the new messages and their clamped logarithms at its exit
  have es : W8 (F := Ideal) m ρ c (Proc.devRef .tc main_v48_0) = Cert.Chain.step a2 a4 B M := by
    refine (W8_arr m ρ c 3).trans ((Blocks.final3_3 (V7 m ρ) c).trans ?_)
    show Cert.Chain.diffuse (W7 (F := Ideal) m ρ c (Proc.devRef .tc main_v40)) (W7 (F := Ideal) m ρ c (Proc.devRef .tc main_v47))
      (W7 (F := Ideal) m ρ c (Proc.devRef .tc main_v8)) = _
    rw [e40, e47, e8]; rfl
  have el : W8 (F := Ideal) m ρ c (Proc.devRef .tc main_v48_1) = Cert.Chain.logClampE (Cert.Chain.step a2 a4 B M) := by
    refine (W8_arr m ρ c 4).trans ((Blocks.final3_4 (V7 m ρ) c).trans ?_)
    show Cert.Chain.logClampE (Cert.Chain.diffuse (W7 (F := Ideal) m ρ c (Proc.devRef .tc main_v40))
      (W7 (F := Ideal) m ρ c (Proc.devRef .tc main_v47)) (W7 (F := Ideal) m ρ c (Proc.devRef .tc main_v8))) = _
    rw [e40, e47, e8]; rfl
  have eLP : W8 (F := Ideal) m ρ c (Proc.devRef .tc main_v9_1) = LP :=
    (W8_keep m ρ c main_v9_1 (by decide) (by decide)).trans hLP
  have e3 : W8 (F := Ideal) m ρ c (Proc.devRef .tc main_arg3) = a3 :=
    (W8_keep m ρ c main_arg3 (by decide) (by decide)).trans h3
  -- the scattered sum at the belief region's entry, the new beliefs at its exit
  have e55 : W9 (F := Ideal) m ρ c (Proc.devRef .tc main_v55)
      = Cert.Chain.scat LP (Cert.Chain.wrap 100000#32 a3) (Cert.Chain.logClampE (Cert.Chain.step a2 a4 B M)) :=
    (host4_v55 (W8 m ρ c)).trans (by rw [eLP, e3, el])
  have eb : W10 (F := Ideal) m ρ c (Proc.devRef .tc main_v56) = Cert.Chain.belief LP a3 (Cert.Chain.step a2 a4 B M) := by
    refine (W10_arr m ρ c 1).trans ((Blocks.final4_1 (V9 m ρ) c).trans ?_)
    show Cert.Chain.softmax (W9 (F := Ideal) m ρ c (Proc.devRef .tc main_v55)) = _
    rw [e55]; rfl
  exact ⟨eb,
    (W10_keep m ρ c main_v48_0 (by decide) (by decide)).trans es,
    (W10_keep m ρ c main_v9_1 (by decide) (by decide)).trans eLP,
    (W10_keep m ρ c main_v8 (by decide) (by decide)).trans ((W8_v8 m ρ c).trans hpot),
    (W10_keep m ρ c main_v9_0 (by decide) (by decide)).trans (W8_keep m ρ c main_v9_0 (by decide) (by decide)),
    (W10_keep m ρ c main_arg2 (by decide) (by decide)).trans ((W8_keep m ρ c main_arg2 (by decide) (by decide)).trans h2),
    (W10_keep m ρ c main_arg3 (by decide) (by decide)).trans e3,
    (W10_keep m ρ c main_arg4 (by decide) (by decide)).trans ((W8_keep m ρ c main_arg4 (by decide) (by decide)).trans h4)⟩

end Round

end Cert.KernelIdeal.KChain

end
-- ==== Proof.Blocks5.lean ====
/-
  Diffusion region 5, from blocks to arrays. Point t of its grid of 400 reads rows 8000·t … 8000·t+7999 of the gathered
  beliefs and of the gathered reverse messages and the whole potential, and writes the same rows of the new messages
  and of their clamped logarithms; every entry is a function of its own row alone, so the 400 blocks are the
  restrictions of the whole-array diffusion step to their rows, and they tile the arrays.
-/
import proofs.«147059_j74191265071404_2_alg».proof.Proof.Gen.KernelIdeal.Frame
import proofs.«147059_j74191265071404_2_alg».proof.Proof.PayAt
import proofs.«147059_j74191265071404_2_alg».proof.Proof.ChainAt
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: the four row windows sit at row block t, the potential at block 0. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Row p of point t's block is row 8000·t + p of the array. -/
def row5 (t : Fin cfg5.N) (p : Fin 8000) : Fin 3200000 := ⟨t.val * 8000 + p.val, by
  have := t.isLt; have hN : cfg5.N = 400 := N_5; have := p.isLt; omega⟩

theorem emb5_0 (t : Fin cfg5.N) (p : Fin 8000) (j : Fin 16) :
    ((cfg5.win 0).blk t).view.emb (ix2 p j) = ix2 (row5 t p) j := by
  obtain ⟨e0, e1, -⟩ := idx_facts5 t
  funext a; apply Fin.ext
  match a with
  | ⟨0, _⟩ => show win5_0.index t (0 : Fin 2) * 8000 + 1 * p.val = t.val * 8000 + p.val; omega
  | ⟨1, _⟩ => show win5_0.index t (1 : Fin 2) * 16 + 1 * j.val = j.val; omega

theorem emb5_1 (t : Fin cfg5.N) (p : Fin 8000) (j : Fin 16) :
    ((cfg5.win 1).blk t).view.emb (ix2 p j) = ix2 (row5 t p) j := by
  obtain ⟨-, -, e2, e3, -⟩ := idx_facts5 t
  funext a; apply Fin.ext
  match a with
  | ⟨0, _⟩ => show win5_1.index t (0 : Fin 2) * 8000 + 1 * p.val = t.val * 8000 + p.val; omega
  | ⟨1, _⟩ => show win5_1.index t (1 : Fin 2) * 16 + 1 * j.val = j.val; omega

theorem emb5_2 (t : Fin cfg5.N) (j : Fin 16) (k : Fin 16) :
    ((cfg5.win 2).blk t).view.emb (ix2 j k) = ix2 j k := by
  obtain ⟨-, -, -, -, e4, e5, -⟩ := idx_facts5 t
  funext a; apply Fin.ext
  match a with
  | ⟨0, _⟩ => show win5_2.index t (0 : Fin 2) * 16 + 1 * j.val = j.val; omega
  | ⟨1, _⟩ => show win5_2.index t (1 : Fin 2) * 16 + 1 * k.val = k.val; omega

theorem emb5_3 (t : Fin cfg5.N) (p : Fin 8000) (q : Fin 16) :
    ((cfg5.win 3).blk t).view.emb (ix2 p q) = ix2 (row5 t p) q := by
  obtain ⟨-, -, -, -, -, -, e6, e7, -⟩ := idx_facts5 t
  funext a; apply Fin.ext
  match a with
  | ⟨0, _⟩ => show win5_3.index t (0 : Fin 2) * 8000 + 1 * p.val = t.val * 8000 + p.val; omega
  | ⟨1, _⟩ => show win5_3.index t (1 : Fin 2) * 16 + 1 * q.val = q.val; omega

theorem emb5_4 (t : Fin cfg5.N) (p : Fin 8000) (q : Fin 16) :
    ((cfg5.win 4).blk t).view.emb (ix2 p q) = ix2 (row5 t p) q := by
  obtain ⟨-, -, -, -, -, -, -, -, e8, e9⟩ := idx_facts5 t
  funext a; apply Fin.ext
  match a with
  | ⟨0, _⟩ => show win5_4.index t (0 : Fin 2) * 8000 + 1 * p.val = t.val * 8000 + p.val; omega
  | ⟨1, _⟩ => show win5_4.index t (1 : Fin 2) * 16 + 1 * q.val = q.val; omega

/-- The gathered beliefs' block at point t, entry (p, j), is the array's entry (8000·t + p, j). -/
theorem iblk5_0_apply (c : Dev nD) (t : Fin cfg5.N) (p : Fin 8000) (j : Fin 16) :
    iblk5 V c 0 t (ix2 p j) = V c main_v63 (ix2 (row5 t p) j) := by
  show V c main_v63 (((cfg5.win 0).blk t).view.emb (ix2 p j)) = _
  rw [emb5_0]

/-- The gathered reverse messages' block at point t, entry (p, j), is the array's entry (8000·t + p, j). -/
theorem iblk5_1_apply (c : Dev nD) (t : Fin cfg5.N) (p : Fin 8000) (j : Fin 16) :
    iblk5 V c 1 t (ix2 p j) = V c main_v70 (ix2 (row5 t p) j) := by
  show V c main_v70 (((cfg5.win 1).blk t).view.emb (ix2 p j)) = _
  rw [emb5_1]

/-- The potential's block at any point is the whole matrix. -/
theorem iblk5_2_apply (c : Dev nD) (t : Fin cfg5.N) (j : Fin 16) (k : Fin 16) :
    iblk5 V c 2 t (ix2 j k) = V c main_v8 (ix2 j k) := by
  show V c main_v8 (((cfg5.win 2).blk t).view.emb (ix2 j k)) = _
  rw [emb5_2]

/-- A block row whose operands are rows of the arrays has that row's diffusion step. -/
theorem diff_row5 (nbb rmb : FVec Ideal S8000x16 .f32) (ptb : FVec Ideal S16x16 .f32) (NB RM : Cert.Chain.TE) (PT : Cert.Chain.TP)
    (r : Fin 3200000) (p : Fin 8000) (q : Fin 16) (hn : ∀ j : Fin 16, nbb (ix2 p j) = NB (ix2 r j))
    (hr : ∀ j : Fin 16, rmb (ix2 p j) = RM (ix2 r j)) (hp : ∀ j k : Fin 16, ptb (ix2 j k) = PT (ix2 j k)) :
    Cert.Rows.diff (fun j : Fin 16 => nbb (ix2 p j)) (fun j : Fin 16 => rmb (ix2 p j)) (fun (j k : Fin 16) => ptb (ix2 j k)) q
      = Cert.Rows.diff (fun j : Fin 16 => NB (ix2 r j)) (fun j : Fin 16 => RM (ix2 r j)) (fun (j k : Fin 16) => PT (ix2 j k)) q := by
  have e1 : (fun j : Fin 16 => nbb (ix2 p j)) = fun j : Fin 16 => NB (ix2 r j) := funext hn
  have e2 : (fun j : Fin 16 => rmb (ix2 p j)) = fun j : Fin 16 => RM (ix2 r j) := funext hr
  have e3 : (fun (j k : Fin 16) => ptb (ix2 j k)) = fun (j k : Fin 16) => PT (ix2 j k) := funext fun j => funext (hp j)
  rw [e1, e2, e3]

/-- Reading any array through output block t at (p, q) reads the array at (8000·t + p, q). -/
theorem read5_3_apply (G : S3200000x16.Idx → Elt Ideal .f32) (t : Fin cfg5.N) (p : Fin 8000) (q : Fin 16) :
    ((cfg5.win 3).blk t).view.read (Elt Ideal) G (ix2 p q) = G (ix2 (row5 t p) q) := by
  show G (((cfg5.win 3).blk t).view.emb (ix2 p q)) = _
  rw [emb5_3]

theorem read5_4_apply (G : S3200000x16.Idx → Elt Ideal .f32) (t : Fin cfg5.N) (p : Fin 8000) (q : Fin 16) :
    ((cfg5.win 4).blk t).view.read (Elt Ideal) G (ix2 p q) = G (ix2 (row5 t p) q) := by
  show G (((cfg5.win 4).blk t).view.emb (ix2 p q)) = _
  rw [emb5_4]

/-- What point t writes back into the messages is block t of the diffusion step of the arrays the region found. -/
theorem flushed5_3_eq (c : Dev nD) (t : Fin cfg5.N) :
    (dat5 V c).flushed 3 t
      = ((cfg5.win 3).blk t).view.read (Elt Ideal) (Cert.Chain.diffuse (V c main_v63) (V c main_v70) (V c main_v8)) := by
  show (cfg5.win 3).cut (grid5.coords t) ((dat5 V c).after 3 t) = _
  rw [after5_3]
  unfold out5_3
  rw [View.canon_unit_zero hz5]
  simp only [View.ld_unit_zero (S := S8000x16) hz5, View.ld_unit_zero (S := S16x16) hz5]
  funext y
  obtain ⟨p, q, rfl⟩ : ∃ (p : Fin 8000) (q : Fin 16), y = ix2 p q := ⟨y 0, y 1, eq_ix2 y⟩
  exact (((congrFun (congrFun (congrFun (congrFun Cert.PayAt.k5_pay1_eq (iblk5 V c 0 t)) (iblk5 V c 1 t)) (iblk5 V c 2 t)) (ix2 p q)).trans (Cert.PayAt.k1_pay1_apply (iblk5 V c 0 t) (iblk5 V c 1 t) (iblk5 V c 2 t) p q)).trans
    (diff_row5 (iblk5 V c 0 t) (iblk5 V c 1 t) (iblk5 V c 2 t) (V c main_v63) (V c main_v70) (V c main_v8) (row5 t p) p q
      (iblk5_0_apply V c t p) (iblk5_1_apply V c t p) (iblk5_2_apply V c t))).trans
    ((Cert.ChainAt.diffuse_apply (V c main_v63) (V c main_v70) (V c main_v8) (row5 t p) q).symm.trans
      (read5_3_apply (Cert.Chain.diffuse (V c main_v63) (V c main_v70) (V c main_v8)) t p q).symm)

/-- What point t writes back into the log messages is block t of log(max(diffusion step, ε)). -/
theorem flushed5_4_eq (c : Dev nD) (t : Fin cfg5.N) :
    (dat5 V c).flushed 4 t
      = ((cfg5.win 4).blk t).view.read (Elt Ideal)
          (Cert.Chain.logClampE (Cert.Chain.diffuse (V c main_v63) (V c main_v70) (V c main_v8))) := by
  show (cfg5.win 4).cut (grid5.coords t) ((dat5 V c).after 4 t) = _
  rw [after5_4]
  unfold out5_4
  rw [View.canon_unit_zero hz5]
  simp only [View.ld_unit_zero (S := S8000x16) hz5, View.ld_unit_zero (S := S16x16) hz5]
  funext y
  obtain ⟨p, q, rfl⟩ : ∃ (p : Fin 8000) (q : Fin 16), y = ix2 p q := ⟨y 0, y 1, eq_ix2 y⟩
  exact (((congrFun (congrFun (congrFun (congrFun Cert.PayAt.k5_pay2_eq (iblk5 V c 0 t)) (iblk5 V c 1 t)) (iblk5 V c 2 t)) (ix2 p q)).trans (Cert.PayAt.k1_pay2_apply (iblk5 V c 0 t) (iblk5 V c 1 t) (iblk5 V c 2 t) p q)).trans
    (congrArg Cert.Rows.clampLog
      (diff_row5 (iblk5 V c 0 t) (iblk5 V c 1 t) (iblk5 V c 2 t) (V c main_v63) (V c main_v70) (V c main_v8) (row5 t p) p q
        (iblk5_0_apply V c t p) (iblk5_1_apply V c t p) (iblk5_2_apply V c t)))).trans
    (((Cert.ChainAt.logClampE_apply (Cert.Chain.diffuse (V c main_v63) (V c main_v70) (V c main_v8)) (ix2 (row5 t p) q)).trans
        (congrArg Cert.Rows.clampLog (Cert.ChainAt.diffuse_apply (V c main_v63) (V c main_v70) (V c main_v8) (row5 t p) q))).symm.trans
      (read5_4_apply (Cert.Chain.logClampE (Cert.Chain.diffuse (V c main_v63) (V c main_v70) (V c main_v8))) t p q).symm)

/-- An index of an output array is in point t's block iff each coordinate is in the block's range on its axis. -/
theorem mem_blk5_3 (t : Fin cfg5.N) (i : S3200000x16.Idx) :
    i ∈ ((cfg5.win 3).blk t).view.set ↔ ∀ a : Fin 2, win5_3.index t a * S8000x16.size a ≤ (i a).val ∧ (i a).val < win5_3.index t a * S8000x16.size a + S8000x16.size a := by
  show i ∈ ((View.whole main_v71_0).slice (win5_3.rect t)).set ↔ _
  rw [View.set_slice_whole, Rect.mem_set_unit]
  exact Iff.rfl

theorem mem_blk5_4 (t : Fin cfg5.N) (i : S3200000x16.Idx) :
    i ∈ ((cfg5.win 4).blk t).view.set ↔ ∀ a : Fin 2, win5_4.index t a * S8000x16.size a ≤ (i a).val ∧ (i a).val < win5_4.index t a * S8000x16.size a + S8000x16.size a := by
  show i ∈ ((View.whole main_v71_1).slice (win5_4.rect t)).set ↔ _
  rw [View.set_slice_whole, Rect.mem_set_unit]
  exact Iff.rfl

/-- The point whose block holds row r is r / 8000. -/
def pointOf5 (i : S3200000x16.Idx) : Fin cfg5.N := ⟨(i 0).val / 8000, by
  have hi0 : (i 0).val < 3200000 := (i 0).isLt; have hN : cfg5.N = 400 := N_5; omega⟩

/-- The 400 row blocks tile the messages. -/
theorem tiles5_3 (i : S3200000x16.Idx) : ∃ t : Fin cfg5.N, (cfg5.win 3).flush t = true ∧ i ∈ ((cfg5.win 3).blk t).view.set := by
  have hi1 : (i 1).val < 16 := (i 1).isLt
  obtain ⟨-, -, -, -, -, -, e6, e7, -⟩ := idx_facts5 (pointOf5 i)
  refine ⟨pointOf5 i, flush5_3 _, ?_⟩
  rw [mem_blk5_3]
  intro a
  match a with
  | ⟨0, _⟩ =>
    show win5_3.index (pointOf5 i) (0 : Fin 2) * 8000 ≤ (i 0).val ∧ (i 0).val < win5_3.index (pointOf5 i) (0 : Fin 2) * 8000 + 8000
    rw [e6]; show (i 0).val / 8000 * 8000 ≤ (i 0).val ∧ (i 0).val < (i 0).val / 8000 * 8000 + 8000; omega
  | ⟨1, _⟩ =>
    show win5_3.index (pointOf5 i) (1 : Fin 2) * 16 ≤ (i 1).val ∧ (i 1).val < win5_3.index (pointOf5 i) (1 : Fin 2) * 16 + 16
    omega

/-- The 400 row blocks tile the log messages. -/
theorem tiles5_4 (i : S3200000x16.Idx) : ∃ t : Fin cfg5.N, (cfg5.win 4).flush t = true ∧ i ∈ ((cfg5.win 4).blk t).view.set := by
  have hi1 : (i 1).val < 16 := (i 1).isLt
  obtain ⟨-, -, -, -, -, -, -, -, e8, e9⟩ := idx_facts5 (pointOf5 i)
  refine ⟨pointOf5 i, flush5_4 _, ?_⟩
  rw [mem_blk5_4]
  intro a
  match a with
  | ⟨0, _⟩ =>
    show win5_4.index (pointOf5 i) (0 : Fin 2) * 8000 ≤ (i 0).val ∧ (i 0).val < win5_4.index (pointOf5 i) (0 : Fin 2) * 8000 + 8000
    rw [e8]; show (i 0).val / 8000 * 8000 ≤ (i 0).val ∧ (i 0).val < (i 0).val / 8000 * 8000 + 8000; omega
  | ⟨1, _⟩ =>
    show win5_4.index (pointOf5 i) (1 : Fin 2) * 16 ≤ (i 1).val ∧ (i 1).val < win5_4.index (pointOf5 i) (1 : Fin 2) * 16 + 16
    omega

/-- After the region the messages hold the diffusion step of the arrays the region found. -/
theorem final5_3 (c : Dev nD) :
    (dat5 V c).arrAt 3 cfg5.N = Cert.Chain.diffuse (V c main_v63) (V c main_v70) (V c main_v8) :=
  (dat5 V c).arrAt_eq_of_cover 3 _ (fun t _ => flushed5_3_eq V c t) tiles5_3

/-- After the region the log messages hold log(max(diffusion step, ε)). -/
theorem final5_4 (c : Dev nD) :
    (dat5 V c).arrAt 4 cfg5.N = Cert.Chain.logClampE (Cert.Chain.diffuse (V c main_v63) (V c main_v70) (V c main_v8)) :=
  (dat5 V c).arrAt_eq_of_cover 4 _ (fun t _ => flushed5_4_eq V c t) tiles5_4

end Cert.KernelIdeal.Blocks

end
-- ==== Proof.Blocks6.lean ====
/-
  Node-softmax region 6, from blocks to the array. Point t of its grid of 10 reads rows 10000·t … 10000·t+9999 of the
  summed log beliefs and writes the same rows of the beliefs; every entry is a function of its own row alone, so the
  ten blocks are the restrictions of the row softmax of the whole array to their rows, and they tile the array.
-/
import proofs.«147059_j74191265071404_2_alg».proof.Proof.Gen.KernelIdeal.Frame
import proofs.«147059_j74191265071404_2_alg».proof.Proof.PayAt
import proofs.«147059_j74191265071404_2_alg».proof.Proof.ChainAt
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: both windows sit at row block t. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- Row p of point t's block is row 10000·t + p of the array. -/
def row6 (t : Fin cfg6.N) (p : Fin 10000) : Fin 100000 := ⟨t.val * 10000 + p.val, by
  have := t.isLt; have hN : cfg6.N = 10 := N_6; have := p.isLt; omega⟩

theorem emb6_0 (t : Fin cfg6.N) (p : Fin 10000) (j : Fin 16) :
    ((cfg6.win 0).blk t).view.emb (ix2 p j) = ix2 (row6 t p) j := by
  obtain ⟨e0, e1, -⟩ := idx_facts6 t
  funext a; apply Fin.ext
  match a with
  | ⟨0, _⟩ => show win6_0.index t (0 : Fin 2) * 10000 + 1 * p.val = t.val * 10000 + p.val; omega
  | ⟨1, _⟩ => show win6_0.index t (1 : Fin 2) * 16 + 1 * j.val = j.val; omega

theorem emb6_1 (t : Fin cfg6.N) (p : Fin 10000) (q : Fin 16) :
    ((cfg6.win 1).blk t).view.emb (ix2 p q) = ix2 (row6 t p) q := by
  obtain ⟨-, -, e2, e3⟩ := idx_facts6 t
  funext a; apply Fin.ext
  match a with
  | ⟨0, _⟩ => show win6_1.index t (0 : Fin 2) * 10000 + 1 * p.val = t.val * 10000 + p.val; omega
  | ⟨1, _⟩ => show win6_1.index t (1 : Fin 2) * 16 + 1 * q.val = q.val; omega

/-- The input block at point t, entry (p, j), is the array's entry (10000·t + p, j). -/
theorem iblk6_0_apply (c : Dev nD) (t : Fin cfg6.N) (p : Fin 10000) (j : Fin 16) :
    iblk6 V c 0 t (ix2 p j) = V c main_v78 (ix2 (row6 t p) j) := by
  show V c main_v78 (((cfg6.win 0).blk t).view.emb (ix2 p j)) = _
  rw [emb6_0]

/-- A block row that is a row of the array has that row's softmax. -/
theorem sm_row6 (xb : FVec Ideal S10000x16 .f32) (X : Cert.Chain.TN) (r : Fin 100000) (p : Fin 10000) (q : Fin 16)
    (hx : ∀ j : Fin 16, xb (ix2 p j) = X (ix2 r j)) :
    Cert.Rows.sm (fun j : Fin 16 => xb (ix2 p j)) q = Cert.Rows.sm (fun j : Fin 16 => X (ix2 r j)) q :=
  congrArg (fun l => Cert.Rows.sm l q) (funext hx)

/-- What point t writes back is block t of the row softmax of the array the region found. -/
theorem flushed6_1_eq (c : Dev nD) (t : Fin cfg6.N) :
    (dat6 V c).flushed 1 t = ((cfg6.win 1).blk t).view.read (Elt Ideal) (Cert.Chain.softmax (V c main_v78)) := by
  show (cfg6.win 1).cut (grid6.coords t) ((dat6 V c).after 1 t) = _
  rw [after6_1]
  unfold out6_1
  rw [View.canon_unit_zero hz6]
  simp only [View.ld_unit_zero (S := S10000x16) hz6]
  funext y
  obtain ⟨p, q, rfl⟩ : ∃ (p : Fin 10000) (q : Fin 16), y = ix2 p q := ⟨y 0, y 1, eq_ix2 y⟩
  refine ((congrFun (congrFun Cert.PayAt.k6_pay1_eq (iblk6 V c 0 t)) (ix2 p q)).trans (Cert.PayAt.k2_pay1_apply (iblk6 V c 0 t) p q)).trans ?_
  show _ = Cert.Chain.softmax (V c main_v78) (((cfg6.win 1).blk t).view.emb (ix2 p q))
  rw [emb6_1, Cert.ChainAt.softmax_apply]
  exact sm_row6 (iblk6 V c 0 t) (V c main_v78) (row6 t p) p q (iblk6_0_apply V c t p)

/-- An index of the beliefs is in point t's block iff each coordinate is in the block's range on its axis. -/
theorem mem_blk6_1 (t : Fin cfg6.N) (i : S100000x16.Idx) :
    i ∈ ((cfg6.win 1).blk t).view.set ↔ ∀ a : Fin 2, win6_1.index t a * S10000x16.size a ≤ (i a).val ∧ (i a).val < win6_1.index t a * S10000x16.size a + S10000x16.size a := by
  show i ∈ ((View.whole main_v79).slice (win6_1.rect t)).set ↔ _
  rw [View.set_slice_whole, Rect.mem_set_unit]
  exact Iff.rfl

/-- The point whose block holds row r is r / 10000. -/
def pointOf6 (i : S100000x16.Idx) : Fin cfg6.N := ⟨(i 0).val / 10000, by
  have hi0 : (i 0).val < 100000 := (i 0).isLt; have hN : cfg6.N = 10 := N_6; omega⟩

/-- The ten row blocks tile the beliefs. -/
theorem tiles6_1 (i : S100000x16.Idx) : ∃ t : Fin cfg6.N, (cfg6.win 1).flush t = true ∧ i ∈ ((cfg6.win 1).blk t).view.set := by
  have hi1 : (i 1).val < 16 := (i 1).isLt
  obtain ⟨-, -, e2, e3⟩ := idx_facts6 (pointOf6 i)
  refine ⟨pointOf6 i, flush6_1 _, ?_⟩
  rw [mem_blk6_1]
  intro a
  match a with
  | ⟨0, _⟩ =>
    show win6_1.index (pointOf6 i) (0 : Fin 2) * 10000 ≤ (i 0).val ∧ (i 0).val < win6_1.index (pointOf6 i) (0 : Fin 2) * 10000 + 10000
    rw [e2]; show (i 0).val / 10000 * 10000 ≤ (i 0).val ∧ (i 0).val < (i 0).val / 10000 * 10000 + 10000; omega
  | ⟨1, _⟩ =>
    show win6_1.index (pointOf6 i) (1 : Fin 2) * 16 ≤ (i 1).val ∧ (i 1).val < win6_1.index (pointOf6 i) (1 : Fin 2) * 16 + 16
    omega

/-- After the region the beliefs hold the row softmax of the array the region found. -/
theorem final6_1 (c : Dev nD) : (dat6 V c).arrAt 1 cfg6.N = Cert.Chain.softmax (V c main_v78) :=
  (dat6 V c).arrAt_eq_of_cover 1 _ (fun t _ => flushed6_1_eq V c t) tiles6_1

end Cert.KernelIdeal.Blocks

end
-- ==== Proof.KChain3.lean ====
/-
  The third round of the network on the kernel side, as bookkeeping of which buffer holds what: from the contents after
  the second round's beliefs were written, the host stretch gathers the beliefs' and the messages' rows, the diffusion
  region writes the log of the clamped new messages, the next host stretch adds them into the log priors' rows, and the
  last region writes the row softmax. The priors' buffer is touched by none of these.
-/
import proofs.«147059_j74191265071404_2_alg».proof.Proof.Gen.KernelIdeal.Frame
import proofs.«147059_j74191265071404_2_alg».proof.Proof.Chain
import proofs.«147059_j74191265071404_2_alg».proof.Proof.Blocks5
import proofs.«147059_j74191265071404_2_alg».proof.Proof.Blocks6

set_option maxRecDepth 16384

noncomputable section

namespace Cert.KernelIdeal.KChain

open Cert.KernelIdeal Cert.KernelIdeal.Gen Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg) (c : Dev nD)

/-- A stretch of host operations leaves a buffer none of them writes as it found it. -/
local macro "skip_host " h:ident : tactic =>
  `(tactic| exact StableHlo.after_of_forall_not_mem _ _ (List.forall_iff_forall_mem.mp (by
      simp only [$h:ident, List.Forall, StableHlo.nullary_writes, StableHlo.unary_writes, StableHlo.binary_writes,
        StableHlo.ternary_writes, Finset.mem_singleton]
      repeat' apply And.intro
      all_goals exact StableHlo.devRef_ne_of_ne (by decide))))

/-! ## The host stretch before the third diffusion -/

theorem W11_v63 : W11 (F := Ideal) m ρ c (Proc.devRef .tc main_v63)
    = Cert.Chain.gatherN (W10 (F := Ideal) m ρ c (Proc.devRef .tc main_v56)) (Cert.Chain.wrap 100000#32 (W10 (F := Ideal) m ρ c (Proc.devRef .tc main_arg2))) := by
  show StableHlo.after hostOps5 (W10 (F := Ideal) m ρ c) (Proc.devRef .tc main_v63) = _
  simp only [hostOps5]
  after_results
  rfl

theorem W11_v70 : W11 (F := Ideal) m ρ c (Proc.devRef .tc main_v70)
    = Cert.Chain.gatherE (W10 (F := Ideal) m ρ c (Proc.devRef .tc main_v48_0)) (Cert.Chain.wrap 3200000#32 (W10 (F := Ideal) m ρ c (Proc.devRef .tc main_arg4))) := by
  show StableHlo.after hostOps5 (W10 (F := Ideal) m ρ c) (Proc.devRef .tc main_v70) = _
  simp only [hostOps5]
  after_results_simp
  rfl

theorem W11_v8 : W11 (F := Ideal) m ρ c (Proc.devRef .tc main_v8) = W10 (F := Ideal) m ρ c (Proc.devRef .tc main_v8) := by
  skip_host hostOps5

theorem W11_v9_1 : W11 (F := Ideal) m ρ c (Proc.devRef .tc main_v9_1) = W10 (F := Ideal) m ρ c (Proc.devRef .tc main_v9_1) := by
  skip_host hostOps5

theorem W11_arg3 : W11 (F := Ideal) m ρ c (Proc.devRef .tc main_arg3) = W10 (F := Ideal) m ρ c (Proc.devRef .tc main_arg3) := by
  skip_host hostOps5

theorem W11_v9_0 : W11 (F := Ideal) m ρ c (Proc.devRef .tc main_v9_0) = W10 (F := Ideal) m ρ c (Proc.devRef .tc main_v9_0) := by
  skip_host hostOps5

/-! ## The third diffusion, the scatter, the last softmax -/

section Regions

variable (f54 : ∀ (V : (c : Dev nD) → (b : Ref sig .tc) → Buf (Elt Ideal) ((c : Thread nD τ).loc b)) (c : Dev nD),
    (dat5 V c).arrAt 4 cfg5.N = Cert.Chain.logClampE (Cert.Chain.diffuse (V c main_v63) (V c main_v70) (V c main_v8)))
variable (f61 : ∀ (V : (c : Dev nD) → (b : Ref sig .tc) → Buf (Elt Ideal) ((c : Thread nD τ).loc b)) (c : Dev nD),
    (dat6 V c).arrAt 1 cfg6.N = Cert.Chain.softmax (V c main_v78))

include f54 in
/-- The third diffusion leaves the log of the clamped new messages, computed from the gathered beliefs and messages. -/
theorem W12_v71_1_of : W12 (F := Ideal) m ρ c (Proc.devRef .tc main_v71_1)
    = Cert.Chain.logClampE (Cert.Chain.diffuse
        (Cert.Chain.gatherN (W10 (F := Ideal) m ρ c (Proc.devRef .tc main_v56)) (Cert.Chain.wrap 100000#32 (W10 (F := Ideal) m ρ c (Proc.devRef .tc main_arg2))))
        (Cert.Chain.gatherE (W10 (F := Ideal) m ρ c (Proc.devRef .tc main_v48_0)) (Cert.Chain.wrap 3200000#32 (W10 (F := Ideal) m ρ c (Proc.devRef .tc main_arg4))))
        (W10 (F := Ideal) m ρ c (Proc.devRef .tc main_v8))) := by
  refine (W12_arr (F := Ideal) m ρ c 4).trans ((f54 (V11 (F := Ideal) m ρ) c).trans ?_)
  show Cert.Chain.logClampE (Cert.Chain.diffuse (W11 (F := Ideal) m ρ c (Proc.devRef .tc main_v63)) (W11 (F := Ideal) m ρ c (Proc.devRef .tc main_v70))
    (W11 (F := Ideal) m ρ c (Proc.devRef .tc main_v8))) = _
  rw [W11_v63, W11_v70, W11_v8]

theorem W12_v9_1 : W12 (F := Ideal) m ρ c (Proc.devRef .tc main_v9_1) = W10 (F := Ideal) m ρ c (Proc.devRef .tc main_v9_1) :=
  (W12_of_ne (F := Ideal) m ρ c main_v9_1 (by decide)).trans (W11_v9_1 m ρ c)

theorem W12_arg3 : W12 (F := Ideal) m ρ c (Proc.devRef .tc main_arg3) = W10 (F := Ideal) m ρ c (Proc.devRef .tc main_arg3) :=
  (W12_of_ne (F := Ideal) m ρ c main_arg3 (by decide)).trans (W11_arg3 m ρ c)

theorem W12_v9_0 : W12 (F := Ideal) m ρ c (Proc.devRef .tc main_v9_0) = W10 (F := Ideal) m ρ c (Proc.devRef .tc main_v9_0) :=
  (W12_of_ne (F := Ideal) m ρ c main_v9_0 (by decide)).trans (W11_v9_0 m ρ c)

/-- The host stretch before the last softmax adds the log messages into the log priors' rows. -/
theorem W13_v78 : W13 (F := Ideal) m ρ c (Proc.devRef .tc main_v78)
    = Cert.Chain.scat (W12 (F := Ideal) m ρ c (Proc.devRef .tc main_v9_1)) (Cert.Chain.wrap 100000#32 (W12 (F := Ideal) m ρ c (Proc.devRef .tc main_arg3)))
        (W12 (F := Ideal) m ρ c (Proc.devRef .tc main_v71_1)) := by
  show StableHlo.after hostOps6 (W12 (F := Ideal) m ρ c) (Proc.devRef .tc main_v78) = _
  simp only [hostOps6]
  after_results_simp
  rfl

theorem W13_v9_0 : W13 (F := Ideal) m ρ c (Proc.devRef .tc main_v9_0) = W12 (F := Ideal) m ρ c (Proc.devRef .tc main_v9_0) := by
  skip_host hostOps6

include f54 f61 in
/-- The third round, over what the two regions are known to compute. -/
theorem round3_of (B LP : Cert.Chain.TN) (M : Cert.Chain.TE) (a2 a3 a4 : Cert.Chain.TI)
    (hB : W10 (F := Ideal) m ρ c (Proc.devRef .tc main_v56) = B) (hM : W10 (F := Ideal) m ρ c (Proc.devRef .tc main_v48_0) = M)
    (hLP : W10 (F := Ideal) m ρ c (Proc.devRef .tc main_v9_1) = LP) (hpot : W10 (F := Ideal) m ρ c (Proc.devRef .tc main_v8) = Cert.Chain.pot)
    (h2 : W10 (F := Ideal) m ρ c (Proc.devRef .tc main_arg2) = a2) (h3 : W10 (F := Ideal) m ρ c (Proc.devRef .tc main_arg3) = a3) (h4 : W10 (F := Ideal) m ρ c (Proc.devRef .tc main_arg4) = a4) :
    W14 (F := Ideal) m ρ c (Proc.devRef .tc main_v79) = Cert.Chain.belief LP a3 (Cert.Chain.step a2 a4 B M)
    ∧ W14 (F := Ideal) m ρ c (Proc.devRef .tc main_v9_0) = W10 (F := Ideal) m ρ c (Proc.devRef .tc main_v9_0) := by
  constructor
  · refine (W14_arr (F := Ideal) m ρ c 1).trans ((f61 (V13 (F := Ideal) m ρ) c).trans ?_)
    show Cert.Chain.softmax (W13 (F := Ideal) m ρ c (Proc.devRef .tc main_v78)) = _
    rw [W13_v78, W12_v71_1_of m ρ c f54, W12_v9_1, W12_arg3, hB, hM, hLP, hpot, h2, h3, h4]
    rfl
  · exact (W14_of_ne (F := Ideal) m ρ c main_v9_0 (by decide)).trans ((W13_v9_0 m ρ c).trans (W12_v9_0 m ρ c))

end Regions

/-- The third round: new messages from the second round's beliefs and messages, new beliefs from the log priors and
    those messages; the priors stay where they were. -/
theorem round3 (B LP : Cert.Chain.TN) (M : Cert.Chain.TE) (a2 a3 a4 : Cert.Chain.TI)
    (hB : W10 (F := Ideal) m ρ c (Proc.devRef .tc main_v56) = B) (hM : W10 (F := Ideal) m ρ c (Proc.devRef .tc main_v48_0) = M)
    (hLP : W10 (F := Ideal) m ρ c (Proc.devRef .tc main_v9_1) = LP) (hpot : W10 (F := Ideal) m ρ c (Proc.devRef .tc main_v8) = Cert.Chain.pot)
    (h2 : W10 (F := Ideal) m ρ c (Proc.devRef .tc main_arg2) = a2) (h3 : W10 (F := Ideal) m ρ c (Proc.devRef .tc main_arg3) = a3) (h4 : W10 (F := Ideal) m ρ c (Proc.devRef .tc main_arg4) = a4) :
    W14 (F := Ideal) m ρ c (Proc.devRef .tc main_v79) = Cert.Chain.belief LP a3 (Cert.Chain.step a2 a4 B M)
    ∧ W14 (F := Ideal) m ρ c (Proc.devRef .tc main_v9_0) = W10 (F := Ideal) m ρ c (Proc.devRef .tc main_v9_0) :=
  round3_of m ρ c (fun V c => Cert.KernelIdeal.Blocks.final5_4 V c) (fun V c => Cert.KernelIdeal.Blocks.final6_1 V c) B LP M a2 a3 a4 hB hM hLP hpot h2 h3 h4

end Cert.KernelIdeal.KChain
end
-- ==== Proof.KChain.lean ====
/-
  The kernel's two results as the network of the reference's stages: the three rounds chained. After round 1 the
  buffers hold the first beliefs and messages; rounds 2 and 3 are stated over whatever beliefs and messages they find,
  so chaining them is substitution, and the priors' buffer is written by the first region alone.
-/
import proofs.«147059_j74191265071404_2_alg».proof.Proof.KChain1
import proofs.«147059_j74191265071404_2_alg».proof.Proof.KChain2
import proofs.«147059_j74191265071404_2_alg».proof.Proof.KChain3

noncomputable section

namespace Cert.KernelIdeal.KChain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- At the return the priors' buffer holds softmax(x·W) of the launch arrays. -/
theorem W14_priors :
    W14 (F := Ideal) m ρ c (Proc.devRef .tc main_v9_0)
      = Cert.Chain.priors (m ((c : Thread nD τ).loc main_arg0)) (m ((c : Thread nD τ).loc main_arg1)) := by
  obtain ⟨hB1, hM1, hLP, hpot, hP, h2, h3, h4⟩ := round1 m ρ c
  obtain ⟨hB2, hM2, hLP', hpot', hP', h2', h3', h4'⟩ := round2 m ρ c _ _ _ _ _ _ hB1 hM1 hLP hpot h2 h3 h4
  obtain ⟨-, hP''⟩ := round3 m ρ c _ _ _ _ _ _ hB2 hM2 hLP' hpot' h2' h3' h4'
  exact hP''.trans (hP'.trans hP)

/-- At the return the beliefs' buffer holds the beliefs after three rounds, of the launch arrays. -/
theorem W14_beliefs :
    W14 (F := Ideal) m ρ c (Proc.devRef .tc main_v79)
      = Cert.Chain.beliefs (m ((c : Thread nD τ).loc main_arg0)) (m ((c : Thread nD τ).loc main_arg1))
          (m ((c : Thread nD τ).loc main_arg2)) (m ((c : Thread nD τ).loc main_arg3)) (m ((c : Thread nD τ).loc main_arg4)) := by
  obtain ⟨hB1, hM1, hLP, hpot, hP, h2, h3, h4⟩ := round1 m ρ c
  obtain ⟨hB2, hM2, hLP', hpot', hP', h2', h3', h4'⟩ := round2 m ρ c _ _ _ _ _ _ hB1 hM1 hLP hpot h2 h3 h4
  obtain ⟨hB3, -⟩ := round3 m ρ c _ _ _ _ _ _ hB2 hM2 hLP' hpot' h2' h3' h4'
  exact hB3

end Cert.KernelIdeal.KChain

end
-- ==== Proof.RChain.lean ====
/-
  The reference's run with its two results named as the belief-propagation network: the first result is the priors, the
  second the beliefs after three rounds, each as the composition of the whole-array stages applied to the arguments'
  launch contents. Every named intermediate of the composed term is one stage applied to earlier intermediates; the
  network is their composition.
-/
import proofs.«147059_j74191265071404_2_alg».proof.Proof.Gen.ReferenceIdeal.Run
import proofs.«147059_j74191265071404_2_alg».proof.Proof.Chain

noncomputable section

namespace Cert.RChain

open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

/-! ## Each intermediate is one stage of earlier ones -/

theorem v8_eq : res_main_v8 (F := Ideal) V0 = Cert.Chain.pot := rfl

theorem v9_eq : res_main_v9 (F := Ideal) V0 = Cert.Chain.dot (V0 (Proc.devRef .tc main_arg0)) (V0 (Proc.devRef .tc main_arg1)) := rfl

theorem v16_eq : res_main_v16 (F := Ideal) V0 = Cert.Chain.expShift (res_main_v9 V0) := rfl

theorem v20_eq : res_main_v20 (F := Ideal) V0 = Cert.Chain.normN (res_main_v16 V0) := rfl

theorem v23_eq : res_main_v23 (F := Ideal) V0 = Cert.Chain.logClampN (res_main_v20 V0) := rfl

theorem v40_eq : res_main_v40 (F := Ideal) V0
    = Cert.Chain.mix (Cert.Chain.gatherN (res_main_v20 V0) (Cert.Chain.wrap 100000#32 (V0 (Proc.devRef .tc main_arg2))))
        (Cert.Chain.gatherE Cert.Chain.msg0 (Cert.Chain.wrap 3200000#32 (V0 (Proc.devRef .tc main_arg4)))) (res_main_v8 V0) := rfl

theorem v44_eq : res_main_v44 (F := Ideal) V0 = Cert.Chain.normE (res_main_v40 V0) := rfl

theorem v54_eq : res_main_v54 (F := Ideal) V0
    = Cert.Chain.scat (res_main_v23 V0) (Cert.Chain.wrap 100000#32 (V0 (Proc.devRef .tc main_arg3))) (Cert.Chain.logClampE (res_main_v44 V0)) := rfl

theorem v61_eq : res_main_v61 (F := Ideal) V0 = Cert.Chain.expShift (res_main_v54 V0) := rfl

theorem v81_eq : res_main_v81 (F := Ideal) V0
    = Cert.Chain.mix (Cert.Chain.gatherN (Cert.Chain.normN (res_main_v61 V0)) (Cert.Chain.wrap 100000#32 (V0 (Proc.devRef .tc main_arg2))))
        (Cert.Chain.gatherE (res_main_v44 V0) (Cert.Chain.wrap 3200000#32 (V0 (Proc.devRef .tc main_arg4)))) (res_main_v8 V0) := rfl

theorem v85_eq : res_main_v85 (F := Ideal) V0 = Cert.Chain.normE (res_main_v81 V0) := rfl

theorem v95_eq : res_main_v95 (F := Ideal) V0
    = Cert.Chain.scat (res_main_v23 V0) (Cert.Chain.wrap 100000#32 (V0 (Proc.devRef .tc main_arg3))) (Cert.Chain.logClampE (res_main_v85 V0)) := rfl

theorem v102_eq : res_main_v102 (F := Ideal) V0 = Cert.Chain.expShift (res_main_v95 V0) := rfl

theorem v122_eq : res_main_v122 (F := Ideal) V0
    = Cert.Chain.mix (Cert.Chain.gatherN (Cert.Chain.normN (res_main_v102 V0)) (Cert.Chain.wrap 100000#32 (V0 (Proc.devRef .tc main_arg2))))
        (Cert.Chain.gatherE (res_main_v85 V0) (Cert.Chain.wrap 3200000#32 (V0 (Proc.devRef .tc main_arg4)))) (res_main_v8 V0) := rfl

theorem v136_eq : res_main_v136 (F := Ideal) V0
    = Cert.Chain.scat (res_main_v23 V0) (Cert.Chain.wrap 100000#32 (V0 (Proc.devRef .tc main_arg3)))
        (Cert.Chain.logClampE (Cert.Chain.normE (res_main_v122 V0))) := rfl

theorem v143_eq : res_main_v143 (F := Ideal) V0 = Cert.Chain.expShift (res_main_v136 V0) := rfl

/-- The second result as the generated run spells it: the last shifted exponentials divided by their row sums. -/
theorem out_eq :
    Host.divf (res_main_v143 (F := Ideal) V0) (broadcastInDim S100000x16 ![0, 1] bcast_S100000x1_S100000x16_0_1 (broadcastInDim S100000x1 ![0] bcast_S100000_S100000x1_0 (Host.reduceAdd (res_main_v143 V0) (constant S_ .f32 0x00000000#32) reducesTo_S100000x16_S100000_d1 h_S_)))
      = Cert.Chain.normN (res_main_v143 V0) := rfl

/-! ## The network on the arguments a valuation holds -/

/-- The priors, their clamped logarithms, one message step and one belief update on the valuation's arguments. -/
def pri : Cert.Chain.TN := Cert.Chain.priors (V0 (Proc.devRef .tc main_arg0)) (V0 (Proc.devRef .tc main_arg1))
def lpri : Cert.Chain.TN := Cert.Chain.logClampN (pri V0)
def stepV (b : Cert.Chain.TN) (m : Cert.Chain.TE) : Cert.Chain.TE :=
  Cert.Chain.step (V0 (Proc.devRef .tc main_arg2)) (V0 (Proc.devRef .tc main_arg4)) b m
def beliefV (m : Cert.Chain.TE) : Cert.Chain.TN := Cert.Chain.belief (lpri V0) (V0 (Proc.devRef .tc main_arg3)) m

/-- The messages and beliefs of the three rounds. -/
def m1 : Cert.Chain.TE := stepV V0 (pri V0) Cert.Chain.msg0
def b1 : Cert.Chain.TN := beliefV V0 (m1 V0)
def m2 : Cert.Chain.TE := stepV V0 (b1 V0) (m1 V0)
def b2 : Cert.Chain.TN := beliefV V0 (m2 V0)
def m3 : Cert.Chain.TE := stepV V0 (b2 V0) (m2 V0)

/-- The beliefs after three rounds are the third belief update. -/
theorem beliefs_rounds :
    Cert.Chain.beliefs (V0 (Proc.devRef .tc main_arg0)) (V0 (Proc.devRef .tc main_arg1)) (V0 (Proc.devRef .tc main_arg2))
        (V0 (Proc.devRef .tc main_arg3)) (V0 (Proc.devRef .tc main_arg4)) = beliefV V0 (m3 V0) := rfl

theorem pri_eq : res_main_v20 (F := Ideal) V0 = pri V0 := by
  rw [v20_eq, v16_eq, v9_eq]; rfl

theorem lpri_eq : res_main_v23 (F := Ideal) V0 = lpri V0 := by
  rw [v23_eq, pri_eq]; rfl

theorem m1_eq : res_main_v44 (F := Ideal) V0 = m1 V0 := by
  rw [v44_eq, v40_eq, pri_eq, v8_eq]; rfl

theorem b1_eq : Cert.Chain.normN (res_main_v61 (F := Ideal) V0) = b1 V0 := by
  rw [v61_eq, v54_eq, lpri_eq, m1_eq]; rfl

theorem m2_eq : res_main_v85 (F := Ideal) V0 = m2 V0 := by
  rw [v85_eq, v81_eq, b1_eq, m1_eq, v8_eq]; rfl

theorem b2_eq : Cert.Chain.normN (res_main_v102 (F := Ideal) V0) = b2 V0 := by
  rw [v102_eq, v95_eq, lpri_eq, m2_eq]; rfl

theorem m3_eq : Cert.Chain.normE (res_main_v122 (F := Ideal) V0) = m3 V0 := by
  rw [v122_eq, b2_eq, m2_eq, v8_eq]; rfl

/-- The first result is the priors. -/
theorem priors_eq :
    res_main_v20 (F := Ideal) V0 = Cert.Chain.priors (V0 (Proc.devRef .tc main_arg0)) (V0 (Proc.devRef .tc main_arg1)) :=
  pri_eq V0

/-- The second result is the beliefs after three rounds. -/
theorem beliefs_eq :
    Host.divf (res_main_v143 (F := Ideal) V0) (broadcastInDim S100000x16 ![0, 1] bcast_S100000x1_S100000x16_0_1 (broadcastInDim S100000x1 ![0] bcast_S100000_S100000x1_0 (Host.reduceAdd (res_main_v143 V0) (constant S_ .f32 0x00000000#32) reducesTo_S100000x16_S100000_d1 h_S_)))
      = Cert.Chain.beliefs (V0 (Proc.devRef .tc main_arg0)) (V0 (Proc.devRef .tc main_arg1)) (V0 (Proc.devRef .tc main_arg2))
          (V0 (Proc.devRef .tc main_arg3)) (V0 (Proc.devRef .tc main_arg4)) := by
  rw [out_eq, v143_eq, v136_eq, lpri_eq, m3_eq, beliefs_rounds]; rfl

/-! ## The run -/

/-- On every device, from any memory with zero counters, every weakly fair execution of the reference terminates with
    the first result the priors and the second the beliefs after three rounds, of the arguments' launch contents, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = Cert.Chain.priors (m ((c.tc : Thread nD τ).loc main_arg0)) (m ((c.tc : Thread nD τ).loc main_arg1))
      ∧ r.2.mem ((c.tc : Thread nD τ).loc main_v147) = Cert.Chain.beliefs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun r h c => ⟨(h c).1.trans (priors_eq (launchContents m c)), (h c).2.1.trans (beliefs_eq (launchContents m c)), (h c).2.2⟩)
    (Cert.ReferenceIdeal.Value.run (F := Ideal) m ρ)

end Cert.RChain

end
-- ==== Proof.lean ====
/-
  Belief propagation on a graph: priors = softmax(features · W) and, three times, messages from the gathered beliefs
  divided by the gathered reverse messages, mixed by the potential and renormalised, then beliefs = the row softmax of
  the log priors plus the scattered log messages.

  The kernel program runs the three dense stages — the classifier, the diffusion step, the node softmax — as seven
  tiled regions among the host's gathers and scatter-adds; the reference runs everything on the host. Every dense stage
  works row by row, so a region's blocks are the restrictions of the reference's whole-array stage to their rows and tile
  its arrays (Blocks0 … Blocks6, over the row functions of Rows and their readings PayAt / ChainAt); the irregular glue
  is the same whole-array functions of equal arrays on both sides and is never opened (Chain). Walking the kernel
  program's buffers from the launch to the return (KChain1 … KChain3, KChain) and reading the reference's run back
  (RChain) gives both results as the same network of the launch arrays. No finiteness is used: at the extended reals
  the two programs apply the same operations to the same values in the same order, up to tiling.
-/
import proofs.«147059_j74191265071404_2_alg».proof.Defs
import proofs.«147059_j74191265071404_2_alg».proof.Proof.Gen.Kernel
import proofs.«147059_j74191265071404_2_alg».proof.Proof.Gen.Kernel.Skeleton
import proofs.«147059_j74191265071404_2_alg».proof.Proof.Gen.Kernel.Launch
import proofs.«147059_j74191265071404_2_alg».proof.Proof.Gen.Kernel.Points
import proofs.«147059_j74191265071404_2_alg».proof.Proof.Gen.Kernel.Frame
import proofs.«147059_j74191265071404_2_alg».proof.Proof.Gen.KernelIdeal
import proofs.«147059_j74191265071404_2_alg».proof.Proof.Gen.KernelIdeal.Skeleton
import proofs.«147059_j74191265071404_2_alg».proof.Proof.Gen.KernelIdeal.Launch
import proofs.«147059_j74191265071404_2_alg».proof.Proof.Gen.KernelIdeal.Points
import proofs.«147059_j74191265071404_2_alg».proof.Proof.Gen.KernelIdeal.Frame
import proofs.«147059_j74191265071404_2_alg».proof.Proof.Gen.ReferenceIdeal
import proofs.«147059_j74191265071404_2_alg».proof.Proof.Gen.ReferenceIdeal.Run
import proofs.«147059_j74191265071404_2_alg».proof.Proof.Gen.Pre_finite_inputs
import proofs.«147059_j74191265071404_2_alg».proof.Proof.KRun
import proofs.«147059_j74191265071404_2_alg».proof.Proof.KChain
import proofs.«147059_j74191265071404_2_alg».proof.Proof.RChain
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the priors and the beliefs of the network of Chain, of arguments that agree. -/
theorem algebraic : Cert.algebraic_KernelIdeal_ReferenceIdeal := by
  intro m ρ m' ρ' _ hagree
  refine ⟨fun c => Cert.Chain.priors (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Chain.beliefs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.KChain.W14_priors m ρ c),
        (h c).2.1.trans (Cert.KernelIdeal.KChain.W14_beliefs m ρ c), (h c).2.2⟩)
      (Cert.KernelIdeal.KRun.run m ρ)
  · refine (θ_run Cert.ReferenceIdeal.defs _ _).mono (fun _ h c => ⟨(h c).1.trans ?_, (h c).2.1.trans ?_, (h c).2.2⟩)
      (Cert.RChain.run m' ρ')
    · rw [(hagree c).1, (hagree c).2.1]
    · rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
